-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v211) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1x256x256 : Shape := ⟨4, ![4, 1, 256, 256]⟩
abbrev S_ : Shape := ⟨0, ![]⟩

class Facts : Prop where
  bcast_S_S4x1x256x256 : S_.BroadcastsInDim S4x1x256x256 (![] : Fin 0 → Fin S4x1x256x256.rank)
  reducesTo_S4x1x256x256_S_d0_1_2_3 : S4x1x256x256.ReducesTo [0, 1, 2, 3] S_
  h_S_ : 0 < S_.numel

variable [Facts]

def fn {F : FTy → Type} [FloatOps F] (main_arg0 : FVec F S4x1x256x256 .f32) (main_arg1 : FVec F S4x1x256x256 .f32) : IVec S_ 1 :=
  let main_v0 : FVec F S4x1x256x256 .f32 := Host.absf main_arg0
  let main_cst : FVec F S_ .f32 := constant S_ .f32 0x7F800000#32
  let main_v1 : FVec F S4x1x256x256 .f32 := broadcastInDim S4x1x256x256 ![] bcast_S_S4x1x256x256 main_cst
  let main_v2 : IVec S4x1x256x256 1 := cmpf .olt main_v0 main_v1
  let main_c : IVec S_ 1 := constantI S_ 1 1#1
  let main_v3 : IVec S_ 1 := (fun x v => Host.reduce IntOp.andi x v reducesTo_S4x1x256x256_S_d0_1_2_3 h_S_) main_v2 main_c
  let main_v4 : FVec F S4x1x256x256 .f32 := Host.absf main_arg1
  let main_cst_0 : FVec F S_ .f32 := constant S_ .f32 0x7F800000#32
  let main_v5 : FVec F S4x1x256x256 .f32 := broadcastInDim S4x1x256x256 ![] bcast_S_S4x1x256x256 main_cst_0
  let main_v6 : IVec S4x1x256x256 1 := cmpf .olt main_v4 main_v5
  let main_c_1 : IVec S_ 1 := constantI S_ 1 1#1
  let main_v7 : IVec S_ 1 := (fun x v => Host.reduce IntOp.andi x v reducesTo_S4x1x256x256_S_d0_1_2_3 h_S_) main_v6 main_c_1
  let main_v8 : IVec S_ 1 := andi main_v3 main_v7
  main_v8
-- ==== Kernel.lean ====
abbrev S4x1x256x256 : Shape := ⟨4, ![4, 1, 256, 256]⟩
abbrev S_ : Shape := ⟨0, ![]⟩
abbrev S4x256x256 : Shape := ⟨3, ![4, 256, 256]⟩
abbrev S4 : Shape := ⟨1, ![4]⟩
abbrev S1x4x256x256 : Shape := ⟨4, ![1, 4, 256, 256]⟩
abbrev S4x4x256x256 : Shape := ⟨4, ![4, 4, 256, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S4096x256 : Shape := ⟨2, ![4096, 256]⟩
abbrev S32x256 : Shape := ⟨2, ![32, 256]⟩
abbrev S32x128 : Shape := ⟨2, ![32, 128]⟩
abbrev S128x256 : Shape := ⟨2, ![128, 256]⟩
abbrev S32x128x1 : Shape := ⟨3, ![32, 128, 1]⟩
abbrev S1x128x256 : Shape := ⟨3, ![1, 128, 256]⟩
abbrev S32x128x256 : Shape := ⟨3, ![32, 128, 256]⟩
abbrev S4x1x1 : Shape := ⟨3, ![4, 1, 1]⟩

abbrev nBuf : Space → Nat
  | .hbm => 97
  | .vmem => 10
  | .smem => 0
  | _ => 0

abbrev bufTy : (tb : Table) → Fin (tcTables nBuf tb) → BufTy
  | .hbm, ⟨0, _⟩ => ⟨S4x1x256x256, .f32⟩
  | .hbm, ⟨1, _⟩ => ⟨S4x1x256x256, .f32⟩
  | .hbm, ⟨2, _⟩ => ⟨S_, .f32⟩
  | .hbm, ⟨3, _⟩ => ⟨S4x1x256x256, .f32⟩
  | .hbm, ⟨4, _⟩ => ⟨S4x1x256x256, .i1⟩
  | .hbm, ⟨5, _⟩ => ⟨S4x256x256, .i1⟩
  | .hbm, ⟨6, _⟩ => ⟨S_, .f32⟩
  | .hbm, ⟨7, _⟩ => ⟨S4x1x256x256, .f32⟩
  | .hbm, ⟨8, _⟩ => ⟨S4x1x256x256, .i1⟩
  | .hbm, ⟨9, _⟩ => ⟨S4x256x256, .i1⟩
  | .hbm, ⟨10, _⟩ => ⟨S_, .i1⟩
  | .hbm, ⟨11, _⟩ => ⟨S4, .i1⟩
  | .hbm, ⟨12, _⟩ => ⟨S_, .i1⟩
  | .hbm, ⟨13, _⟩ => ⟨S4, .i1⟩
  | .hbm, ⟨14, _⟩ => ⟨S_, .f32⟩
  | .hbm, ⟨15, _⟩ => ⟨S_, .f32⟩
  | .hbm, ⟨16, _⟩ => ⟨S4x256x256, .f32⟩
  | .hbm, ⟨17, _⟩ => ⟨S4x256x256, .f32⟩
  | .hbm, ⟨18, _⟩ => ⟨S4x256x256, .f32⟩
  | .hbm, ⟨19, _⟩ => ⟨S_, .f32⟩
  | .hbm, ⟨20, _⟩ => ⟨S_, .f32⟩
  | .hbm, ⟨21, _⟩ => ⟨S4x256x256, .f32⟩
  | .hbm, ⟨22, _⟩ => ⟨S4x256x256, .f32⟩
  | .hbm, ⟨23, _⟩ => ⟨S4x256x256, .f32⟩
  | .hbm, ⟨24, _⟩ => ⟨S_, .f32⟩
  | .hbm, ⟨25, _⟩ => ⟨S4x256x256, .f32⟩
  | .hbm, ⟨26, _⟩ => ⟨S4x256x256, .f32⟩
  | .hbm, ⟨27, _⟩ => ⟨S_, .f32⟩
  | .hbm, ⟨28, _⟩ => ⟨S4x256x256, .f32⟩
  | .hbm, ⟨29, _⟩ => ⟨S4x256x256, .f32⟩
  | .hbm, ⟨30, _⟩ => ⟨S1x4x256x256, .f32⟩
  | .hbm, ⟨31, _⟩ => ⟨S1x4x256x256, .f32⟩
  | .hbm, ⟨32, _⟩ => ⟨S1x4x256x256, .f32⟩
  | .hbm, ⟨33, _⟩ => ⟨S1x4x256x256, .f32⟩
  | .hbm, ⟨34, _⟩ => ⟨S4x4x256x256, .f32⟩
  | .hbm, ⟨35, _⟩ => ⟨S256, .i32⟩
  | .hbm, ⟨36, _⟩ => ⟨S256x1, .i32⟩
  | .hbm, ⟨37, _⟩ => ⟨S1x256, .i32⟩
  | .hbm, ⟨38, _⟩ => ⟨S256x256, .i32⟩
  | .hbm, ⟨39, _⟩ => ⟨S256x256, .i32⟩
  | .hbm, ⟨40, _⟩ => ⟨S256x256, .i32⟩
  | .hbm, ⟨41, _⟩ => ⟨S256x256, .i32⟩
  | .hbm, ⟨42, _⟩ => ⟨S256x256, .f32⟩
  | .hbm, ⟨43, _⟩ => ⟨S256, .i32⟩
  | .hbm, ⟨44, _⟩ => ⟨S256x1, .i32⟩
  | .hbm, ⟨45, _⟩ => ⟨S1x256, .i32⟩
  | .hbm, ⟨46, _⟩ => ⟨S256x256, .i32⟩
  | .hbm, ⟨47, _⟩ => ⟨S256x256, .i32⟩
  | .hbm, ⟨48, _⟩ => ⟨S256x256, .i32⟩
  | .hbm, ⟨49, _⟩ => ⟨S256x256, .i32⟩
  | .hbm, ⟨50, _⟩ => ⟨S256x256, .f32⟩
  | .hbm, ⟨51, _⟩ => ⟨S4x4x256x256, .f32⟩
  | .hbm, ⟨52, _⟩ => ⟨S4096x256, .f32⟩
  | .hbm, ⟨53, _⟩ => ⟨S4096x256, .f32⟩
  | .hbm, ⟨54, _⟩ => ⟨S4x4x256x256, .f32⟩
  | .hbm, ⟨55, _⟩ => ⟨S4x4x256x256, .f32⟩
  | .hbm, ⟨56, _⟩ => ⟨S4096x256, .f32⟩
  | .hbm, ⟨57, _⟩ => ⟨S4096x256, .f32⟩
  | .hbm, ⟨58, _⟩ => ⟨S4x4x256x256, .f32⟩
  | .hbm, ⟨59, _⟩ => ⟨S1x4x256x256, .f32⟩
  | .hbm, ⟨60, _⟩ => ⟨S4x256x256, .f32⟩
  | .hbm, ⟨61, _⟩ => ⟨S1x4x256x256, .f32⟩
  | .hbm, ⟨62, _⟩ => ⟨S4x256x256, .f32⟩
  | .hbm, ⟨63, _⟩ => ⟨S1x4x256x256, .f32⟩
  | .hbm, ⟨64, _⟩ => ⟨S4x256x256, .f32⟩
  | .hbm, ⟨65, _⟩ => ⟨S1x4x256x256, .f32⟩
  | .hbm, ⟨66, _⟩ => ⟨S4x256x256, .f32⟩
  | .hbm, ⟨67, _⟩ => ⟨S4x256x256, .f32⟩
  | .hbm, ⟨68, _⟩ => ⟨S4x256x256, .f32⟩
  | .hbm, ⟨69, _⟩ => ⟨S4x1x1, .i1⟩
  | .hbm, ⟨70, _⟩ => ⟨S_, .f32⟩
  | .hbm, ⟨71, _⟩ => ⟨S_, .f32⟩
  | .hbm, ⟨72, _⟩ => ⟨S4x256x256, .i1⟩
  | .hbm, ⟨73, _⟩ => ⟨S4x256x256, .f32⟩
  | .hbm, ⟨74, _⟩ => ⟨S4x256x256, .f32⟩
  | .hbm, ⟨75, _⟩ => ⟨S4x1x256x256, .f32⟩
  | .hbm, ⟨76, _⟩ => ⟨S4x1x1, .i1⟩
  | .hbm, ⟨77, _⟩ => ⟨S_, .f32⟩
  | .hbm, ⟨78, _⟩ => ⟨S_, .f32⟩
  | .hbm, ⟨79, _⟩ => ⟨S4x256x256, .i1⟩
  | .hbm, ⟨80, _⟩ => ⟨S4x256x256, .f32⟩
  | .hbm, ⟨81, _⟩ => ⟨S4x256x256, .f32⟩
  | .hbm, ⟨82, _⟩ => ⟨S4x1x256x256, .f32⟩
  | .hbm, ⟨83, _⟩ => ⟨S4x1x256x256, .f32⟩
  | .hbm, ⟨84, _⟩ => ⟨S4x1x256x256, .f32⟩
  | .hbm, ⟨85, _⟩ => ⟨S_, .f32⟩
  | .hbm, ⟨86, _⟩ => ⟨S4x1x256x256, .f32⟩
  | .hbm, ⟨87, _⟩ => ⟨S4x1x256x256, .f32⟩
  | .hbm, ⟨88, _⟩ => ⟨S_, .f32⟩
  | .hbm, ⟨89, _⟩ => ⟨S4x1x256x256, .f32⟩
  | .hbm, ⟨90, _⟩ => ⟨S4x1x256x256, .f32⟩
  | .hbm, ⟨91, _⟩ => ⟨S4x1x256x256, .f32⟩
  | .hbm, ⟨92, _⟩ => ⟨S4x1x256x256, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .local _ .vmem, ⟨0, _⟩ => ⟨S32x256, .f32⟩
  | .local _ .vmem, ⟨1, _⟩ => ⟨S32x256, .f32⟩
  | .local _ .vmem, ⟨2, _⟩ => ⟨S256x256, .f32⟩
  | .local _ .vmem, ⟨3, _⟩ => ⟨S32x256, .f32⟩
  | .local _ .vmem, ⟨4, _⟩ => ⟨S32x256, .f32⟩
  | .local _ .vmem, ⟨5, _⟩ => ⟨S32x256, .f32⟩
  | .local _ .vmem, ⟨6, _⟩ => ⟨S32x256, .f32⟩
  | .local _ .vmem, ⟨7, _⟩ => ⟨S256x256, .f32⟩
  | .local _ .vmem, ⟨8, _⟩ => ⟨S32x256, .f32⟩
  | .local _ .vmem, ⟨9, _⟩ => ⟨S32x256, .f32⟩
  | _, _ => ⟨S4x1x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_cst_2 : Ref sig .tc := ⟨.hbm, 14, rfl⟩
abbrev main_cst_3 : Ref sig .tc := ⟨.hbm, 15, rfl⟩
abbrev main_call0_v0 : Ref sig .tc := ⟨.hbm, 16, rfl⟩
abbrev main_call0_v1 : Ref sig .tc := ⟨.hbm, 17, rfl⟩
abbrev main_v8 : Ref sig .tc := ⟨.hbm, 18, rfl⟩
abbrev main_cst_4 : Ref sig .tc := ⟨.hbm, 19, rfl⟩
abbrev main_cst_5 : Ref sig .tc := ⟨.hbm, 20, rfl⟩
abbrev main_call1_v0 : Ref sig .tc := ⟨.hbm, 21, rfl⟩
abbrev main_call1_v1 : Ref sig .tc := ⟨.hbm, 22, rfl⟩
abbrev main_v9 : Ref sig .tc := ⟨.hbm, 23, rfl⟩
abbrev main_cst_6 : Ref sig .tc := ⟨.hbm, 24, rfl⟩
abbrev main_v10 : Ref sig .tc := ⟨.hbm, 25, rfl⟩
abbrev main_v11 : Ref sig .tc := ⟨.hbm, 26, rfl⟩
abbrev main_cst_7 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_8 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_9 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_10 : Ref sig .tc := ⟨.hbm, 85, rfl⟩
abbrev main_v61 : Ref sig .tc := ⟨.hbm, 86, rfl⟩
abbrev main_v62 : Ref sig .tc := ⟨.hbm, 87, rfl⟩
abbrev main_cst_11 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_12 : Ref sig .tc := ⟨.hbm, 93, rfl⟩
abbrev main_v67 : Ref sig .tc := ⟨.hbm, 94, rfl⟩
abbrev main_cst_13 : Ref sig .tc := ⟨.hbm, 95, rfl⟩
abbrev main_v68 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![128], ![false]⟩

def k0_mult1 : BitVec 32 :=
  let c0_i32 : BitVec 32 := 0#32
  let c128_i32 : BitVec 32 := 128#32
  let v1 : BitVec 32 := Scalar.muli c0_i32 c128_i32
  v1
def k0_off1 (c0_i32 : BitVec 32) : Fin 2 → Nat :=
  let c0 : Index := 0#32
  let c128_i32 : BitVec 32 := 128#32
  let v1 : BitVec 32 := Scalar.muli c0_i32 c128_i32
  let v2 : BitVec 32 := v1
  let v3 : Index := Scalar.indexCast v2
  ![0, v3.toNat]
def k0_off2 (c0_i32 : BitVec 32) : Fin 2 → Nat :=
  let c128_i32 : BitVec 32 := 128#32
  let v1 : BitVec 32 := Scalar.muli c0_i32 c128_i32
  let v2 : BitVec 32 := v1
  let v6 : Index := Scalar.indexCast v2
  let c0_0 : Index := 0#32
  ![v6.toNat, 0]
def k0_mult2 : BitVec 32 :=
  let c1_i32 : BitVec 32 := 1#32
  let c128_i32_2 : BitVec 32 := 128#32
  let v16 : BitVec 32 := Scalar.muli c1_i32 c128_i32_2
  v16
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![128], ![false]⟩

def k1_mult1 : BitVec 32 :=
  let c0_i32 : BitVec 32 := 0#32
  let c128_i32 : BitVec 32 := 128#32
  let v1 : BitVec 32 := Scalar.muli c0_i32 c128_i32
  v1
def k1_off1 (c0_i32 : BitVec 32) : Fin 2 → Nat :=
  let c0 : Index := 0#32
  let c128_i32 : BitVec 32 := 128#32
  let v1 : BitVec 32 := Scalar.muli c0_i32 c128_i32
  let v2 : BitVec 32 := v1
  let v3 : Index := Scalar.indexCast v2
  ![0, v3.toNat]
def k1_off2 (c0_i32 : BitVec 32) : Fin 2 → Nat :=
  let c128_i32 : BitVec 32 := 128#32
  let v1 : BitVec 32 := Scalar.muli c0_i32 c128_i32
  let v2 : BitVec 32 := v1
  let v6 : Index := Scalar.indexCast v2
  let c0_0 : Index := 0#32
  ![v6.toNat, 0]
def k1_mult2 : BitVec 32 :=
  let c1_i32 : BitVec 32 := 1#32
  let c128_i32_2 : BitVec 32 := 128#32
  let v16 : BitVec 32 := Scalar.muli c1_i32 c128_i32_2
  v16
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S32x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S32x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S4x1x256x256 : S_.BroadcastsInDim S4x1x256x256 (![] : Fin 0 → Fin S4x1x256x256.rank)
  shapeCasts_S4x1x256x256_S4x256x256 : S4x1x256x256.ShapeCasts S4x256x256
  reducesTo_S4x256x256_S4_d1_2 : S4x256x256.ReducesTo [1, 2] S4
  h_S_ : 0 < S_.numel
  bcast_S_S4x256x256 : S_.BroadcastsInDim S4x256x256 (![] : Fin 0 → Fin S4x256x256.rank)
  bcast_S4x256x256_S1x4x256x256_1_2_3 : S4x256x256.BroadcastsInDim S1x4x256x256 (![1, 2, 3] : Fin 3 → Fin S1x4x256x256.rank)
  concatenates_S1x4x256x256_S1x4x256x256_S1x4x256x256_S1x4x256x256_S4x4x256x256_d0 : Shape.Concatenates [S1x4x256x256, S1x4x256x256, S1x4x256x256, S1x4x256x256] S4x4x256x256 0
  bcast_S256_S256x1_0 : S256.BroadcastsInDim S256x1 (![0] : Fin 1 → Fin S256x1.rank)
  bcast_S256_S1x256_1 : S256.BroadcastsInDim S1x256 (![1] : Fin 1 → Fin S1x256.rank)
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  transposes_S4x4x256x256_S4x4x256x256_0_1_3_2 : S4x4x256x256.Transposes [0, 1, 3, 2] S4x4x256x256
  shapeCasts_S4x4x256x256_S4096x256 : S4x4x256x256.ShapeCasts S4096x256
  h_S32x128 : 0 < S32x128.numel
  shapeCasts_S32x128_S32x128 : S32x128.ShapeCasts S32x128
  h_S128x256 : 0 < S128x256.numel
  shapeCasts_S128x256_S128x256 : S128x256.ShapeCasts S128x256
  shapeCasts_S32x128_S32x128x1 : S32x128.ShapeCasts S32x128x1
  shapeCasts_S128x256_S1x128x256 : S128x256.ShapeCasts S1x128x256
  broadcasts_S32x128x1_S32x128x256 : S32x128x1.Broadcasts S32x128x256
  broadcasts_S1x128x256_S32x128x256 : S1x128x256.Broadcasts S32x128x256
  reduces_S32x128x256_S32x256 : S32x128x256.Reduces [1] S32x256
  inb_S32x256_S32x256_0_0 : ∀ a, (![0, 0] : Fin 2 → Nat) a + S32x256.size a ≤ S32x256.size a
  h_S32x256 : 0 < S32x256.numel
  shapeCasts_S4096x256_S4x4x256x256 : S4096x256.ShapeCasts S4x4x256x256
  slices_S4x4x256x256_S1x4x256x256_0_0_0_0 : S4x4x256x256.Slices ![0, 0, 0, 0] S1x4x256x256
  shapeCasts_S1x4x256x256_S4x256x256 : S1x4x256x256.ShapeCasts S4x256x256
  slices_S4x4x256x256_S1x4x256x256_1_0_0_0 : S4x4x256x256.Slices ![1, 0, 0, 0] S1x4x256x256
  slices_S4x4x256x256_S1x4x256x256_2_0_0_0 : S4x4x256x256.Slices ![2, 0, 0, 0] S1x4x256x256
  slices_S4x4x256x256_S1x4x256x256_3_0_0_0 : S4x4x256x256.Slices ![3, 0, 0, 0] S1x4x256x256
  bcast_S4_S4x1x1_0 : S4.BroadcastsInDim S4x1x1 (![0] : Fin 1 → Fin S4x1x1.rank)
  bcast_S4x1x1_S4x256x256_0_1_2 : S4x1x1.BroadcastsInDim S4x256x256 (![0, 1, 2] : Fin 3 → Fin S4x256x256.rank)
  bcast_S4x256x256_S4x1x256x256_0_2_3 : S4x256x256.BroadcastsInDim S4x1x256x256 (![0, 2, 3] : Fin 3 → Fin S4x1x256x256.rank)
  reducesTo_S4x1x256x256_S_d0_1_2_3 : S4x1x256x256.ReducesTo [0, 1, 2, 3] S_
  hrank0 : 0 < grid0.rank
  k0_mult1_dvd : 128 ∣ k0_mult1.toNat
  k0_off1_inb : ∀ (r : Fin 2), ∀ a, (k0_off1 (BitVec.ofNat 32 r.val)) a + S32x128.size a ≤ S32x256.size a
  k0_off2_inb : ∀ (r : Fin 2), ∀ a, (k0_off2 (BitVec.ofNat 32 r.val)) a + S128x256.size a ≤ S256x256.size a
  k0_mult2_dvd : 128 ∣ k0_mult2.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256.size a ≤ S4096x256.size a
  hwx0_0 : ∀ i : grid0.Coords, EltTy.bits .f32 = 32 ∨ (Rect.block (s := S4096x256) S32x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x256.size a ≤ S4096x256.size a
  hwx0_2 : ∀ i : grid0.Coords, EltTy.bits .f32 = 32 ∨ (Rect.block (s := S4096x256) S32x256.size (cc0_transform_2 i) (hinb0_2 i)).WholeWords (EltTy.packing .f32)
  hrank1 : 0 < grid1.rank
  k1_mult1_dvd : 128 ∣ k1_mult1.toNat
  k1_off1_inb : ∀ (r : Fin 2), ∀ a, (k1_off1 (BitVec.ofNat 32 r.val)) a + S32x128.size a ≤ S32x256.size a
  k1_off2_inb : ∀ (r : Fin 2), ∀ a, (k1_off2 (BitVec.ofNat 32 r.val)) a + S128x256.size a ≤ S256x256.size a
  k1_mult2_dvd : 128 ∣ k1_mult2.toNat
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x256.size a ≤ S4096x256.size a
  hwx1_0 : ∀ i : grid1.Coords, EltTy.bits .f32 = 32 ∨ (Rect.block (s := S4096x256) S32x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x256.size a ≤ S4096x256.size a
  hwx1_2 : ∀ i : grid1.Coords, EltTy.bits .f32 = 32 ∨ (Rect.block (s := S4096x256) S32x256.size (cc1_transform_2 i) (hinb1_2 i)).WholeWords (EltTy.packing .f32)

variable [Facts₀]

abbrev win0_0 : Pipeline.Window sig grid0 :=
  Pipeline.Window.ofSpec (Memref.whole main_v36) S32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S32x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S32x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v41) S32x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x1x256x256 : Shape := ⟨4, ![4, 1, 256, 256]⟩
abbrev S_ : Shape := ⟨0, ![]⟩
abbrev S4 : Shape := ⟨1, ![4]⟩
abbrev S4x256x256x1 : Shape := ⟨4, ![4, 256, 256, 1]⟩
abbrev S1 : Shape := ⟨1, ![1]⟩
abbrev S1x1 : Shape := ⟨2, ![1, 1]⟩
abbrev S4x256x256x1x1 : Shape := ⟨5, ![4, 256, 256, 1, 1]⟩
abbrev S1x1x1x1x1 : Shape := ⟨5, ![1, 1, 1, 1, 1]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S4x1x256x1x256 : Shape := ⟨5, ![4, 1, 256, 1, 256]⟩
abbrev S1x1x1x256x256 : Shape := ⟨5, ![1, 1, 1, 256, 256]⟩
abbrev S4x1x256x256x256 : Shape := ⟨5, ![4, 1, 256, 256, 256]⟩
abbrev S4x1x1x1 : Shape := ⟨4, ![4, 1, 1, 1]⟩

abbrev nBuf : Space → Nat
  | .hbm => 262
  | .vmem => 0
  | .smem => 0
  | _ => 0

abbrev hbmTy0_0 (i : Nat) : BufTy := match i % 128 with
  | 0 => ⟨S4x1x256x256, .f32⟩
  | 1 => ⟨S4x1x256x256, .f32⟩
  | 2 => ⟨S_, .f32⟩
  | 3 => ⟨S4x1x256x256, .f32⟩
  | 4 => ⟨S4x1x256x256, .i1⟩
  | 5 => ⟨S_, .i1⟩
  | 6 => ⟨S4, .i1⟩
  | 7 => ⟨S_, .f32⟩
  | 8 => ⟨S_, .f32⟩
  | 9 => ⟨S4x1x256x256, .f32⟩
  | 10 => ⟨S4x1x256x256, .f32⟩
  | 11 => ⟨S4x1x256x256, .f32⟩
  | 12 => ⟨S4x256x256x1, .f32⟩
  | 13 => ⟨S1, .i32⟩
  | 14 => ⟨S1x1, .i32⟩
  | 15 => ⟨S1x1, .i32⟩
  | 16 => ⟨S1x1, .i32⟩
  | 17 => ⟨S1x1, .i32⟩
  | 18 => ⟨S1x1, .f32⟩
  | 19 => ⟨S4x256x256x1x1, .f32⟩
  | 20 => ⟨S1x1x1x1x1, .f32⟩
  | 21 => ⟨S4x256x256x1x1, .f32⟩
  | 22 => ⟨S4x256x256x1x1, .f32⟩
  | 23 => ⟨S_, .f32⟩
  | 24 => ⟨S4x256x256x1, .f32⟩
  | 25 => ⟨S4x1x256x256, .f32⟩
  | 26 => ⟨S4x1x256x256, .f32⟩
  | 27 => ⟨S256, .i32⟩
  | 28 => ⟨S256x1, .i32⟩
  | 29 => ⟨S1x256, .i32⟩
  | 30 => ⟨S256x256, .i32⟩
  | 31 => ⟨S256x256, .i32⟩
  | 32 => ⟨S256x256, .i32⟩
  | 33 => ⟨S256x256, .i32⟩
  | 34 => ⟨S256x256, .f32⟩
  | 35 => ⟨S4x1x256x1x256, .f32⟩
  | 36 => ⟨S1x1x1x256x256, .f32⟩
  | 37 => ⟨S4x1x256x256x256, .f32⟩
  | 38 => ⟨S4x1x256x256x256, .f32⟩
  | 39 => ⟨S4x1x256x256x256, .f32⟩
  | 40 => ⟨S_, .f32⟩
  | 41 => ⟨S4x1x256x256, .f32⟩
  | 42 => ⟨S4x1x256x256, .f32⟩
  | 43 => ⟨S256, .i32⟩
  | 44 => ⟨S256x1, .i32⟩
  | 45 => ⟨S1x256, .i32⟩
  | 46 => ⟨S256x256, .i32⟩
  | 47 => ⟨S256x256, .i32⟩
  | 48 => ⟨S256x256, .i32⟩
  | 49 => ⟨S256x256, .i32⟩
  | 50 => ⟨S256x256, .f32⟩
  | 51 => ⟨S4x1x256x1x256, .f32⟩
  | 52 => ⟨S1x1x1x256x256, .f32⟩
  | 53 => ⟨S4x1x256x256x256, .f32⟩
  | 54 => ⟨S4x1x256x256x256, .f32⟩
  | 55 => ⟨S4x1x256x256x256, .f32⟩
  | 56 => ⟨S_, .f32⟩
  | 57 => ⟨S4x1x256x256, .f32⟩
  | 58 => ⟨S_, .f32⟩
  | 59 => ⟨S4x1x256x256, .f32⟩
  | 60 => ⟨S4x1x256x256, .f32⟩
  | 61 => ⟨S4x1x256x256, .f32⟩
  | 62 => ⟨S4x1x256x256, .i1⟩
  | 63 => ⟨S_, .f32⟩
  | 64 => ⟨S_, .f32⟩
  | 65 => ⟨S4x1x256x256, .f32⟩
  | 66 => ⟨S4x1x256x256, .f32⟩
  | 67 => ⟨S4x1x256x256, .f32⟩
  | 68 => ⟨S4x256x256x1, .f32⟩
  | 69 => ⟨S1, .i32⟩
  | 70 => ⟨S1x1, .i32⟩
  | 71 => ⟨S1x1, .i32⟩
  | 72 => ⟨S1x1, .i32⟩
  | 73 => ⟨S1x1, .i32⟩
  | 74 => ⟨S1x1, .f32⟩
  | 75 => ⟨S4x256x256x1x1, .f32⟩
  | 76 => ⟨S1x1x1x1x1, .f32⟩
  | 77 => ⟨S4x256x256x1x1, .f32⟩
  | 78 => ⟨S4x256x256x1x1, .f32⟩
  | 79 => ⟨S_, .f32⟩
  | 80 => ⟨S4x256x256x1, .f32⟩
  | 81 => ⟨S4x1x256x256, .f32⟩
  | 82 => ⟨S4x1x256x256, .f32⟩
  | 83 => ⟨S256, .i32⟩
  | 84 => ⟨S256x1, .i32⟩
  | 85 => ⟨S1x256, .i32⟩
  | 86 => ⟨S256x256, .i32⟩
  | 87 => ⟨S256x256, .i32⟩
  | 88 => ⟨S256x256, .i32⟩
  | 89 => ⟨S256x256, .i32⟩
  | 90 => ⟨S256x256, .f32⟩
  | 91 => ⟨S4x1x256x1x256, .f32⟩
  | 92 => ⟨S1x1x1x256x256, .f32⟩
  | 93 => ⟨S4x1x256x256x256, .f32⟩
  | 94 => ⟨S4x1x256x256x256, .f32⟩
  | 95 => ⟨S4x1x256x256x256, .f32⟩
  | 96 => ⟨S_, .f32⟩
  | 97 => ⟨S4x1x256x256, .f32⟩
  | 98 => ⟨S4x1x256x256, .f32⟩
  | 99 => ⟨S256, .i32⟩
  | 100 => ⟨S256x1, .i32⟩
  | 101 => ⟨S1x256, .i32⟩
  | 102 => ⟨S256x256, .i32⟩
  | 103 => ⟨S256x256, .i32⟩
  | 104 => ⟨S256x256, .i32⟩
  | 105 => ⟨S256x256, .i32⟩
  | 106 => ⟨S256x256, .f32⟩
  | 107 => ⟨S4x1x256x1x256, .f32⟩
  | 108 => ⟨S1x1x1x256x256, .f32⟩
  | 109 => ⟨S4x1x256x256x256, .f32⟩
  | 110 => ⟨S4x1x256x256x256, .f32⟩
  | 111 => ⟨S4x1x256x256x256, .f32⟩
  | 112 => ⟨S_, .f32⟩
  | 113 => ⟨S4x1x256x256, .f32⟩
  | 114 => ⟨S_, .f32⟩
  | 115 => ⟨S4x1x256x256, .f32⟩
  | 116 => ⟨S4x1x256x256, .f32⟩
  | 117 => ⟨S4x1x256x256, .f32⟩
  | 118 => ⟨S4x1x256x256, .f32⟩
  | 119 => ⟨S4x1x1x1, .i1⟩
  | 120 => ⟨S_, .f32⟩
  | 121 => ⟨S_, .f32⟩
  | 122 => ⟨S4x1x256x256, .i1⟩
  | 123 => ⟨S4x1x256x256, .f32⟩
  | 124 => ⟨S4x1x256x256, .f32⟩
  | 125 => ⟨S_, .f32⟩
  | 126 => ⟨S4x1x256x256, .f32⟩
  | 127 => ⟨S4x1x256x256, .i1⟩
  | _ => ⟨S4x1x256x256, .f32⟩

abbrev hbmTy0_1 (i : Nat) : BufTy := match i % 128 with
  | 0 => ⟨S_, .i1⟩
  | 1 => ⟨S4, .i1⟩
  | 2 => ⟨S_, .f32⟩
  | 3 => ⟨S_, .f32⟩
  | 4 => ⟨S4x1x256x256, .f32⟩
  | 5 => ⟨S4x1x256x256, .f32⟩
  | 6 => ⟨S4x1x256x256, .f32⟩
  | 7 => ⟨S4x256x256x1, .f32⟩
  | 8 => ⟨S1, .i32⟩
  | 9 => ⟨S1x1, .i32⟩
  | 10 => ⟨S1x1, .i32⟩
  | 11 => ⟨S1x1, .i32⟩
  | 12 => ⟨S1x1, .i32⟩
  | 13 => ⟨S1x1, .f32⟩
  | 14 => ⟨S4x256x256x1x1, .f32⟩
  | 15 => ⟨S1x1x1x1x1, .f32⟩
  | 16 => ⟨S4x256x256x1x1, .f32⟩
  | 17 => ⟨S4x256x256x1x1, .f32⟩
  | 18 => ⟨S_, .f32⟩
  | 19 => ⟨S4x256x256x1, .f32⟩
  | 20 => ⟨S4x1x256x256, .f32⟩
  | 21 => ⟨S4x1x256x256, .f32⟩
  | 22 => ⟨S256, .i32⟩
  | 23 => ⟨S256x1, .i32⟩
  | 24 => ⟨S1x256, .i32⟩
  | 25 => ⟨S256x256, .i32⟩
  | 26 => ⟨S256x256, .i32⟩
  | 27 => ⟨S256x256, .i32⟩
  | 28 => ⟨S256x256, .i32⟩
  | 29 => ⟨S256x256, .f32⟩
  | 30 => ⟨S4x1x256x1x256, .f32⟩
  | 31 => ⟨S1x1x1x256x256, .f32⟩
  | 32 => ⟨S4x1x256x256x256, .f32⟩
  | 33 => ⟨S4x1x256x256x256, .f32⟩
  | 34 => ⟨S4x1x256x256x256, .f32⟩
  | 35 => ⟨S_, .f32⟩
  | 36 => ⟨S4x1x256x256, .f32⟩
  | 37 => ⟨S4x1x256x256, .f32⟩
  | 38 => ⟨S256, .i32⟩
  | 39 => ⟨S256x1, .i32⟩
  | 40 => ⟨S1x256, .i32⟩
  | 41 => ⟨S256x256, .i32⟩
  | 42 => ⟨S256x256, .i32⟩
  | 43 => ⟨S256x256, .i32⟩
  | 44 => ⟨S256x256, .i32⟩
  | 45 => ⟨S256x256, .f32⟩
  | 46 => ⟨S4x1x256x1x256, .f32⟩
  | 47 => ⟨S1x1x1x256x256, .f32⟩
  | 48 => ⟨S4x1x256x256x256, .f32⟩
  | 49 => ⟨S4x1x256x256x256, .f32⟩
  | 50 => ⟨S4x1x256x256x256, .f32⟩
  | 51 => ⟨S_, .f32⟩
  | 52 => ⟨S4x1x256x256, .f32⟩
  | 53 => ⟨S_, .f32⟩
  | 54 => ⟨S4x1x256x256, .f32⟩
  | 55 => ⟨S4x1x256x256, .f32⟩
  | 56 => ⟨S4x1x256x256, .f32⟩
  | 57 => ⟨S4x1x256x256, .i1⟩
  | 58 => ⟨S_, .f32⟩
  | 59 => ⟨S_, .f32⟩
  | 60 => ⟨S4x1x256x256, .f32⟩
  | 61 => ⟨S4x1x256x256, .f32⟩
  | 62 => ⟨S4x1x256x256, .f32⟩
  | 63 => ⟨S4x256x256x1, .f32⟩
  | 64 => ⟨S1, .i32⟩
  | 65 => ⟨S1x1, .i32⟩
  | 66 => ⟨S1x1, .i32⟩
  | 67 => ⟨S1x1, .i32⟩
  | 68 => ⟨S1x1, .i32⟩
  | 69 => ⟨S1x1, .f32⟩
  | 70 => ⟨S4x256x256x1x1, .f32⟩
  | 71 => ⟨S1x1x1x1x1, .f32⟩
  | 72 => ⟨S4x256x256x1x1, .f32⟩
  | 73 => ⟨S4x256x256x1x1, .f32⟩
  | 74 => ⟨S_, .f32⟩
  | 75 => ⟨S4x256x256x1, .f32⟩
  | 76 => ⟨S4x1x256x256, .f32⟩
  | 77 => ⟨S4x1x256x256, .f32⟩
  | 78 => ⟨S256, .i32⟩
  | 79 => ⟨S256x1, .i32⟩
  | 80 => ⟨S1x256, .i32⟩
  | 81 => ⟨S256x256, .i32⟩
  | 82 => ⟨S256x256, .i32⟩
  | 83 => ⟨S256x256, .i32⟩
  | 84 => ⟨S256x256, .i32⟩
  | 85 => ⟨S256x256, .f32⟩
  | 86 => ⟨S4x1x256x1x256, .f32⟩
  | 87 => ⟨S1x1x1x256x256, .f32⟩
  | 88 => ⟨S4x1x256x256x256, .f32⟩
  | 89 => ⟨S4x1x256x256x256, .f32⟩
  | 90 => ⟨S4x1x256x256x256, .f32⟩
  | 91 => ⟨S_, .f32⟩
  | 92 => ⟨S4x1x256x256, .f32⟩
  | 93 => ⟨S4x1x256x256, .f32⟩
  | 94 => ⟨S256, .i32⟩
  | 95 => ⟨S256x1, .i32⟩
  | 96 => ⟨S1x256, .i32⟩
  | 97 => ⟨S256x256, .i32⟩
  | 98 => ⟨S256x256, .i32⟩
  | 99 => ⟨S256x256, .i32⟩
  | 100 => ⟨S256x256, .i32⟩
  | 101 => ⟨S256x256, .f32⟩
  | 102 => ⟨S4x1x256x1x256, .f32⟩
  | 103 => ⟨S1x1x1x256x256, .f32⟩
  | 104 => ⟨S4x1x256x256x256, .f32⟩
  | 105 => ⟨S4x1x256x256x256, .f32⟩
  | 106 => ⟨S4x1x256x256x256, .f32⟩
  | 107 => ⟨S_, .f32⟩
  | 108 => ⟨S4x1x256x256, .f32⟩
  | 109 => ⟨S_, .f32⟩
  | 110 => ⟨S4x1x256x256, .f32⟩
  | 111 => ⟨S4x1x256x256, .f32⟩
  | 112 => ⟨S4x1x256x256, .f32⟩
  | 113 => ⟨S4x1x256x256, .f32⟩
  | 114 => ⟨S4x1x1x1, .i1⟩
  | 115 => ⟨S_, .f32⟩
  | 116 => ⟨S_, .f32⟩
  | 117 => ⟨S4x1x256x256, .i1⟩
  | 118 => ⟨S4x1x256x256, .f32⟩
  | 119 => ⟨S4x1x256x256, .f32⟩
  | 120 => ⟨S4x1x256x256, .f32⟩
  | 121 => ⟨S4x1x256x256, .f32⟩
  | 122 => ⟨S_, .f32⟩
  | 123 => ⟨S4x1x256x256, .f32⟩
  | 124 => ⟨S4x1x256x256, .f32⟩
  | 125 => ⟨S_, .f32⟩
  | 126 => ⟨S4x1x256x256, .f32⟩
  | 127 => ⟨S4x1x256x256, .f32⟩
  | _ => ⟨S4x1x256x256, .f32⟩

abbrev hbmTy0_2 (i : Nat) : BufTy := match i % 128 with
  | 0 => ⟨S4x1x256x256, .f32⟩
  | 1 => ⟨S4x1x256x256, .f32⟩
  | 2 => ⟨S_, .f32⟩
  | 3 => ⟨S_, .f32⟩
  | 4 => ⟨S_, .f32⟩
  | 5 => ⟨S_, .f32⟩
  | _ => ⟨S4x1x256x256, .f32⟩

abbrev hbmTy (i : Nat) : BufTy := match i / 128 with
  | 0 => hbmTy0_0 i
  | 1 => hbmTy0_1 i
  | 2 => hbmTy0_2 i
  | _ => ⟨S4x1x256x256, .f32⟩

abbrev bufTy : (tb : Table) → Fin (tcTables nBuf tb) → BufTy
  | .hbm, ⟨i, _⟩ => hbmTy i
  | _, _ => ⟨S4x1x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_cst_0 : Ref sig .tc := ⟨.hbm, 7, rfl⟩
abbrev main_cst_1 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_4 : Ref sig .tc := ⟨.hbm, 56, rfl⟩
abbrev main_v46 : Ref sig .tc := ⟨.hbm, 57, rfl⟩
abbrev main_cst_5 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_6 : Ref sig .tc := ⟨.hbm, 63, rfl⟩
abbrev main_cst_7 : Ref sig .tc := ⟨.hbm, 64, rfl⟩
abbrev main_call1_v0 : Ref sig .tc := ⟨.hbm, 65, rfl⟩
abbrev main_call1_v1 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_8 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_cst_9 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_cst_10 : Ref sig .tc := ⟨.hbm, 112, rfl⟩
abbrev main_v94 : Ref sig .tc := ⟨.hbm, 113, rfl⟩
abbrev main_cst_11 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_cst_12 : Ref sig .tc := ⟨.hbm, 120, rfl⟩
abbrev main_call2_v0 : Ref sig .tc := ⟨.hbm, 121, rfl⟩
abbrev main_call2_v1 : Ref sig .tc := ⟨.hbm, 122, rfl⟩
abbrev main_call2_v2 : Ref sig .tc := ⟨.hbm, 123, rfl⟩
abbrev main_v100 : Ref sig .tc := ⟨.hbm, 124, rfl⟩
abbrev main_cst_13 : Ref sig .tc := ⟨.hbm, 125, rfl⟩
abbrev main_v101 : Ref sig .tc := ⟨.hbm, 126, rfl⟩
abbrev main_v102 : Ref sig .tc := ⟨.hbm, 127, rfl⟩
abbrev main_c_14 : Ref sig .tc := ⟨.hbm, 128, rfl⟩
abbrev main_v103 : Ref sig .tc := ⟨.hbm, 129, rfl⟩
abbrev main_cst_15 : Ref sig .tc := ⟨.hbm, 130, rfl⟩
abbrev main_cst_16 : Ref sig .tc := ⟨.hbm, 131, rfl⟩
abbrev main_call3_v0 : Ref sig .tc := ⟨.hbm, 132, rfl⟩
abbrev main_call3_v1 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_cst_17 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_cst_18 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_cst_19 : Ref sig .tc := ⟨.hbm, 179, rfl⟩
abbrev main_v147 : Ref sig .tc := ⟨.hbm, 180, rfl⟩
abbrev main_cst_20 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_cst_21 : Ref sig .tc := ⟨.hbm, 186, rfl⟩
abbrev main_cst_22 : Ref sig .tc := ⟨.hbm, 187, rfl⟩
abbrev main_call4_v0 : Ref sig .tc := ⟨.hbm, 188, rfl⟩
abbrev main_call4_v1 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_cst_23 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_cst_24 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_cst_25 : Ref sig .tc := ⟨.hbm, 235, rfl⟩
abbrev main_v195 : Ref sig .tc := ⟨.hbm, 236, rfl⟩
abbrev main_cst_26 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_cst_27 : Ref sig .tc := ⟨.hbm, 243, rfl⟩
abbrev main_call5_v0 : Ref sig .tc := ⟨.hbm, 244, rfl⟩
abbrev main_call5_v1 : Ref sig .tc := ⟨.hbm, 245, rfl⟩
abbrev main_call5_v2 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_cst_28 : Ref sig .tc := ⟨.hbm, 250, rfl⟩
abbrev main_v204 : Ref sig .tc := ⟨.hbm, 251, rfl⟩
abbrev main_v205 : Ref sig .tc := ⟨.hbm, 252, rfl⟩
abbrev main_cst_29 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_v209 : Ref sig .tc := ⟨.hbm, 257, rfl⟩
abbrev main_cst_30 : Ref sig .tc := ⟨.hbm, 258, rfl⟩
abbrev main_v210 : Ref sig .tc := ⟨.hbm, 259, rfl⟩
abbrev main_cst_31 : Ref sig .tc := ⟨.hbm, 260, rfl⟩
abbrev main_v211 : Ref sig .tc := ⟨.hbm, 261, rfl⟩

abbrev nD : Nat := 1
abbrev τ : Topo := Topo.v7x

variable {F : FTy → Type} [FloatOps F]

class Facts₀ : Prop where
  bcast_S_S4x1x256x256 : S_.BroadcastsInDim S4x1x256x256 (![] : Fin 0 → Fin S4x1x256x256.rank)
  reducesTo_S4x1x256x256_S4_d1_2_3 : S4x1x256x256.ReducesTo [1, 2, 3] S4
  h_S_ : 0 < S_.numel
  transposes_S4x1x256x256_S4x256x256x1_0_2_3_1 : S4x1x256x256.Transposes [0, 2, 3, 1] S4x256x256x1
  bcast_S1_S1x1_0 : S1.BroadcastsInDim S1x1 (![0] : Fin 1 → Fin S1x1.rank)
  bcast_S1_S1x1_1 : S1.BroadcastsInDim S1x1 (![1] : Fin 1 → Fin S1x1.rank)
  bcast_S4x256x256x1_S4x256x256x1x1_0_1_2_4 : S4x256x256x1.BroadcastsInDim S4x256x256x1x1 (![0, 1, 2, 4] : Fin 4 → Fin S4x256x256x1x1.rank)
  bcast_S1x1_S1x1x1x1x1_3_4 : S1x1.BroadcastsInDim S1x1x1x1x1 (![3, 4] : Fin 2 → Fin S1x1x1x1x1.rank)
  bcast_S1x1x1x1x1_S4x256x256x1x1_0_1_2_3_4 : S1x1x1x1x1.BroadcastsInDim S4x256x256x1x1 (![0, 1, 2, 3, 4] : Fin 5 → Fin S4x256x256x1x1.rank)
  reducesTo_S4x256x256x1x1_S4x256x256x1_d4 : S4x256x256x1x1.ReducesTo [4] S4x256x256x1
  transposes_S4x256x256x1_S4x1x256x256_0_3_1_2 : S4x256x256x1.Transposes [0, 3, 1, 2] S4x1x256x256
  transposes_S4x1x256x256_S4x1x256x256_0_1_3_2 : S4x1x256x256.Transposes [0, 1, 3, 2] S4x1x256x256
  bcast_S256_S256x1_0 : S256.BroadcastsInDim S256x1 (![0] : Fin 1 → Fin S256x1.rank)
  bcast_S256_S1x256_1 : S256.BroadcastsInDim S1x256 (![1] : Fin 1 → Fin S1x256.rank)
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  bcast_S4x1x256x256_S4x1x256x1x256_0_1_2_4 : S4x1x256x256.BroadcastsInDim S4x1x256x1x256 (![0, 1, 2, 4] : Fin 4 → Fin S4x1x256x1x256.rank)
  bcast_S256x256_S1x1x1x256x256_3_4 : S256x256.BroadcastsInDim S1x1x1x256x256 (![3, 4] : Fin 2 → Fin S1x1x1x256x256.rank)
  bcast_S4x1x256x1x256_S4x1x256x256x256_0_1_2_3_4 : S4x1x256x1x256.BroadcastsInDim S4x1x256x256x256 (![0, 1, 2, 3, 4] : Fin 5 → Fin S4x1x256x256x256.rank)
  bcast_S1x1x1x256x256_S4x1x256x256x256_0_1_2_3_4 : S1x1x1x256x256.BroadcastsInDim S4x1x256x256x256 (![0, 1, 2, 3, 4] : Fin 5 → Fin S4x1x256x256x256.rank)
  reducesTo_S4x1x256x256x256_S4x1x256x256_d4 : S4x1x256x256x256.ReducesTo [4] S4x1x256x256
  bcast_S4_S4x1x1x1_0 : S4.BroadcastsInDim S4x1x1x1 (![0] : Fin 1 → Fin S4x1x1x1.rank)
  bcast_S4x1x1x1_S4x1x256x256_0_1_2_3 : S4x1x1x1.BroadcastsInDim S4x1x256x256 (![0, 1, 2, 3] : Fin 4 → Fin S4x1x256x256.rank)
  reducesTo_S4x1x256x256_S_d0_1_2_3 : S4x1x256x256.ReducesTo [0, 1, 2, 3] S_

variable [Facts₀]

class Facts : Prop extends Facts₀ where

variable [Facts]
-- ==== Proof.BitsBody.lean ====
/-
  The two kernel bodies of `Kernel` as pipeline steps, at any float instance.

  Each of the two pallas regions runs the same straight-line body at 128 grid points: it reads the two column halves of
  its 32 × 256 block of lines, the two row halves of the 256 × 256 table of squared distances, and stores one 32 × 256
  block.  Here: what the body leaves in the output window's staging buffer as a function of the two input blocks
  (`out0_2`, `out1_2`), the body's triple, the proof data of each pipeline at a parameter `V` (the buffers' contents
  when the region is entered) and the library's body obligation.
-/
import proofs.«149378_j17952963297871_2_alg».proof.Proof.Gen.Kernel.Launch
import proofs.«149378_j17952963297871_2_alg».proof.Proof.Gen.Kernel.Skeleton
import proofs.«149378_j17952963297871_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! # Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of lines is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The table of squared distances, fetched once, is in its staging buffer at every point: its block never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: the two column halves of the lines' block, the two row halves of the table, the whole output block. -/
abbrev rl0_0 : Rect S32x256 := Rect.unit (s := S32x256) (k0_off1 0#32) S32x128.size (k0_off1_inb 0)
abbrev rl0_1 : Rect S32x256 := Rect.unit (s := S32x256) (k0_off1 1#32) S32x128.size (k0_off1_inb 1)
abbrev rd0_0 : Rect S256x256 := Rect.unit (s := S256x256) (k0_off2 0#32) S128x256.size (k0_off2_inb 0)
abbrev rd0_1 : Rect S256x256 := Rect.unit (s := S256x256) (k0_off2 1#32) S128x256.size (k0_off2_inb 1)
abbrev ro0 : Rect S32x256 := Rect.unit (s := S32x256) ![0, 0] S32x256.size inb_S32x256_S32x256_0_0

/-- The output window's staging buffer after the body, from the two input blocks: its one store. -/
def out0_2 (x0 : Vec F S32x256 .f32) (x1 : Vec F S256x256 .f32) : Vec F S32x256 .f32 :=
  View.canon [⟨ro0, k0_pay1 (View.ld x0 rl0_0) (View.ld x1 rd0_0) (View.ld x0 rl0_1) (View.ld x1 rd0_1)⟩]

/-- The one store covers the buffer. -/
theorem cover0_2 (p0 : Vec F S32x256 .f32) (y : S32x256.Idx) :
    ∃ pc ∈ ([⟨ro0, p0⟩] : List (View.Piece (Elt F) S32x256 .f32)), y ∈ pc.1.set :=
  View.cover_of_tiled [⟨ro0, p0⟩] S32x256.size (by rfl) y

set_option maxHeartbeats 1000000 in
/-- The body's triple: from the two input buffers at `x0`, `x1` and the output buffer at anything, to the inputs as they
    were and the output at `out0_2 x0 x1`. -/
theorem sound_kernel0 (c : Dev nD) (E : Set ℕ) (i : grid0.Coords) (arg1 : Memref sig .tc .vmem S32x256 .f32) (harg1 : arg1.IsWhole) (arg2 : Memref sig .tc .vmem S256x256 .f32) (harg2 : arg2.IsWhole) (arg3 : Memref sig .tc .vmem S32x256 .f32) (harg3 : arg3.IsWhole)
    (x0 : Vec F S32x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body at point `t` each
    input's buffer at its block and the output's at `out0_2` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1 -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of lines is in its staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The table of squared distances, fetched once, is in its staging buffer at every point: its block never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The body's accesses: the two column halves of the lines' block, the two row halves of the table, the whole output block. -/
abbrev rl1_0 : Rect S32x256 := Rect.unit (s := S32x256) (k1_off1 0#32) S32x128.size (k1_off1_inb 0)
abbrev rl1_1 : Rect S32x256 := Rect.unit (s := S32x256) (k1_off1 1#32) S32x128.size (k1_off1_inb 1)
abbrev rd1_0 : Rect S256x256 := Rect.unit (s := S256x256) (k1_off2 0#32) S128x256.size (k1_off2_inb 0)
abbrev rd1_1 : Rect S256x256 := Rect.unit (s := S256x256) (k1_off2 1#32) S128x256.size (k1_off2_inb 1)
abbrev ro1 : Rect S32x256 := Rect.unit (s := S32x256) ![0, 0] S32x256.size inb_S32x256_S32x256_0_0

/-- The output window's staging buffer after the body, from the two input blocks: its one store. -/
def out1_2 (x0 : Vec F S32x256 .f32) (x1 : Vec F S256x256 .f32) : Vec F S32x256 .f32 :=
  View.canon [⟨ro1, k1_pay1 (View.ld x0 rl1_0) (View.ld x1 rd1_0) (View.ld x0 rl1_1) (View.ld x1 rd1_1)⟩]

/-- The one store covers the buffer. -/
theorem cover1_2 (p0 : Vec F S32x256 .f32) (y : S32x256.Idx) :
    ∃ pc ∈ ([⟨ro1, p0⟩] : List (View.Piece (Elt F) S32x256 .f32)), y ∈ pc.1.set :=
  View.cover_of_tiled [⟨ro1, p0⟩] S32x256.size (by rfl) y

set_option maxHeartbeats 1000000 in
/-- The body's triple: from the two input buffers at `x0`, `x1` and the output buffer at anything, to the inputs as they
    were and the output at `out1_2 x0 x1`. -/
theorem sound_kernel1 (c : Dev nD) (E : Set ℕ) (i : grid1.Coords) (arg1 : Memref sig .tc .vmem S32x256 .f32) (harg1 : arg1.IsWhole) (arg2 : Memref sig .tc .vmem S256x256 .f32) (harg2 : arg2.IsWhole) (arg3 : Memref sig .tc .vmem S32x256 .f32) (harg3 : arg3.IsWhole)
    (x0 : Vec F S32x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1_kernel i arg1 harg1 arg2 harg2 arg3 harg3) K := by
  simp only [cc1_kernel_eq_skeleton]; unfold cc1_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 1 on core `c`: the arrays as the region finds them; after the body at point `t` each
    input's buffer at its block and the output's at `out1_2` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsRun.lean ====
/-
  The run of `Kernel`'s @main, at any float instance: thirteen segments — five stretches of host operations, the first
  pallas region, one stretch, the second region, five stretches.  The buffers' contents at each boundary are a fold from
  the launch memory (`W0` … `W13`): a stretch applies its operations, a region replaces its output array by what the
  pipeline's write-backs leave.  `run_all`: every weakly fair execution terminates and every unscoped buffer ends at `W13`.
-/
import proofs.«149378_j17952963297871_2_alg».proof.Proof.BitsBody
import proofs.«149378_j17952963297871_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
/-- The first region's entry. -/
abbrev W5 : Dev nD → Valuation τ sig (Elt F) := fun c => StableHlo.after hostOps0_4 (W4 m ρ c)
abbrev V5 : (c : Dev nD) → (b : Ref sig .tc) → Buf (Elt F) ((c : Thread nD τ).loc b) := fun c b => W5 m ρ c b
/-- The first region's exit: its arrays at what the pipeline leaves, every other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
abbrev V6 : (c : Dev nD) → (b : Ref sig .tc) → Buf (Elt F) ((c : Thread nD τ).loc b) := fun c b => W6 m ρ c b
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

/-- The second region's entry. -/
abbrev W7 : Dev nD → Valuation τ sig (Elt F) := fun c => StableHlo.after hostOps1 (W6 m ρ c)
abbrev V7 : (c : Dev nD) → (b : Ref sig .tc) → Buf (Elt F) ((c : Thread nD τ).loc b) := fun c b => W7 m ρ c b
/-- The second region's exit. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

abbrev W9 : Dev nD → Valuation τ sig (Elt F) := fun c => StableHlo.after hostOps2 (W8 m ρ c)
abbrev W10 : Dev nD → Valuation τ sig (Elt F) := fun c => StableHlo.after hostOps2_1 (W9 m ρ c)
abbrev W11 : Dev nD → Valuation τ sig (Elt F) := fun c => StableHlo.after hostOps2_2 (W10 m ρ c)
abbrev W12 : Dev nD → Valuation τ sig (Elt F) := fun c => StableHlo.after hostOps2_3 (W11 m ρ c)
/-- The return. -/
abbrev W13 : Dev nD → Valuation τ sig (Elt F) := fun c => StableHlo.after hostOps2_4 (W12 m ρ c)

/-! ## The argument arrays end as launched: no stretch writes one and neither region's output is one -/

theorem W13_arg (r : Ref sig .tc)
    (h0 : r ∉ hostOps0_W) (h1 : r ∉ hostOps0_1_W) (h2 : r ∉ hostOps0_2_W) (h3 : r ∉ hostOps0_3_W) (h4 : r ∉ hostOps0_4_W)
    (h5 : ∀ w, Pipeline.arrRef spec0 w ≠ r) (h6 : r ∉ hostOps1_W) (h7 : ∀ w, Pipeline.arrRef spec1 w ≠ r)
    (h8 : r ∉ hostOps2_W) (h9 : r ∉ hostOps2_1_W) (h10 : r ∉ hostOps2_2_W) (h11 : r ∉ hostOps2_3_W) (h12 : r ∉ hostOps2_4_W)
    (c : Dev nD) : W13 m ρ c (Proc.devRef .tc r) = m ((c : Thread nD τ).loc r) :=
  calc W13 m ρ c (Proc.devRef .tc r)
    _ = W12 m ρ c (Proc.devRef .tc r) := StableHlo.after_of_writes_sub hostOps2_4 _ hostOps2_4_writes h12
    _ = W11 m ρ c (Proc.devRef .tc r) := StableHlo.after_of_writes_sub hostOps2_3 _ hostOps2_3_writes h11
    _ = W10 m ρ c (Proc.devRef .tc r) := StableHlo.after_of_writes_sub hostOps2_2 _ hostOps2_2_writes h10
    _ = W9 m ρ c (Proc.devRef .tc r) := StableHlo.after_of_writes_sub hostOps2_1 _ hostOps2_1_writes h9
    _ = W8 m ρ c (Proc.devRef .tc r) := StableHlo.after_of_writes_sub hostOps2 _ hostOps2_writes h8
    _ = W7 m ρ c (Proc.devRef .tc r) := W8_of_ne m ρ c r h7
    _ = W6 m ρ c (Proc.devRef .tc r) := StableHlo.after_of_writes_sub hostOps1 _ hostOps1_writes h6
    _ = W5 m ρ c (Proc.devRef .tc r) := W6_of_ne m ρ c r h5
    _ = W4 m ρ c (Proc.devRef .tc r) := StableHlo.after_of_writes_sub hostOps0_4 _ hostOps0_4_writes h4
    _ = W3 m ρ c (Proc.devRef .tc r) := StableHlo.after_of_writes_sub hostOps0_3 _ hostOps0_3_writes h3
    _ = W2 m ρ c (Proc.devRef .tc r) := StableHlo.after_of_writes_sub hostOps0_2 _ hostOps0_2_writes h2
    _ = W1 m ρ c (Proc.devRef .tc r) := StableHlo.after_of_writes_sub hostOps0_1 _ hostOps0_1_writes h1
    _ = W0 m ρ c (Proc.devRef .tc r) := StableHlo.after_of_writes_sub hostOps0 _ hostOps0_writes h0
    _ = m ((c : Thread nD τ).loc r) := rfl

theorem W13_main_arg0 (c : Dev nD) : W13 m ρ c (Proc.devRef .tc main_arg0) = m ((c : Thread nD τ).loc main_arg0) :=
  W13_arg m ρ main_arg0 (by decide) (by decide) (by decide) (by decide) (by decide) (by decide) (by decide) (by decide) (by decide) (by decide) (by decide) (by decide) (by decide) c
theorem W13_main_arg1 (c : Dev nD) : W13 m ρ c (Proc.devRef .tc main_arg1) = m ((c : Thread nD τ).loc main_arg1) :=
  W13_arg m ρ main_arg1 (by decide) (by decide) (by decide) (by decide) (by decide) (by decide) (by decide) (by decide) (by decide) (by decide) (by decide) (by decide) (by decide) c

/-! ## The proof data family and the thread state -/

abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (V5 m ρ) c
  | ⟨1, _⟩ => fun c => dat1 (V7 m ρ) c
abbrev 𝒱₀ : Variants := Variants.none
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W13 m ρ c) ∗ ∃ r, prngReg c r)

/-! ## The regions as segments -/

set_option backward.isDefEq.respectTransparency.types false in
/-- Region 0 over the thread state: entered from every unscoped buffer at `W5`, left at `W6`. -/
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W7`, left at `W8`. -/
def reg1 : Pipeline.RegionSeg (pcfgs (F := F)) adm' (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm' (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .host (hseg hostOps2 hostOps2_sub hostOps2_fresh (W8 m ρ)),
    .host (hseg hostOps2_1 hostOps2_1_sub hostOps2_1_fresh (W9 m ρ)),
    .host (hseg hostOps2_2 hostOps2_2_sub hostOps2_2_fresh (W10 m ρ)),
    .host (hseg hostOps2_3 hostOps2_3_sub hostOps2_3_fresh (W11 m ρ)),
    .host (hseg hostOps2_4 hostOps2_4_sub hostOps2_4_fresh (W12 m ρ)) ]

set_option backward.isDefEq.respectTransparency.types false in
/-- THE RUN: from any memory with zero counters, every weakly fair execution of @main on the TensorCores terminates,
    nothing faulting, and every unscoped buffer of every core ends at `W13`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm' (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun c => show (iprop(StableHlo.held (c : Thread nD τ) (Pipeline.ucRefs τ sig) (W13 m ρ c) ∗ R c) : sProp 𝕄)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W13_main_arg0 m ρ c),
     (h c _ (mem_uc main_arg1 (by decide))).trans (W13_main_arg1 m ρ c)⟩) (run_all m ρ)

end Cert.Kernel.Hand

end
-- ==== Proof.IdealBody.lean ====
/-
  The two kernel bodies of `KernelIdeal` as pipeline steps, at any float instance.

  Each of the two pallas regions runs the same straight-line body at 128 grid points: it reads the two column halves of
  its 32 × 256 block of lines, the two row halves of the 256 × 256 table of squared distances, and stores one 32 × 256
  block.  Here: what the body leaves in the output window's staging buffer as a function of the two input blocks
  (`out0_2`, `out1_2`), the body's triple, the proof data of each pipeline at a parameter `V` (the buffers' contents
  when the region is entered) and the library's body obligation.
-/
import proofs.«149378_j17952963297871_2_alg».proof.Proof.Gen.KernelIdeal.Launch
import proofs.«149378_j17952963297871_2_alg».proof.Proof.Gen.KernelIdeal.Skeleton
import proofs.«149378_j17952963297871_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! # Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of lines is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The table of squared distances, fetched once, is in its staging buffer at every point: its block never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: the two column halves of the lines' block, the two row halves of the table, the whole output block. -/
abbrev rl0_0 : Rect S32x256 := Rect.unit (s := S32x256) (k0_off1 0#32) S32x128.size (k0_off1_inb 0)
abbrev rl0_1 : Rect S32x256 := Rect.unit (s := S32x256) (k0_off1 1#32) S32x128.size (k0_off1_inb 1)
abbrev rd0_0 : Rect S256x256 := Rect.unit (s := S256x256) (k0_off2 0#32) S128x256.size (k0_off2_inb 0)
abbrev rd0_1 : Rect S256x256 := Rect.unit (s := S256x256) (k0_off2 1#32) S128x256.size (k0_off2_inb 1)
abbrev ro0 : Rect S32x256 := Rect.unit (s := S32x256) ![0, 0] S32x256.size inb_S32x256_S32x256_0_0

/-- The output window's staging buffer after the body, from the two input blocks: its one store. -/
def out0_2 (x0 : Vec F S32x256 .f32) (x1 : Vec F S256x256 .f32) : Vec F S32x256 .f32 :=
  View.canon [⟨ro0, k0_pay1 (View.ld x0 rl0_0) (View.ld x1 rd0_0) (View.ld x0 rl0_1) (View.ld x1 rd0_1)⟩]

/-- The one store covers the buffer. -/
theorem cover0_2 (p0 : Vec F S32x256 .f32) (y : S32x256.Idx) :
    ∃ pc ∈ ([⟨ro0, p0⟩] : List (View.Piece (Elt F) S32x256 .f32)), y ∈ pc.1.set :=
  View.cover_of_tiled [⟨ro0, p0⟩] S32x256.size (by rfl) y

set_option maxHeartbeats 1000000 in
/-- The body's triple: from the two input buffers at `x0`, `x1` and the output buffer at anything, to the inputs as they
    were and the output at `out0_2 x0 x1`. -/
theorem sound_kernel0 (c : Dev nD) (E : Set ℕ) (i : grid0.Coords) (arg1 : Memref sig .tc .vmem S32x256 .f32) (harg1 : arg1.IsWhole) (arg2 : Memref sig .tc .vmem S256x256 .f32) (harg2 : arg2.IsWhole) (arg3 : Memref sig .tc .vmem S32x256 .f32) (harg3 : arg3.IsWhole)
    (x0 : Vec F S32x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body at point `t` each
    input's buffer at its block and the output's at `out0_2` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1 -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of lines is in its staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The table of squared distances, fetched once, is in its staging buffer at every point: its block never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The body's accesses: the two column halves of the lines' block, the two row halves of the table, the whole output block. -/
abbrev rl1_0 : Rect S32x256 := Rect.unit (s := S32x256) (k1_off1 0#32) S32x128.size (k1_off1_inb 0)
abbrev rl1_1 : Rect S32x256 := Rect.unit (s := S32x256) (k1_off1 1#32) S32x128.size (k1_off1_inb 1)
abbrev rd1_0 : Rect S256x256 := Rect.unit (s := S256x256) (k1_off2 0#32) S128x256.size (k1_off2_inb 0)
abbrev rd1_1 : Rect S256x256 := Rect.unit (s := S256x256) (k1_off2 1#32) S128x256.size (k1_off2_inb 1)
abbrev ro1 : Rect S32x256 := Rect.unit (s := S32x256) ![0, 0] S32x256.size inb_S32x256_S32x256_0_0

/-- The output window's staging buffer after the body, from the two input blocks: its one store. -/
def out1_2 (x0 : Vec F S32x256 .f32) (x1 : Vec F S256x256 .f32) : Vec F S32x256 .f32 :=
  View.canon [⟨ro1, k1_pay1 (View.ld x0 rl1_0) (View.ld x1 rd1_0) (View.ld x0 rl1_1) (View.ld x1 rd1_1)⟩]

/-- The one store covers the buffer. -/
theorem cover1_2 (p0 : Vec F S32x256 .f32) (y : S32x256.Idx) :
    ∃ pc ∈ ([⟨ro1, p0⟩] : List (View.Piece (Elt F) S32x256 .f32)), y ∈ pc.1.set :=
  View.cover_of_tiled [⟨ro1, p0⟩] S32x256.size (by rfl) y

set_option maxHeartbeats 1000000 in
/-- The body's triple: from the two input buffers at `x0`, `x1` and the output buffer at anything, to the inputs as they
    were and the output at `out1_2 x0 x1`. -/
theorem sound_kernel1 (c : Dev nD) (E : Set ℕ) (i : grid1.Coords) (arg1 : Memref sig .tc .vmem S32x256 .f32) (harg1 : arg1.IsWhole) (arg2 : Memref sig .tc .vmem S256x256 .f32) (harg2 : arg2.IsWhole) (arg3 : Memref sig .tc .vmem S32x256 .f32) (harg3 : arg3.IsWhole)
    (x0 : Vec F S32x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1_kernel i arg1 harg1 arg2 harg2 arg3 harg3) K := by
  simp only [cc1_kernel_eq_skeleton]; unfold cc1_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 1 on core `c`: the arrays as the region finds them; after the body at point `t` each
    input's buffer at its block and the output's at `out1_2` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealRun.lean ====
/-
  The run of `KernelIdeal`'s @main, at any float instance: thirteen segments — five stretches of host operations, the first
  pallas region, one stretch, the second region, five stretches.  The buffers' contents at each boundary are a fold from
  the launch memory (`W0` … `W13`): a stretch applies its operations, a region replaces its output array by what the
  pipeline's write-backs leave.  `run_all`: every weakly fair execution terminates and every unscoped buffer ends at `W13`.
-/
import proofs.«149378_j17952963297871_2_alg».proof.Proof.IdealBody
import proofs.«149378_j17952963297871_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
/-- The first region's entry. -/
abbrev W5 : Dev nD → Valuation τ sig (Elt F) := fun c => StableHlo.after hostOps0_4 (W4 m ρ c)
abbrev V5 : (c : Dev nD) → (b : Ref sig .tc) → Buf (Elt F) ((c : Thread nD τ).loc b) := fun c b => W5 m ρ c b
/-- The first region's exit: its arrays at what the pipeline leaves, every other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
abbrev V6 : (c : Dev nD) → (b : Ref sig .tc) → Buf (Elt F) ((c : Thread nD τ).loc b) := fun c b => W6 m ρ c b
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

/-- The second region's entry. -/
abbrev W7 : Dev nD → Valuation τ sig (Elt F) := fun c => StableHlo.after hostOps1 (W6 m ρ c)
abbrev V7 : (c : Dev nD) → (b : Ref sig .tc) → Buf (Elt F) ((c : Thread nD τ).loc b) := fun c b => W7 m ρ c b
/-- The second region's exit. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

abbrev W9 : Dev nD → Valuation τ sig (Elt F) := fun c => StableHlo.after hostOps2 (W8 m ρ c)
abbrev W10 : Dev nD → Valuation τ sig (Elt F) := fun c => StableHlo.after hostOps2_1 (W9 m ρ c)
abbrev W11 : Dev nD → Valuation τ sig (Elt F) := fun c => StableHlo.after hostOps2_2 (W10 m ρ c)
abbrev W12 : Dev nD → Valuation τ sig (Elt F) := fun c => StableHlo.after hostOps2_3 (W11 m ρ c)
/-- The return. -/
abbrev W13 : Dev nD → Valuation τ sig (Elt F) := fun c => StableHlo.after hostOps2_4 (W12 m ρ c)

/-! ## The argument arrays end as launched: no stretch writes one and neither region's output is one -/

theorem W13_arg (r : Ref sig .tc)
    (h0 : r ∉ hostOps0_W) (h1 : r ∉ hostOps0_1_W) (h2 : r ∉ hostOps0_2_W) (h3 : r ∉ hostOps0_3_W) (h4 : r ∉ hostOps0_4_W)
    (h5 : ∀ w, Pipeline.arrRef spec0 w ≠ r) (h6 : r ∉ hostOps1_W) (h7 : ∀ w, Pipeline.arrRef spec1 w ≠ r)
    (h8 : r ∉ hostOps2_W) (h9 : r ∉ hostOps2_1_W) (h10 : r ∉ hostOps2_2_W) (h11 : r ∉ hostOps2_3_W) (h12 : r ∉ hostOps2_4_W)
    (c : Dev nD) : W13 m ρ c (Proc.devRef .tc r) = m ((c : Thread nD τ).loc r) :=
  calc W13 m ρ c (Proc.devRef .tc r)
    _ = W12 m ρ c (Proc.devRef .tc r) := StableHlo.after_of_writes_sub hostOps2_4 _ hostOps2_4_writes h12
    _ = W11 m ρ c (Proc.devRef .tc r) := StableHlo.after_of_writes_sub hostOps2_3 _ hostOps2_3_writes h11
    _ = W10 m ρ c (Proc.devRef .tc r) := StableHlo.after_of_writes_sub hostOps2_2 _ hostOps2_2_writes h10
    _ = W9 m ρ c (Proc.devRef .tc r) := StableHlo.after_of_writes_sub hostOps2_1 _ hostOps2_1_writes h9
    _ = W8 m ρ c (Proc.devRef .tc r) := StableHlo.after_of_writes_sub hostOps2 _ hostOps2_writes h8
    _ = W7 m ρ c (Proc.devRef .tc r) := W8_of_ne m ρ c r h7
    _ = W6 m ρ c (Proc.devRef .tc r) := StableHlo.after_of_writes_sub hostOps1 _ hostOps1_writes h6
    _ = W5 m ρ c (Proc.devRef .tc r) := W6_of_ne m ρ c r h5
    _ = W4 m ρ c (Proc.devRef .tc r) := StableHlo.after_of_writes_sub hostOps0_4 _ hostOps0_4_writes h4
    _ = W3 m ρ c (Proc.devRef .tc r) := StableHlo.after_of_writes_sub hostOps0_3 _ hostOps0_3_writes h3
    _ = W2 m ρ c (Proc.devRef .tc r) := StableHlo.after_of_writes_sub hostOps0_2 _ hostOps0_2_writes h2
    _ = W1 m ρ c (Proc.devRef .tc r) := StableHlo.after_of_writes_sub hostOps0_1 _ hostOps0_1_writes h1
    _ = W0 m ρ c (Proc.devRef .tc r) := StableHlo.after_of_writes_sub hostOps0 _ hostOps0_writes h0
    _ = m ((c : Thread nD τ).loc r) := rfl

theorem W13_main_arg0 (c : Dev nD) : W13 m ρ c (Proc.devRef .tc main_arg0) = m ((c : Thread nD τ).loc main_arg0) :=
  W13_arg m ρ main_arg0 (by decide) (by decide) (by decide) (by decide) (by decide) (by decide) (by decide) (by decide) (by decide) (by decide) (by decide) (by decide) (by decide) c
theorem W13_main_arg1 (c : Dev nD) : W13 m ρ c (Proc.devRef .tc main_arg1) = m ((c : Thread nD τ).loc main_arg1) :=
  W13_arg m ρ main_arg1 (by decide) (by decide) (by decide) (by decide) (by decide) (by decide) (by decide) (by decide) (by decide) (by decide) (by decide) (by decide) (by decide) c

/-! ## The proof data family and the thread state -/

abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (V5 m ρ) c
  | ⟨1, _⟩ => fun c => dat1 (V7 m ρ) c
abbrev 𝒱₀ : Variants := Variants.none
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W13 m ρ c) ∗ ∃ r, prngReg c r)

/-! ## The regions as segments -/

set_option backward.isDefEq.respectTransparency.types false in
/-- Region 0 over the thread state: entered from every unscoped buffer at `W5`, left at `W6`. -/
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W7`, left at `W8`. -/
def reg1 : Pipeline.RegionSeg (pcfgs (F := F)) adm' (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm' (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .host (hseg hostOps2 hostOps2_sub hostOps2_fresh (W8 m ρ)),
    .host (hseg hostOps2_1 hostOps2_1_sub hostOps2_1_fresh (W9 m ρ)),
    .host (hseg hostOps2_2 hostOps2_2_sub hostOps2_2_fresh (W10 m ρ)),
    .host (hseg hostOps2_3 hostOps2_3_sub hostOps2_3_fresh (W11 m ρ)),
    .host (hseg hostOps2_4 hostOps2_4_sub hostOps2_4_fresh (W12 m ρ)) ]

set_option backward.isDefEq.respectTransparency.types false in
/-- THE RUN: from any memory with zero counters, every weakly fair execution of @main on the TensorCores terminates,
    nothing faulting, and every unscoped buffer of every core ends at `W13`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm' (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun c => show (iprop(StableHlo.held (c : Thread nD τ) (Pipeline.ucRefs τ sig) (W13 m ρ c) ∗ R c) : sProp 𝕄)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W13_main_arg0 m ρ c),
     (h c _ (mem_uc main_arg1 (by decide))).trans (W13_main_arg1 m ρ c)⟩) (run_all m ρ)

end Cert.KernelIdeal.Hand

end
-- ==== Proof.LibMinPlus.lean ====
/-
  Min-plus passes on the extended reals.

  A one-dimensional squared distance transform sends a line `g` to `i ↦ ⨅ j, g j + D i j` for a table `D`.  This file has
  the pass as a finite infimum (`pass`), a fold of `min` from any start as that infimum (`fold_min_eq_inf`), an infimum
  over a subset of a finite index type re-indexed along a parametrisation (`inf_filter_eq`), an infimum over `Fin (a + a)`
  split into its two halves (`inf_halves`), and the fact the certificate rests on (`two_pass_clamped`): when the table is
  zero on its diagonal and the seed is bounded by `B`, clamping each pass by `B` changes nothing but the last clamp.
-/
import Mathlib.Data.EReal.Basic
import Mathlib.Data.Finset.Lattice.Fold
import Mathlib.Data.Fintype.Basic
import Mathlib.Tactic.Ring

namespace Cert.MinPlus

/-- A fold of `min` from `a` is `a` against the infimum. -/
theorem fold_min_eq_inf {ι : Type*} (s : Finset ι) (f : ι → EReal) (a : EReal) :
    s.fold min a f = min a (s.inf f) := by
  classical
  induction s using Finset.induction_on with
  | empty => simp
  | insert x s hx ih =>
    rw [Finset.fold_insert hx, Finset.inf_insert, ih]
    exact min_left_comm _ _ _

/-- The infimum over the members of a finite type that satisfy `P`, when `e` parametrises them. -/
theorem inf_filter_eq {α κ : Type*} [Fintype α] [Fintype κ] (P : α → Prop) [DecidablePred P] (src : α → EReal)
    (e : κ → α) (g : κ → EReal) (he : ∀ k, P (e k)) (hs : ∀ a, P a → ∃ k, e k = a) (hg : ∀ k, src (e k) = g k) :
    (Finset.univ.filter P).inf src = Finset.univ.inf g := by
  apply le_antisymm
  · refine Finset.le_inf fun k _ => ?_
    rw [← hg k]
    exact Finset.inf_le (Finset.mem_filter.2 ⟨Finset.mem_univ _, he k⟩)
  · refine Finset.le_inf fun a ha => ?_
    obtain ⟨k, rfl⟩ := hs a (Finset.mem_filter.1 ha).2
    rw [hg]
    exact Finset.inf_le (Finset.mem_univ k)

/-- An infimum over `Fin (a + a)` is the smaller of the infima over its two halves. -/
theorem inf_halves (a : ℕ) (f : Fin (a + a) → EReal) :
    Finset.univ.inf f
      = min (Finset.univ.inf fun k : Fin a => f ⟨k.val, by omega⟩)
          (Finset.univ.inf fun k : Fin a => f ⟨a + k.val, by omega⟩) := by
  apply le_antisymm
  · exact le_min (Finset.le_inf fun k _ => Finset.inf_le (Finset.mem_univ _))
      (Finset.le_inf fun k _ => Finset.inf_le (Finset.mem_univ _))
  · refine Finset.le_inf fun j _ => ?_
    by_cases hj : j.val < a
    · exact (min_le_left _ _).trans (Finset.inf_le (f := fun k : Fin a => f ⟨k.val, by omega⟩) (Finset.mem_univ ⟨j.val, hj⟩))
    · refine (min_le_right _ _).trans ?_
      have h := Finset.inf_le (f := fun k : Fin a => f ⟨a + k.val, by omega⟩) (Finset.mem_univ ⟨j.val - a, by omega⟩)
      refine h.trans (le_of_eq (congrArg f (Fin.ext ?_)))
      show a + (j.val - a) = j.val
      omega

/-- One pass: `i ↦ ⨅ j, g j + D i j`. -/
noncomputable def pass {n : ℕ} (D : Fin n → Fin n → EReal) (g : Fin n → EReal) (i : Fin n) : EReal :=
  Finset.univ.inf fun j => g j + D i j

/-- With a zero diagonal a pass lies below the line it transforms. -/
theorem pass_le {n : ℕ} (D : Fin n → Fin n → EReal) (hD : ∀ i, D i i = 0) (g : Fin n → EReal) (i : Fin n) :
    pass D g i ≤ g i := by
  have h := Finset.inf_le (f := fun j => g j + D i j) (Finset.mem_univ i)
  simpa [pass, hD] using h

/-- The accumulator started at `B` and met with two half infima is `B` against the whole infimum. -/
theorem acc_two (B lo hi : EReal) : min (min B lo) hi = min B (min lo hi) := min_assoc _ _ _

/-- TWO PASSES, CLAMPED OR NOT.  `s` is the seed on an `n × n` grid, bounded by `B`; the first pass runs down the columns
    (over the first coordinate), the second along the rows.  Clamping both passes' results by `B` (the accumulator started at
    `B`) and then once more gives what the unclamped passes clamped once give. -/
theorem two_pass_clamped {n : ℕ} (D : Fin n → Fin n → EReal) (hD : ∀ i, D i i = 0) (B : EReal)
    (s : Fin n → Fin n → EReal) (hs : ∀ h w, s h w ≤ B) (h w : Fin n) :
    min (min B (pass D (fun j => min B (pass D (fun j' => s j' j) h)) w)) B
      = min (pass D (fun j => pass D (fun j' => s j' j) h) w) B := by
  have h1 : ∀ j, min B (pass D (fun j' => s j' j) h) = pass D (fun j' => s j' j) h := fun j =>
    min_eq_right ((pass_le D hD _ h).trans (hs h j))
  simp only [h1]
  rw [min_comm B, min_assoc, min_self]

end Cert.MinPlus
-- ==== Proof.RegionValue.lean ====
/-
  What each pallas region leaves in its output array, index by index, at the ideal instance.

  The body at a grid point holds a 32 × 256 block `x0` of lines and the whole 256 × 256 table `x1`.  Its accumulator starts
  at the constant BIG and is met with the minimum over `k < 128` of `x0[r, k] + x1[k, i]` and then with the minimum over
  `k < 128` of `x0[r, 128 + k] + x1[128 + k, i]`: entry `(r, i)` of the stored block is `min BIG (⨅ j, x0[r, j] + x1[j, i])`
  (`pay0_apply`); the second region's body clamps by BIG once more and takes the square root (`pay1_apply`).  Point `t` writes
  rows `32 t … 32 t + 31`; the points cover the 4096 rows, so the array after the region is one function of the entry
  contents (`final0`, `final1`).
-/
import proofs.«149378_j17952963297871_2_alg».proof.Proof.IdealBody
import proofs.«149378_j17952963297871_2_alg».proof.Proof.LibMinPlus
import Idealize.ShloMosaic.Lib.ValueIdx
import Idealize.ShloMosaic.Lib.Pipeline.Value
import Idealize.ShloMosaic.PureOps.Ideal.Laws

set_option maxRecDepth 16384

noncomputable section

namespace Cert.KernelIdeal.RegionValue

open Cert.KernelIdeal Cert.KernelIdeal.Gen Cert.KernelIdeal.Hand
open Idealize.ShloMosaic Idealize.ShloMosaic.TcCoe Idealize.ShloMosaic.ValueIdx Idealize.SL.Sem Cert.MinPlus
open Idealize.ShloMosaic.Pipeline (Dat)

/-- The accumulator's start, `1e10`. -/
abbrev BIG : EReal := Ideal.ofBits .f32 0x501502F9#32
/-- The reductions' start, `+inf`. -/
abbrev PINF : EReal := Ideal.ofBits .f32 0x7F800000#32

theorem pinf_eq_top : PINF = ⊤ := by
  simp [PINF, Ideal.ofBits, Ideal.ieee]

/-- A chunk's sums `a[r, k] + d[k, i]` as the body spells them. -/
noncomputable def chunkSum (a : FVec Ideal S32x128 .f32) (d : FVec Ideal S128x256 .f32) : FVec Ideal S32x128x256 .f32 :=
  addf (broadcastTo S32x128x256 (shapeCast S32x128x1 (shapeCast S32x128 a shapeCasts_S32x128_S32x128) shapeCasts_S32x128_S32x128x1) broadcasts_S32x128x1_S32x128x256)
    (broadcastTo S32x128x256 (shapeCast S1x128x256 (shapeCast S128x256 d shapeCasts_S128x256_S128x256) shapeCasts_S128x256_S1x128x256) broadcasts_S1x128x256_S32x128x256)

theorem chunkSum_apply (a : FVec Ideal S32x128 .f32) (d : FVec Ideal S128x256 .f32) (r : Fin 32) (k : Fin 128) (i : Fin 256) :
    chunkSum a d (ix3 r k i) = a (ix2 r k) + d (ix2 k i) := by
  unfold chunkSum
  rw [addf_apply]
  congr 1
  · refine (broadcastTo_apply _ _ (ix3 r k i) (ix3 r k (0 : Fin 1)) ?_).trans ?_
    · intro b; match b with
      | ⟨0, _⟩ => rfl
      | ⟨1, _⟩ => rfl
      | ⟨2, _⟩ => rfl
    · refine (shapeCast_apply _ _ (ix3 r k (0 : Fin 1)) (ix2 r k) ?_).trans ?_
      · rw [Shape.rowMajor_val_two, Shape.rowMajor_val_three]
        show r.val * 128 + k.val = (r.val * 128 + k.val) * 1 + 0
        omega
      · rw [shapeCast_self]
  · refine (broadcastTo_apply _ _ (ix3 r k i) (ix3 (0 : Fin 1) k i) ?_).trans ?_
    · intro b; match b with
      | ⟨0, _⟩ => rfl
      | ⟨1, _⟩ => rfl
      | ⟨2, _⟩ => rfl
    · refine (shapeCast_apply _ _ (ix3 (0 : Fin 1) k i) (ix2 k i) ?_).trans ?_
      · rw [Shape.rowMajor_val_two, Shape.rowMajor_val_three]
        show k.val * 256 + i.val = (0 * 128 + k.val) * 256 + i.val
        omega
      · rw [shapeCast_self]

/-- A chunk's minimum over its 128 rows of the table, at entry `(r, i)`. -/
theorem chunk_min (a : FVec Ideal S32x128 .f32) (d : FVec Ideal S128x256 .f32) (r : Fin 32) (i : Fin 256) :
    multiReduction (F := Ideal) .minimumf [1] S32x256 (chunkSum a d) 0x7F800000#32 reduces_S32x128x256_S32x256 (.inl rfl) rfl (ix2 r i)
      = min PINF (Finset.univ.inf fun k : Fin 128 => a (ix2 r k) + d (ix2 k i)) := by
  refine (multiReduction_minimumf_eq_fold _ _ _ _ _ _).trans ?_
  refine (fold_min_eq_inf _ _ _).trans ?_
  congr 1
  refine inf_filter_eq _ _ (fun k : Fin 128 => ix3 r k i) _ ?_ ?_ ?_
  · intro k
    funext b; apply Fin.ext
    match b with
    | ⟨0, _⟩ => exact reduces_S32x128x256_S32x256.drop_apply_val_of_eq (ix3 r k i) 0 0
    | ⟨1, _⟩ => exact reduces_S32x128x256_S32x256.drop_apply_val_of_eq (ix3 r k i) 1 2
  · intro j hj
    refine ⟨j 1, ?_⟩
    have h0 : (j 0).val = r.val := by
      have := congrArg (fun q => (q 0).val) hj
      simpa [reduces_S32x128x256_S32x256.drop_apply_val_of_eq j 0 0] using this
    have h2 : (j 2).val = i.val := by
      have := congrArg (fun q => (q 1).val) hj
      simpa [reduces_S32x128x256_S32x256.drop_apply_val_of_eq j 1 2] using this
    funext b; apply Fin.ext
    match b with
    | ⟨0, _⟩ => exact h0.symm
    | ⟨1, _⟩ => rfl
    | ⟨2, _⟩ => exact h2.symm
  · intro k
    exact chunkSum_apply a d r k i

/-- The first region's store as the body's three vector operations over the two chunks' sums. -/
theorem pay0_eq (v4 : Vec Ideal S32x128 .f32) (v7 : Vec Ideal S128x256 .f32) (v19 : Vec Ideal S32x128 .f32) (v22 : Vec Ideal S128x256 .f32) :
    k0_pay1 (F := Ideal) v4 v7 v19 v22
      = minimumf (minimumf (broadcast S32x256 (Scalar.ofBits (F := Ideal) .f32 0x501502F9#32))
          (multiReduction (F := Ideal) .minimumf [1] S32x256 (chunkSum v4 v7) 0x7F800000#32 reduces_S32x128x256_S32x256 (.inl rfl) rfl))
        (multiReduction (F := Ideal) .minimumf [1] S32x256 (chunkSum v19 v22) 0x7F800000#32 reduces_S32x128x256_S32x256 (.inl rfl) rfl) := rfl

/-- The second region's store: the same, clamped by BIG once more, square root taken. -/
theorem pay1_eq (v4 : Vec Ideal S32x128 .f32) (v7 : Vec Ideal S128x256 .f32) (v19 : Vec Ideal S32x128 .f32) (v22 : Vec Ideal S128x256 .f32) :
    k1_pay1 (F := Ideal) v4 v7 v19 v22
      = sqrt (minimumf (minimumf (minimumf (broadcast S32x256 (Scalar.ofBits (F := Ideal) .f32 0x501502F9#32))
          (multiReduction (F := Ideal) .minimumf [1] S32x256 (chunkSum v4 v7) 0x7F800000#32 reduces_S32x128x256_S32x256 (.inl rfl) rfl))
        (multiReduction (F := Ideal) .minimumf [1] S32x256 (chunkSum v19 v22) 0x7F800000#32 reduces_S32x128x256_S32x256 (.inl rfl) rfl))
        (broadcast S32x256 (Scalar.ofBits (F := Ideal) .f32 0x501502F9#32))) := rfl

theorem big_scalar : Scalar.ofBits (F := Ideal) .f32 0x501502F9#32 = BIG := rfl

/-- A square root of a vector, at an index. -/
theorem sqrt_apply' {s : Shape} (x : FVec Ideal s .f32) (i : s.Idx) : sqrt x i = Ideal.sqrt (x i) := rfl

/-- THE FIRST REGION'S STORE at entry `(r, i)`, from its four loads. -/
theorem pay0_apply (v4 : Vec Ideal S32x128 .f32) (v7 : Vec Ideal S128x256 .f32) (v19 : Vec Ideal S32x128 .f32) (v22 : Vec Ideal S128x256 .f32)
    (r : Fin 32) (i : Fin 256) :
    k0_pay1 (F := Ideal) v4 v7 v19 v22 (ix2 r i)
      = min (min BIG (min PINF (Finset.univ.inf fun k : Fin 128 => v4 (ix2 r k) + v7 (ix2 k i))))
          (min PINF (Finset.univ.inf fun k : Fin 128 => v19 (ix2 r k) + v22 (ix2 k i))) := by
  rw [pay0_eq, minimumf_apply, minimumf_apply, broadcast_apply, big_scalar, chunk_min, chunk_min]

/-- THE SECOND REGION'S STORE at entry `(r, i)`. -/
theorem pay1_apply (v4 : Vec Ideal S32x128 .f32) (v7 : Vec Ideal S128x256 .f32) (v19 : Vec Ideal S32x128 .f32) (v22 : Vec Ideal S128x256 .f32)
    (r : Fin 32) (i : Fin 256) :
    k1_pay1 (F := Ideal) v4 v7 v19 v22 (ix2 r i)
      = Ideal.sqrt (min (min (min BIG (min PINF (Finset.univ.inf fun k : Fin 128 => v4 (ix2 r k) + v7 (ix2 k i))))
          (min PINF (Finset.univ.inf fun k : Fin 128 => v19 (ix2 r k) + v22 (ix2 k i)))) BIG) := by
  rw [pay1_eq, sqrt_apply', minimumf_apply, minimumf_apply, minimumf_apply, broadcast_apply, big_scalar, chunk_min, chunk_min]

/-! ## The store as one minimum over the 256 entries of a line -/

theorem off1_0 : k0_off1 0#32 = ![0, 0] := by decide
theorem off1_1 : k0_off1 1#32 = ![0, 128] := by decide
theorem off2_0 : k0_off2 0#32 = ![0, 0] := by decide
theorem off2_1 : k0_off2 1#32 = ![128, 0] := by decide
theorem off1'_0 : k1_off1 0#32 = ![0, 0] := by decide
theorem off1'_1 : k1_off1 1#32 = ![0, 128] := by decide
theorem off2'_0 : k1_off2 0#32 = ![0, 0] := by decide
theorem off2'_1 : k1_off2 1#32 = ![128, 0] := by decide

/-- The accumulator from BIG met with the two half minima is BIG against the minimum over the whole line. -/
theorem acc_line (f : Fin 256 → EReal) :
    min (min BIG (min PINF (Finset.univ.inf fun k : Fin 128 => f ⟨k.val, by omega⟩)))
        (min PINF (Finset.univ.inf fun k : Fin 128 => f ⟨128 + k.val, by omega⟩))
      = min BIG (Finset.univ.inf f) := by
  rw [pinf_eq_top, min_eq_right le_top, min_eq_right le_top, acc_two]
  congr 1
  exact (inf_halves 128 f).symm

/-- Column half `h` of a block of lines at `(r, k)`, and row half `h` of the table at `(k, i)`. -/
theorem ld_l0_0 (x0 : Vec Ideal S32x256 .f32) (r : Fin 32) (k : Fin 128) : View.ld x0 rl0_0 (ix2 r k) = x0 (ix2 r ⟨k.val, by omega⟩) := by
  show x0 (rl0_0.emb (ix2 r k)) = _
  refine congrArg x0 (funext fun a => Fin.ext ?_)
  rw [Rect.emb_apply]
  match a with
  | ⟨0, _⟩ => show k0_off1 0#32 0 + 1 * r.val = r.val; rw [off1_0]; show 0 + 1 * r.val = r.val; omega
  | ⟨1, _⟩ => show k0_off1 0#32 1 + 1 * k.val = k.val; rw [off1_0]; show 0 + 1 * k.val = k.val; omega
theorem ld_l0_1 (x0 : Vec Ideal S32x256 .f32) (r : Fin 32) (k : Fin 128) : View.ld x0 rl0_1 (ix2 r k) = x0 (ix2 r ⟨128 + k.val, by omega⟩) := by
  show x0 (rl0_1.emb (ix2 r k)) = _
  refine congrArg x0 (funext fun a => Fin.ext ?_)
  rw [Rect.emb_apply]
  match a with
  | ⟨0, _⟩ => show k0_off1 1#32 0 + 1 * r.val = r.val; rw [off1_1]; show 0 + 1 * r.val = r.val; omega
  | ⟨1, _⟩ => show k0_off1 1#32 1 + 1 * k.val = 128 + k.val; rw [off1_1]; show 128 + 1 * k.val = 128 + k.val; omega
theorem ld_d0_0 (x1 : Vec Ideal S256x256 .f32) (k : Fin 128) (i : Fin 256) : View.ld x1 rd0_0 (ix2 k i) = x1 (ix2 ⟨k.val, by omega⟩ i) := by
  show x1 (rd0_0.emb (ix2 k i)) = _
  refine congrArg x1 (funext fun a => Fin.ext ?_)
  rw [Rect.emb_apply]
  match a with
  | ⟨0, _⟩ => show k0_off2 0#32 0 + 1 * k.val = k.val; rw [off2_0]; show 0 + 1 * k.val = k.val; omega
  | ⟨1, _⟩ => show k0_off2 0#32 1 + 1 * i.val = i.val; rw [off2_0]; show 0 + 1 * i.val = i.val; omega
theorem ld_d0_1 (x1 : Vec Ideal S256x256 .f32) (k : Fin 128) (i : Fin 256) : View.ld x1 rd0_1 (ix2 k i) = x1 (ix2 ⟨128 + k.val, by omega⟩ i) := by
  show x1 (rd0_1.emb (ix2 k i)) = _
  refine congrArg x1 (funext fun a => Fin.ext ?_)
  rw [Rect.emb_apply]
  match a with
  | ⟨0, _⟩ => show k0_off2 1#32 0 + 1 * k.val = 128 + k.val; rw [off2_1]; show 128 + 1 * k.val = 128 + k.val; omega
  | ⟨1, _⟩ => show k0_off2 1#32 1 + 1 * i.val = i.val; rw [off2_1]; show 0 + 1 * i.val = i.val; omega
theorem ld_l1_0 (x0 : Vec Ideal S32x256 .f32) (r : Fin 32) (k : Fin 128) : View.ld x0 rl1_0 (ix2 r k) = x0 (ix2 r ⟨k.val, by omega⟩) := by
  show x0 (rl1_0.emb (ix2 r k)) = _
  refine congrArg x0 (funext fun a => Fin.ext ?_)
  rw [Rect.emb_apply]
  match a with
  | ⟨0, _⟩ => show k1_off1 0#32 0 + 1 * r.val = r.val; rw [off1'_0]; show 0 + 1 * r.val = r.val; omega
  | ⟨1, _⟩ => show k1_off1 0#32 1 + 1 * k.val = k.val; rw [off1'_0]; show 0 + 1 * k.val = k.val; omega
theorem ld_l1_1 (x0 : Vec Ideal S32x256 .f32) (r : Fin 32) (k : Fin 128) : View.ld x0 rl1_1 (ix2 r k) = x0 (ix2 r ⟨128 + k.val, by omega⟩) := by
  show x0 (rl1_1.emb (ix2 r k)) = _
  refine congrArg x0 (funext fun a => Fin.ext ?_)
  rw [Rect.emb_apply]
  match a with
  | ⟨0, _⟩ => show k1_off1 1#32 0 + 1 * r.val = r.val; rw [off1'_1]; show 0 + 1 * r.val = r.val; omega
  | ⟨1, _⟩ => show k1_off1 1#32 1 + 1 * k.val = 128 + k.val; rw [off1'_1]; show 128 + 1 * k.val = 128 + k.val; omega
theorem ld_d1_0 (x1 : Vec Ideal S256x256 .f32) (k : Fin 128) (i : Fin 256) : View.ld x1 rd1_0 (ix2 k i) = x1 (ix2 ⟨k.val, by omega⟩ i) := by
  show x1 (rd1_0.emb (ix2 k i)) = _
  refine congrArg x1 (funext fun a => Fin.ext ?_)
  rw [Rect.emb_apply]
  match a with
  | ⟨0, _⟩ => show k1_off2 0#32 0 + 1 * k.val = k.val; rw [off2'_0]; show 0 + 1 * k.val = k.val; omega
  | ⟨1, _⟩ => show k1_off2 0#32 1 + 1 * i.val = i.val; rw [off2'_0]; show 0 + 1 * i.val = i.val; omega
theorem ld_d1_1 (x1 : Vec Ideal S256x256 .f32) (k : Fin 128) (i : Fin 256) : View.ld x1 rd1_1 (ix2 k i) = x1 (ix2 ⟨128 + k.val, by omega⟩ i) := by
  show x1 (rd1_1.emb (ix2 k i)) = _
  refine congrArg x1 (funext fun a => Fin.ext ?_)
  rw [Rect.emb_apply]
  match a with
  | ⟨0, _⟩ => show k1_off2 1#32 0 + 1 * k.val = 128 + k.val; rw [off2'_1]; show 128 + 1 * k.val = 128 + k.val; omega
  | ⟨1, _⟩ => show k1_off2 1#32 1 + 1 * i.val = i.val; rw [off2'_1]; show 0 + 1 * i.val = i.val; omega

theorem hz : (![0, 0] : Fin 2 → Nat) = fun _ => 0 := funext fun a => by fin_cases a <;> rfl

/-- THE FIRST REGION'S BLOCK after the body, at `(r, i)`: BIG against the minimum over the line of `x0[r, j] + x1[j, i]`. -/
theorem out0_apply (x0 : Vec Ideal S32x256 .f32) (x1 : Vec Ideal S256x256 .f32) (r : Fin 32) (i : Fin 256) :
    out0_2 x0 x1 (ix2 r i) = min BIG (Finset.univ.inf fun j : Fin 256 => x0 (ix2 r j) + x1 (ix2 j i)) := by
  unfold out0_2
  rw [View.canon_unit_zero hz, pay0_apply]
  have e1 : (fun k : Fin 128 => View.ld x0 rl0_0 (ix2 r k) + View.ld x1 rd0_0 (ix2 k i))
      = fun k : Fin 128 => x0 (ix2 r ⟨k.val, by omega⟩) + x1 (ix2 ⟨k.val, by omega⟩ i) :=
    funext fun k => congrArg₂ (· + ·) (ld_l0_0 x0 r k) (ld_d0_0 x1 k i)
  have e2 : (fun k : Fin 128 => View.ld x0 rl0_1 (ix2 r k) + View.ld x1 rd0_1 (ix2 k i))
      = fun k : Fin 128 => x0 (ix2 r ⟨128 + k.val, by omega⟩) + x1 (ix2 ⟨128 + k.val, by omega⟩ i) :=
    funext fun k => congrArg₂ (· + ·) (ld_l0_1 x0 r k) (ld_d0_1 x1 k i)
  rw [e1, e2]
  exact acc_line fun j => x0 (ix2 r j) + x1 (ix2 j i)

/-- THE SECOND REGION'S BLOCK after the body, at `(r, i)`. -/
theorem out1_apply (x0 : Vec Ideal S32x256 .f32) (x1 : Vec Ideal S256x256 .f32) (r : Fin 32) (i : Fin 256) :
    out1_2 x0 x1 (ix2 r i) = Ideal.sqrt (min (min BIG (Finset.univ.inf fun j : Fin 256 => x0 (ix2 r j) + x1 (ix2 j i))) BIG) := by
  unfold out1_2
  rw [View.canon_unit_zero hz, pay1_apply]
  have e1 : (fun k : Fin 128 => View.ld x0 rl1_0 (ix2 r k) + View.ld x1 rd1_0 (ix2 k i))
      = fun k : Fin 128 => x0 (ix2 r ⟨k.val, by omega⟩) + x1 (ix2 ⟨k.val, by omega⟩ i) :=
    funext fun k => congrArg₂ (· + ·) (ld_l1_0 x0 r k) (ld_d1_0 x1 k i)
  have e2 : (fun k : Fin 128 => View.ld x0 rl1_1 (ix2 r k) + View.ld x1 rd1_1 (ix2 k i))
      = fun k : Fin 128 => x0 (ix2 r ⟨128 + k.val, by omega⟩) + x1 (ix2 ⟨128 + k.val, by omega⟩ i) :=
    funext fun k => congrArg₂ (· + ·) (ld_l1_1 x0 r k) (ld_d1_1 x1 k i)
  rw [e1, e2]
  exact congrArg (fun z => Ideal.sqrt (min z BIG)) (acc_line fun j => x0 (ix2 r j) + x1 (ix2 j i))

/-! ## From the blocks to the arrays -/

/-- Entry `(r, i)` of a region's output from the array of lines `A` and the table `T`. -/
noncomputable def lineMin (A : S4096x256.Idx → EReal) (T : S256x256.Idx → EReal) (r : Fin 4096) (i : Fin 256) : EReal :=
  min BIG (Finset.univ.inf fun j : Fin 256 => A (ix2 r j) + T (ix2 j i))

/-- The first region's output array. -/
noncomputable def G0 (A : S4096x256.Idx → EReal) (T : S256x256.Idx → EReal) : S4096x256.Idx → EReal := fun idx =>
  lineMin A T ⟨(idx 0).val, idx2_lt0 idx⟩ ⟨(idx 1).val, idx2_lt1 idx⟩
/-- The second region's output array. -/
noncomputable def G1 (A : S4096x256.Idx → EReal) (T : S256x256.Idx → EReal) : S4096x256.Idx → EReal := fun idx =>
  Ideal.sqrt (min (lineMin A T ⟨(idx 0).val, idx2_lt0 idx⟩ ⟨(idx 1).val, idx2_lt1 idx⟩) BIG)

variable (V : (c : Dev nD) → (b : Ref sig .tc) → Buf (Elt Ideal) ((c : Thread nD τ).loc b))

/-- The printed index maps over the grid: the lines' window and the output window sit at block row `t`, the table at
    block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

end Cert.KernelIdeal.RegionValue

end
-- ==== Proof.RegionFinal.lean ====
/-
  Each region's output array after the region: the points' blocks are the 128 bands of 32 rows, each written once, so the
  array is `G0` (`G1`) of the lines and the table as the region finds them.
-/
import proofs.«149378_j17952963297871_2_alg».proof.Proof.RegionValue

set_option maxRecDepth 16384

noncomputable section

namespace Cert.KernelIdeal.RegionValue

open Cert.KernelIdeal Cert.KernelIdeal.Gen Cert.KernelIdeal.Hand
open Idealize.ShloMosaic Idealize.ShloMosaic.TcCoe Idealize.ShloMosaic.ValueIdx Idealize.SL.Sem Cert.MinPlus
open Idealize.ShloMosaic.Pipeline (Dat)

variable (V : (c : Dev nD) → (b : Ref sig .tc) → Buf (Elt Ideal) ((c : Thread nD τ).loc b))

/-- WHAT POINT `t` WRITES BACK in region 0 is block `t` of `G0` of the lines and the table as the region finds them. -/
theorem flushed0_eq (c : Dev nD) (t : Fin cfg0.N) :
    (dat0 V c).flushed 2 t = ((cfg0.win 2).blk t).view.read (Elt Ideal) (G0 (V c main_v36) (V c main_v26)) := by
  show (cfg0.win 2).cut (grid0.coords t) ((dat0 V c).after 2 t) = _
  rw [after0_2]
  obtain ⟨e0, e1, e2, e3, e4, e5⟩ := idx_facts0 t
  have ht : t.val < 128 := Nat.lt_of_lt_of_eq t.isLt N_0
  funext j
  obtain ⟨r, i, rfl⟩ : ∃ (r : Fin 32) (i : Fin 256), j = ix2 r i := ⟨j 0, j 1, eq_ix2 j⟩
  show out0_2 (iblk0 V c 0 t) (iblk0 V c 1 t) (ix2 r i) = G0 (V c main_v36) (V c main_v26) (((cfg0.win 2).blk t).view.emb (ix2 r i))
  refine (out0_apply (iblk0 V c 0 t) (iblk0 V c 1 t) r i).trans ?_
  have hrow : ∀ j : Fin 256, iblk0 V c 0 t (ix2 r j) = V c main_v36 (ix2 (⟨t.val * 32 + r.val, by omega⟩ : Fin 4096) j) := by
    intro j
    show V c main_v36 (((cfg0.win 0).blk t).view.emb (ix2 r j)) = _
    refine congrArg (V c main_v36) (funext fun a => Fin.ext ?_)
    match a with
    | ⟨0, _⟩ => show win0_0.index t (0 : Fin 2) * 32 + 1 * r.val = t.val * 32 + r.val; rw [e0]; omega
    | ⟨1, _⟩ => show win0_0.index t (1 : Fin 2) * 256 + 1 * j.val = j.val; rw [e1]; omega
  have htab : ∀ j : Fin 256, iblk0 V c 1 t (ix2 j i) = V c main_v26 (ix2 j i) := by
    intro j
    show V c main_v26 (((cfg0.win 1).blk t).view.emb (ix2 j i)) = _
    refine congrArg (V c main_v26) (funext fun a => Fin.ext ?_)
    match a with
    | ⟨0, _⟩ => show win0_1.index t (0 : Fin 2) * 256 + 1 * j.val = j.val; rw [e2]; omega
    | ⟨1, _⟩ => show win0_1.index t (1 : Fin 2) * 256 + 1 * i.val = i.val; rw [e3]; omega
  have h0 : ((((cfg0.win 2).blk t).view.emb (ix2 r i)) 0).val = t.val * 32 + r.val := by
    show win0_2.index t (0 : Fin 2) * 32 + 1 * r.val = t.val * 32 + r.val; rw [e4]; omega
  have h1 : ((((cfg0.win 2).blk t).view.emb (ix2 r i)) 1).val = i.val := by
    show win0_2.index t (1 : Fin 2) * 256 + 1 * i.val = i.val; rw [e5]; omega
  simp only [hrow, htab]
  unfold G0
  have hr : (⟨((((cfg0.win 2).blk t).view.emb (ix2 r i)) 0).val, idx2_lt0 _⟩ : Fin 4096) = ⟨t.val * 32 + r.val, by omega⟩ := Fin.ext h0
  have hi : (⟨((((cfg0.win 2).blk t).view.emb (ix2 r i)) 1).val, idx2_lt1 _⟩ : Fin 256) = i := Fin.ext h1
  rw [hr, hi]
  rfl

/-- An index of the array is in point `t`'s block iff each coordinate is in the block's range on its axis. -/
theorem mem_blk0 (t : Fin cfg0.N) (i : S4096x256.Idx) :
    i ∈ ((cfg0.win 2).blk t).view.set ↔ ∀ a : Fin 2, win0_2.index t a * S32x256.size a ≤ (i a).val ∧ (i a).val < win0_2.index t a * S32x256.size a + S32x256.size a := by
  show i ∈ ((View.whole main_v37).slice (win0_2.rect t)).set ↔ _
  rw [View.set_slice_whole, Rect.mem_set_unit]
  exact Iff.rfl

/-- Every row of the array is in the block of the point that owns it. -/
theorem cover0 (i : S4096x256.Idx) : ∃ t : Fin cfg0.N, (cfg0.win 2).flush t = true ∧ i ∈ ((cfg0.win 2).blk t).view.set := by
  have hi0 : (i 0).val < 4096 := (i 0).isLt
  have hi1 : (i 1).val < 256 := (i 1).isLt
  have hN : cfg0.N = 128 := N_0
  let t : Fin cfg0.N := ⟨(i 0).val / 32, by rw [hN]; omega⟩
  have htv : t.val = (i 0).val / 32 := rfl
  obtain ⟨e0, e1, e2, e3, e4, e5⟩ := idx_facts0 t
  refine ⟨t, flush0_2 t, ?_⟩
  rw [mem_blk0]
  intro a
  match a with
  | ⟨0, _⟩ => show win0_2.index t (0 : Fin 2) * 32 ≤ (i 0).val ∧ (i 0).val < win0_2.index t (0 : Fin 2) * 32 + 32; rw [e4, htv]; omega
  | ⟨1, _⟩ => show win0_2.index t (1 : Fin 2) * 256 ≤ (i 1).val ∧ (i 1).val < win0_2.index t (1 : Fin 2) * 256 + 256; rw [e5]; omega

/-- THE ARRAY after region 0. -/
theorem final0 (c : Dev nD) : (dat0 V c).arrAt 2 cfg0.N = G0 (V c main_v36) (V c main_v26) :=
  (dat0 V c).arrAt_eq_of_cover 2 _ (fun t _ => flushed0_eq V c t) cover0

/-- WHAT POINT `t` WRITES BACK in region 1 is block `t` of `G1` of the lines and the table as the region finds them. -/
theorem flushed1_eq (c : Dev nD) (t : Fin cfg1.N) :
    (dat1 V c).flushed 2 t = ((cfg1.win 2).blk t).view.read (Elt Ideal) (G1 (V c main_v40) (V c main_v34)) := by
  show (cfg1.win 2).cut (grid1.coords t) ((dat1 V c).after 2 t) = _
  rw [after1_2]
  obtain ⟨e0, e1, e2, e3, e4, e5⟩ := idx_facts1 t
  have ht : t.val < 128 := Nat.lt_of_lt_of_eq t.isLt N_1
  funext j
  obtain ⟨r, i, rfl⟩ : ∃ (r : Fin 32) (i : Fin 256), j = ix2 r i := ⟨j 0, j 1, eq_ix2 j⟩
  show out1_2 (iblk1 V c 0 t) (iblk1 V c 1 t) (ix2 r i) = G1 (V c main_v40) (V c main_v34) (((cfg1.win 2).blk t).view.emb (ix2 r i))
  refine (out1_apply (iblk1 V c 0 t) (iblk1 V c 1 t) r i).trans ?_
  have hrow : ∀ j : Fin 256, iblk1 V c 0 t (ix2 r j) = V c main_v40 (ix2 (⟨t.val * 32 + r.val, by omega⟩ : Fin 4096) j) := by
    intro j
    show V c main_v40 (((cfg1.win 0).blk t).view.emb (ix2 r j)) = _
    refine congrArg (V c main_v40) (funext fun a => Fin.ext ?_)
    match a with
    | ⟨0, _⟩ => show win1_0.index t (0 : Fin 2) * 32 + 1 * r.val = t.val * 32 + r.val; rw [e0]; omega
    | ⟨1, _⟩ => show win1_0.index t (1 : Fin 2) * 256 + 1 * j.val = j.val; rw [e1]; omega
  have htab : ∀ j : Fin 256, iblk1 V c 1 t (ix2 j i) = V c main_v34 (ix2 j i) := by
    intro j
    show V c main_v34 (((cfg1.win 1).blk t).view.emb (ix2 j i)) = _
    refine congrArg (V c main_v34) (funext fun a => Fin.ext ?_)
    match a with
    | ⟨0, _⟩ => show win1_1.index t (0 : Fin 2) * 256 + 1 * j.val = j.val; rw [e2]; omega
    | ⟨1, _⟩ => show win1_1.index t (1 : Fin 2) * 256 + 1 * i.val = i.val; rw [e3]; omega
  have h0 : ((((cfg1.win 2).blk t).view.emb (ix2 r i)) 0).val = t.val * 32 + r.val := by
    show win1_2.index t (0 : Fin 2) * 32 + 1 * r.val = t.val * 32 + r.val; rw [e4]; omega
  have h1 : ((((cfg1.win 2).blk t).view.emb (ix2 r i)) 1).val = i.val := by
    show win1_2.index t (1 : Fin 2) * 256 + 1 * i.val = i.val; rw [e5]; omega
  simp only [hrow, htab]
  unfold G1
  have hr : (⟨((((cfg1.win 2).blk t).view.emb (ix2 r i)) 0).val, idx2_lt0 _⟩ : Fin 4096) = ⟨t.val * 32 + r.val, by omega⟩ := Fin.ext h0
  have hi : (⟨((((cfg1.win 2).blk t).view.emb (ix2 r i)) 1).val, idx2_lt1 _⟩ : Fin 256) = i := Fin.ext h1
  rw [hr, hi]
  rfl

/-- An index of the array is in point `t`'s block iff each coordinate is in the block's range on its axis. -/
theorem mem_blk1 (t : Fin cfg1.N) (i : S4096x256.Idx) :
    i ∈ ((cfg1.win 2).blk t).view.set ↔ ∀ a : Fin 2, win1_2.index t a * S32x256.size a ≤ (i a).val ∧ (i a).val < win1_2.index t a * S32x256.size a + S32x256.size a := by
  show i ∈ ((View.whole main_v41).slice (win1_2.rect t)).set ↔ _
  rw [View.set_slice_whole, Rect.mem_set_unit]
  exact Iff.rfl

/-- Every row of the array is in the block of the point that owns it. -/
theorem cover1 (i : S4096x256.Idx) : ∃ t : Fin cfg1.N, (cfg1.win 2).flush t = true ∧ i ∈ ((cfg1.win 2).blk t).view.set := by
  have hi0 : (i 0).val < 4096 := (i 0).isLt
  have hi1 : (i 1).val < 256 := (i 1).isLt
  have hN : cfg1.N = 128 := N_1
  let t : Fin cfg1.N := ⟨(i 0).val / 32, by rw [hN]; omega⟩
  have htv : t.val = (i 0).val / 32 := rfl
  obtain ⟨e0, e1, e2, e3, e4, e5⟩ := idx_facts1 t
  refine ⟨t, flush1_2 t, ?_⟩
  rw [mem_blk1]
  intro a
  match a with
  | ⟨0, _⟩ => show win1_2.index t (0 : Fin 2) * 32 ≤ (i 0).val ∧ (i 0).val < win1_2.index t (0 : Fin 2) * 32 + 32; rw [e4, htv]; omega
  | ⟨1, _⟩ => show win1_2.index t (1 : Fin 2) * 256 ≤ (i 1).val ∧ (i 1).val < win1_2.index t (1 : Fin 2) * 256 + 256; rw [e5]; omega

/-- THE ARRAY after region 1. -/
theorem final1 (c : Dev nD) : (dat1 V c).arrAt 2 cfg1.N = G1 (V c main_v40) (V c main_v34) :=
  (dat1 V c).arrAt_eq_of_cover 2 _ (fun t _ => flushed1_eq V c t) cover1

end Cert.KernelIdeal.RegionValue

end
-- ==== Proof.KernelValue.lean ====
/-
  The idealized kernel program's host side, read back: what @main's host operations hold at the entry of each pallas
  region and at the return, as terms of the two argument arrays.

  Before the first region @main thresholds each image at one half, makes the four fields (foreground and its flip by
  `BIG - ·`, for the prediction and for the target), stacks them, swaps the two spatial axes and lays the stack out as 4096
  lines of 256 (`lines0`); it also builds the 256 × 256 table of squared index differences (`table`) and the per-image
  "any foreground" bits (`anyK`).  Between the regions it swaps the spatial axes back (`lines1`).  After the second region
  it cuts the four fields out, adds them in pairs, masks each sum by its image's bit and forms the weighted mean (`lossK`).
-/
import proofs.«149378_j17952963297871_2_alg».proof.Proof.IdealRun
import proofs.«149378_j17952963297871_2_alg».proof.Proof.RegionFinal
import Idealize.ShloMosaic.PureOps.Ideal
import Idealize.ShloMosaic.Lib.StableHlo.Run

set_option maxRecDepth 16384

noncomputable section

namespace Cert.KernelIdeal.KV

open Cert.KernelIdeal Cert.KernelIdeal.Gen Cert.KernelIdeal.Hand Cert.KernelIdeal.RegionValue
open Idealize.ShloMosaic Idealize.ShloMosaic.TcCoe Idealize.ShloMosaic.Tactic Idealize.ShloMosaic.StableHlo
open Idealize.SL Idealize.SL.Sem

/-! ## The host operations' values as functions of the images -/

noncomputable def half4 : FVec Ideal S4x1x256x256 .f32 := broadcastInDim S4x1x256x256 ![] bcast_S_S4x1x256x256 (constant S_ .f32 0x3F000000#32)
/-- The foreground mask of an image, as a `[4, 256, 256]` array of bits. -/
noncomputable def fgMask (x : FVec Ideal S4x1x256x256 .f32) : IVec S4x256x256 1 :=
  shapeCast S4x256x256 (cmpf .ogt x half4) shapeCasts_S4x1x256x256_S4x256x256
noncomputable def bigs3 : FVec Ideal S4x256x256 .f32 := broadcastInDim S4x256x256 ![] bcast_S_S4x256x256 (constant S_ .f32 0x501502F9#32)
noncomputable def zeros3 : FVec Ideal S4x256x256 .f32 := broadcastInDim S4x256x256 ![] bcast_S_S4x256x256 (constant S_ .f32 0x00000000#32)
/-- The foreground field: BIG on the foreground, zero elsewhere. -/
noncomputable def fgK (x : FVec Ideal S4x1x256x256 .f32) : FVec Ideal S4x256x256 .f32 := select (fgMask x) bigs3 zeros3
/-- Its flip. -/
noncomputable def bgK (x : FVec Ideal S4x1x256x256 .f32) : FVec Ideal S4x256x256 .f32 := subf bigs3 (fgK x)
noncomputable def up (y : FVec Ideal S4x256x256 .f32) : FVec Ideal S1x4x256x256 .f32 :=
  broadcastInDim S1x4x256x256 ![1, 2, 3] bcast_S4x256x256_S1x4x256x256_1_2_3 y
/-- The four fields stacked. -/
noncomputable def stacked (x0 x1 : FVec Ideal S4x1x256x256 .f32) : FVec Ideal S4x4x256x256 .f32 :=
  concatenate S4x4x256x256 0 [⟨S1x4x256x256, up (fgK x0)⟩, ⟨S1x4x256x256, up (bgK x0)⟩, ⟨S1x4x256x256, up (fgK x1)⟩, ⟨S1x4x256x256, up (bgK x1)⟩]
    concatenates_S1x4x256x256_S1x4x256x256_S1x4x256x256_S1x4x256x256_S4x4x256x256_d0
/-- The first region's lines. -/
noncomputable def lines0 (x0 x1 : FVec Ideal S4x1x256x256 .f32) : FVec Ideal S4096x256 .f32 :=
  shapeCast S4096x256 (transpose S4x4x256x256 [0, 1, 3, 2] (stacked x0 x1) transposes_S4x4x256x256_S4x4x256x256_0_1_3_2) shapeCasts_S4x4x256x256_S4096x256
/-- The table of squared index differences. -/
noncomputable def table : FVec Ideal S256x256 .f32 :=
  sitofp .f32
    (muli
      (subi (broadcastInDim S256x256 ![0, 1] bcast_S256x1_S256x256_0_1 (broadcastInDim S256x1 ![0] bcast_S256_S256x1_0 (iotaInDim S256 32 0)))
        (broadcastInDim S256x256 ![0, 1] bcast_S1x256_S256x256_0_1 (broadcastInDim S1x256 ![1] bcast_S256_S1x256_1 (iotaInDim S256 32 0))))
      (subi (broadcastInDim S256x256 ![0, 1] bcast_S256x1_S256x256_0_1 (broadcastInDim S256x1 ![0] bcast_S256_S256x1_0 (iotaInDim S256 32 0)))
        (broadcastInDim S256x256 ![0, 1] bcast_S1x256_S256x256_0_1 (broadcastInDim S1x256 ![1] bcast_S256_S1x256_1 (iotaInDim S256 32 0)))))
/-- Whether image `b` has any foreground. -/
noncomputable def anyK (x : FVec Ideal S4x1x256x256 .f32) : IVec S4 1 :=
  Host.reduce IntOp.ori (fgMask x) (constantI S_ 1 0#1) reducesTo_S4x256x256_S4_d1_2 h_S_
/-- The second region's lines from the first region's output. -/
noncomputable def lines1 (y : FVec Ideal S4096x256 .f32) : FVec Ideal S4096x256 .f32 :=
  shapeCast S4096x256 (transpose S4x4x256x256 [0, 1, 3, 2] (shapeCast S4x4x256x256 y shapeCasts_S4096x256_S4x4x256x256) transposes_S4x4x256x256_S4x4x256x256_0_1_3_2) shapeCasts_S4x4x256x256_S4096x256

variable (m : (ℓ : Loc nD τ sig) → Buf (Elt Ideal) ℓ) (ρ : Dev nD → PrngReg)

theorem W5_v26 (c : Dev nD) : W5 m ρ c (Proc.devRef .tc main_v26) = table := by
  show StableHlo.after hostOps0_4 (StableHlo.after hostOps0_3 (StableHlo.after hostOps0_2 (StableHlo.after hostOps0_1 (StableHlo.after hostOps0 (W0 m ρ c))))) (Proc.devRef .tc main_v26) = _
  simp only [hostOps0, hostOps0_1, hostOps0_2, hostOps0_3, hostOps0_4]
  simp (disch := decide) only [after_cons, after_nil,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne']
  rfl

theorem W5_v34 (c : Dev nD) : W5 m ρ c (Proc.devRef .tc main_v34) = table := by
  show StableHlo.after hostOps0_4 (StableHlo.after hostOps0_3 (StableHlo.after hostOps0_2 (StableHlo.after hostOps0_1 (StableHlo.after hostOps0 (W0 m ρ c))))) (Proc.devRef .tc main_v34) = _
  simp only [hostOps0, hostOps0_1, hostOps0_2, hostOps0_3, hostOps0_4]
  simp (disch := decide) only [after_cons, after_nil,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne']
  rfl

theorem W5_v6 (c : Dev nD) : W5 m ρ c (Proc.devRef .tc main_v6) = anyK (m ((c : Thread nD τ).loc main_arg0)) := by
  show StableHlo.after hostOps0_4 (StableHlo.after hostOps0_3 (StableHlo.after hostOps0_2 (StableHlo.after hostOps0_1 (StableHlo.after hostOps0 (W0 m ρ c))))) (Proc.devRef .tc main_v6) = _
  simp only [hostOps0, hostOps0_1, hostOps0_2, hostOps0_3, hostOps0_4]
  simp (disch := decide) only [after_cons, after_nil,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne']
  rfl

theorem W5_v7 (c : Dev nD) : W5 m ρ c (Proc.devRef .tc main_v7) = anyK (m ((c : Thread nD τ).loc main_arg1)) := by
  show StableHlo.after hostOps0_4 (StableHlo.after hostOps0_3 (StableHlo.after hostOps0_2 (StableHlo.after hostOps0_1 (StableHlo.after hostOps0 (W0 m ρ c))))) (Proc.devRef .tc main_v7) = _
  simp only [hostOps0, hostOps0_1, hostOps0_2, hostOps0_3, hostOps0_4]
  simp (disch := decide) only [after_cons, after_nil,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne']
  rfl

theorem W4_v8 (c : Dev nD) : W4 m ρ c (Proc.devRef .tc main_v8) = fgK (m ((c : Thread nD τ).loc main_arg0)) := by
  show StableHlo.after hostOps0_3 (StableHlo.after hostOps0_2 (StableHlo.after hostOps0_1 (StableHlo.after hostOps0 (W0 m ρ c)))) (Proc.devRef .tc main_v8) = _
  simp only [hostOps0, hostOps0_1, hostOps0_2, hostOps0_3]
  simp (disch := decide) only [after_cons, after_nil,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne']
  rfl

theorem W4_v9 (c : Dev nD) : W4 m ρ c (Proc.devRef .tc main_v9) = fgK (m ((c : Thread nD τ).loc main_arg1)) := by
  show StableHlo.after hostOps0_3 (StableHlo.after hostOps0_2 (StableHlo.after hostOps0_1 (StableHlo.after hostOps0 (W0 m ρ c)))) (Proc.devRef .tc main_v9) = _
  simp only [hostOps0, hostOps0_1, hostOps0_2, hostOps0_3]
  simp (disch := decide) only [after_cons, after_nil,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne']
  rfl

/-- The last stretch before the first region, from the two foreground fields. -/
theorem W5_v36_of (c : Dev nD) :
    W5 m ρ c (Proc.devRef .tc main_v36)
      = shapeCast S4096x256 (transpose S4x4x256x256 [0, 1, 3, 2]
          (concatenate S4x4x256x256 0 [⟨S1x4x256x256, up (W4 m ρ c (Proc.devRef .tc main_v8))⟩,
              ⟨S1x4x256x256, up (subf bigs3 (W4 m ρ c (Proc.devRef .tc main_v8)))⟩,
              ⟨S1x4x256x256, up (W4 m ρ c (Proc.devRef .tc main_v9))⟩,
              ⟨S1x4x256x256, up (subf bigs3 (W4 m ρ c (Proc.devRef .tc main_v9)))⟩]
            concatenates_S1x4x256x256_S1x4x256x256_S1x4x256x256_S1x4x256x256_S4x4x256x256_d0)
          transposes_S4x4x256x256_S4x4x256x256_0_1_3_2) shapeCasts_S4x4x256x256_S4096x256 := by
  show StableHlo.after hostOps0_4 (W4 m ρ c) (Proc.devRef .tc main_v36) = _
  generalize W4 m ρ c = U
  simp only [hostOps0_4]
  after_results
  rfl

theorem W5_v36 (c : Dev nD) :
    W5 m ρ c (Proc.devRef .tc main_v36) = lines0 (m ((c : Thread nD τ).loc main_arg0)) (m ((c : Thread nD τ).loc main_arg1)) := by
  rw [W5_v36_of, W4_v8, W4_v9]
  rfl

/-! ## After the second region -/

/-- Field 0 cut out of the second region's output. -/
noncomputable def cut0 (o : FVec Ideal S4096x256 .f32) : FVec Ideal S4x256x256 .f32 :=
  shapeCast S4x256x256 (extractStridedSlice S1x4x256x256 ![0, 0, 0, 0] (shapeCast S4x4x256x256 o shapeCasts_S4096x256_S4x4x256x256) slices_S4x4x256x256_S1x4x256x256_0_0_0_0) shapeCasts_S1x4x256x256_S4x256x256
/-- Field 1 cut out of the second region's output. -/
noncomputable def cut1 (o : FVec Ideal S4096x256 .f32) : FVec Ideal S4x256x256 .f32 :=
  shapeCast S4x256x256 (extractStridedSlice S1x4x256x256 ![1, 0, 0, 0] (shapeCast S4x4x256x256 o shapeCasts_S4096x256_S4x4x256x256) slices_S4x4x256x256_S1x4x256x256_1_0_0_0) shapeCasts_S1x4x256x256_S4x256x256
/-- Field 2 cut out of the second region's output. -/
noncomputable def cut2 (o : FVec Ideal S4096x256 .f32) : FVec Ideal S4x256x256 .f32 :=
  shapeCast S4x256x256 (extractStridedSlice S1x4x256x256 ![2, 0, 0, 0] (shapeCast S4x4x256x256 o shapeCasts_S4096x256_S4x4x256x256) slices_S4x4x256x256_S1x4x256x256_2_0_0_0) shapeCasts_S1x4x256x256_S4x256x256
/-- Field 3 cut out of the second region's output. -/
noncomputable def cut3 (o : FVec Ideal S4096x256 .f32) : FVec Ideal S4x256x256 .f32 :=
  shapeCast S4x256x256 (extractStridedSlice S1x4x256x256 ![3, 0, 0, 0] (shapeCast S4x4x256x256 o shapeCasts_S4096x256_S4x4x256x256) slices_S4x4x256x256_S1x4x256x256_3_0_0_0) shapeCasts_S1x4x256x256_S4x256x256
/-- A pair of fields added and masked by the image's bit, as a `[4, 1, 256, 256]` array. -/
noncomputable def maskedK (anyb : IVec S4 1) (f : FVec Ideal S4x256x256 .f32) : FVec Ideal S4x1x256x256 .f32 :=
  broadcastInDim S4x1x256x256 ![0, 2, 3] bcast_S4x256x256_S4x1x256x256_0_2_3
    (select (broadcastInDim S4x256x256 ![0, 1, 2] bcast_S4x1x1_S4x256x256_0_1_2 (broadcastInDim S4x1x1 ![0] bcast_S4_S4x1x1_0 anyb)) f
      (broadcastInDim S4x256x256 ![] bcast_S_S4x256x256 (id (constant S_ .f32 0x00000000#32))))
/-- The loss from the two images and their two masked fields. -/
noncomputable def lossK (a0 a1 p t : FVec Ideal S4x1x256x256 .f32) : FVec Ideal S_ .f32 :=
  Host.divf
    (Host.reduceAdd
      (mulf (mulf (subf a0 a1) (subf a0 a1))
        (addf (Host.powf p (broadcastInDim S4x1x256x256 ![] bcast_S_S4x1x256x256 (constant S_ .f32 0x40000000#32)))
          (Host.powf t (broadcastInDim S4x1x256x256 ![] bcast_S_S4x1x256x256 (constant S_ .f32 0x40000000#32)))))
      (constant S_ .f32 0x00000000#32) reducesTo_S4x1x256x256_S_d0_1_2_3 h_S_)
    (constant S_ .f32 0x48800000#32)

theorem W13_v68 (c : Dev nD) :
    W13 m ρ c (Proc.devRef .tc main_v68)
      = lossK (W8 m ρ c (Proc.devRef .tc main_arg0)) (W8 m ρ c (Proc.devRef .tc main_arg1))
          (maskedK (W8 m ρ c (Proc.devRef .tc main_v6)) (addf (cut0 (W8 m ρ c (Proc.devRef .tc main_v41))) (cut1 (W8 m ρ c (Proc.devRef .tc main_v41)))))
          (maskedK (W8 m ρ c (Proc.devRef .tc main_v7)) (addf (cut2 (W8 m ρ c (Proc.devRef .tc main_v41))) (cut3 (W8 m ρ c (Proc.devRef .tc main_v41))))) := by
  show StableHlo.after hostOps2_4 (StableHlo.after hostOps2_3 (StableHlo.after hostOps2_2 (StableHlo.after hostOps2_1 (StableHlo.after hostOps2 (W8 m ρ c))))) (Proc.devRef .tc main_v68) = _
  generalize W8 m ρ c = U
  simp only [hostOps2, hostOps2_1, hostOps2_2, hostOps2_3, hostOps2_4]
  simp (disch := decide) only [after_cons, after_nil,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne']
  rfl

/-- Between the regions. -/
theorem W7_v40 (c : Dev nD) : W7 m ρ c (Proc.devRef .tc main_v40) = lines1 (W6 m ρ c (Proc.devRef .tc main_v37)) := by
  show StableHlo.after hostOps1 (W6 m ρ c) (Proc.devRef .tc main_v40) = _
  generalize W6 m ρ c = U
  simp only [hostOps1]
  simp (disch := decide) only [after_cons, after_nil,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne']
  rfl

/-- A buffer that the stretch between the regions and the second region leave alone. -/
theorem W8_keep (c : Dev nD) (r : Ref sig .tc) (h7 : ∀ w, Pipeline.arrRef spec1 w ≠ r) (h6 : r ∉ hostOps1_W) (h5 : ∀ w, Pipeline.arrRef spec0 w ≠ r) :
    W8 m ρ c (Proc.devRef .tc r) = W5 m ρ c (Proc.devRef .tc r) :=
  calc W8 m ρ c (Proc.devRef .tc r)
    _ = W7 m ρ c (Proc.devRef .tc r) := W8_of_ne m ρ c r h7
    _ = W6 m ρ c (Proc.devRef .tc r) := StableHlo.after_of_writes_sub hostOps1 _ hostOps1_writes h6
    _ = W5 m ρ c (Proc.devRef .tc r) := W6_of_ne m ρ c r h5

theorem W5_arg (c : Dev nD) (r : Ref sig .tc)
    (h0 : r ∉ hostOps0_W) (h1 : r ∉ hostOps0_1_W) (h2 : r ∉ hostOps0_2_W) (h3 : r ∉ hostOps0_3_W) (h4 : r ∉ hostOps0_4_W) :
    W5 m ρ c (Proc.devRef .tc r) = m ((c : Thread nD τ).loc r) :=
  calc W5 m ρ c (Proc.devRef .tc r)
    _ = W4 m ρ c (Proc.devRef .tc r) := StableHlo.after_of_writes_sub hostOps0_4 _ hostOps0_4_writes h4
    _ = W3 m ρ c (Proc.devRef .tc r) := StableHlo.after_of_writes_sub hostOps0_3 _ hostOps0_3_writes h3
    _ = W2 m ρ c (Proc.devRef .tc r) := StableHlo.after_of_writes_sub hostOps0_2 _ hostOps0_2_writes h2
    _ = W1 m ρ c (Proc.devRef .tc r) := StableHlo.after_of_writes_sub hostOps0_1 _ hostOps0_1_writes h1
    _ = W0 m ρ c (Proc.devRef .tc r) := StableHlo.after_of_writes_sub hostOps0 _ hostOps0_writes h0
    _ = m ((c : Thread nD τ).loc r) := rfl

/-- The first region's output array. -/
theorem W6_v37 (c : Dev nD) :
    W6 m ρ c (Proc.devRef .tc main_v37)
      = G0 (lines0 (m ((c : Thread nD τ).loc main_arg0)) (m ((c : Thread nD τ).loc main_arg1))) table := by
  have h := (W6_arr m ρ c 2).trans (final0 (V5 m ρ) c)
  rw [show V5 m ρ c main_v36 = W5 m ρ c (Proc.devRef .tc main_v36) from rfl,
    show V5 m ρ c main_v26 = W5 m ρ c (Proc.devRef .tc main_v26) from rfl, W5_v36, W5_v26] at h
  exact h

/-- The second region's output array. -/
theorem W8_v41 (c : Dev nD) :
    W8 m ρ c (Proc.devRef .tc main_v41)
      = G1 (lines1 (G0 (lines0 (m ((c : Thread nD τ).loc main_arg0)) (m ((c : Thread nD τ).loc main_arg1))) table)) table := by
  have h := (W8_arr m ρ c 2).trans (final1 (V7 m ρ) c)
  have h34 : W7 m ρ c (Proc.devRef .tc main_v34) = table :=
    ((StableHlo.after_of_writes_sub hostOps1 _ hostOps1_writes (by decide)).trans (W6_of_ne m ρ c main_v34 (by decide))).trans (W5_v34 m ρ c)
  rw [show V7 m ρ c main_v40 = W7 m ρ c (Proc.devRef .tc main_v40) from rfl,
    show V7 m ρ c main_v34 = W7 m ρ c (Proc.devRef .tc main_v34) from rfl, W7_v40, W6_v37, h34] at h
  exact h

/-- THE KERNEL PROGRAM'S RESULT as a term of the two images. -/
theorem kernel_value (c : Dev nD) :
    W13 m ρ c (Proc.devRef .tc main_v68)
      = lossK (m ((c : Thread nD τ).loc main_arg0)) (m ((c : Thread nD τ).loc main_arg1))
          (maskedK (anyK (m ((c : Thread nD τ).loc main_arg0)))
            (addf (cut0 (G1 (lines1 (G0 (lines0 (m ((c : Thread nD τ).loc main_arg0)) (m ((c : Thread nD τ).loc main_arg1))) table)) table))
              (cut1 (G1 (lines1 (G0 (lines0 (m ((c : Thread nD τ).loc main_arg0)) (m ((c : Thread nD τ).loc main_arg1))) table)) table))))
          (maskedK (anyK (m ((c : Thread nD τ).loc main_arg1)))
            (addf (cut2 (G1 (lines1 (G0 (lines0 (m ((c : Thread nD τ).loc main_arg0)) (m ((c : Thread nD τ).loc main_arg1))) table)) table))
              (cut3 (G1 (lines1 (G0 (lines0 (m ((c : Thread nD τ).loc main_arg0)) (m ((c : Thread nD τ).loc main_arg1))) table)) table)))) := by
  rw [W13_v68, W8_v41,
    (W8_keep m ρ c main_arg0 (by decide) (by decide) (by decide)).trans (W5_arg m ρ c main_arg0 (by decide) (by decide) (by decide) (by decide) (by decide)),
    (W8_keep m ρ c main_arg1 (by decide) (by decide) (by decide)).trans (W5_arg m ρ c main_arg1 (by decide) (by decide) (by decide) (by decide) (by decide)),
    (W8_keep m ρ c main_v6 (by decide) (by decide) (by decide)).trans (W5_v6 m ρ c),
    (W8_keep m ρ c main_v7 (by decide) (by decide) (by decide)).trans (W5_v7 m ρ c)]

end Cert.KernelIdeal.KV

end
-- ==== Proof.LibHostMin.lean ====
/-
  The host's reduction by minimum along the LAST axis of a rank-5 array on the extended reals, read at an index: at
  `(a, b, c, d)` it is the initial value against the infimum over `k` of the entries `(a, b, c, d, k)` — general in the
  five extents.  (A minimum over the last axis of `f[..., None, :] + table`, the min-plus pass of a distance transform, is
  this reduction.)
-/
import Idealize.ShloMosaic.Lib.ValueIdx
import Idealize.ShloMosaic.PureOps.Ideal.Laws
import proofs.«149378_j17952963297871_2_alg».proof.Proof.LibMinPlus

noncomputable section

namespace Cert.HostMin

open Idealize.ShloMosaic Idealize.ShloMosaic.ValueIdx Cert.MinPlus

/-- `Host.reduce` by `minimumf` over axis 4 of `[n0, n1, n2, n3, n]` at `(a, b, c, d)`. -/
theorem reduce_min_last5 {n0 n1 n2 n3 n : ℕ} (x : (⟨5, ![n0, n1, n2, n3, n]⟩ : Shape).Idx → EReal)
    (init : (⟨0, ![]⟩ : Shape).Idx → EReal)
    (h : Shape.ReducesTo (⟨5, ![n0, n1, n2, n3, n]⟩ : Shape) [4] (⟨4, ![n0, n1, n2, n3]⟩ : Shape))
    (hu : 0 < (⟨0, ![]⟩ : Shape).numel) (a : Fin n0) (b : Fin n1) (c : Fin n2) (d : Fin n3) :
    Host.reduce (FloatOps.minimumf (F := Ideal) (φ := .f32)) x init h hu (ix4 a b c d)
      = min (init ix0) (Finset.univ.inf fun k : Fin n => x (ix5 a b c d k)) := by
  refine (Host.reduce_eq_fold _ _ _ _ _ _).trans ?_
  refine (fold_min_eq_inf _ _ _).trans ?_
  refine congr (congrArg min (congrArg init (eq_ix0 _))) ?_
  refine inf_filter_eq _ _ (fun k : Fin n => ix5 a b c d k) _ ?_ ?_ ?_
  · intro k
    funext e; apply Fin.ext
    match e with
    | ⟨0, _⟩ => rfl
    | ⟨1, _⟩ => rfl
    | ⟨2, _⟩ => rfl
    | ⟨3, _⟩ => rfl
  · intro j hj
    refine ⟨j 4, ?_⟩
    have h0 : (j 0).val = a.val := congrArg (fun q : (⟨4, ![n0, n1, n2, n3]⟩ : Shape).Idx => (q 0).val) hj
    have h1 : (j 1).val = b.val := congrArg (fun q : (⟨4, ![n0, n1, n2, n3]⟩ : Shape).Idx => (q 1).val) hj
    have h2 : (j 2).val = c.val := congrArg (fun q : (⟨4, ![n0, n1, n2, n3]⟩ : Shape).Idx => (q 2).val) hj
    have h3 : (j 3).val = d.val := congrArg (fun q : (⟨4, ![n0, n1, n2, n3]⟩ : Shape).Idx => (q 3).val) hj
    funext e; apply Fin.ext
    match e with
    | ⟨0, _⟩ => exact h0.symm
    | ⟨1, _⟩ => exact h1.symm
    | ⟨2, _⟩ => exact h2.symm
    | ⟨3, _⟩ => exact h3.symm
    | ⟨4, _⟩ => rfl
  · intro k
    rfl

end Cert.HostMin

end
-- ==== Proof.Consts.lean ====
/-
  The float constants of the two programs as the extended reals their words denote at the ideal instance, and the table of
  squared distances.  BIG is the real `10^10`: it is nonnegative and `BIG - BIG = 0`, so `BIG - f` flips a field `f` with
  values in `{0, BIG}`.  An entry of the table is the signed value of the word `(i - j) * (i - j)` over 32 bits; the word is
  the same for `(j, i)`, and it is zero on the diagonal.
-/
import Idealize.ShloMosaic.PureOps.Ideal
import Mathlib.Data.BitVec
import Mathlib.Tactic.Ring
import Mathlib.Tactic.NormNum

noncomputable section

namespace Cert.Consts

open Idealize.ShloMosaic

theorem big_eq : Ideal.ofBits .f32 0x501502F9#32 = ((10000000000 : ℝ) : EReal) := by
  simp [Ideal.ofBits, Ideal.ieee, -EReal.coe_mul]; norm_num

theorem zero_eq : Ideal.ofBits .f32 0x00000000#32 = 0 := by
  simp [Ideal.ofBits, Ideal.ieee]

theorem pinf_eq : Ideal.ofBits .f32 0x7F800000#32 = ⊤ := by
  simp [Ideal.ofBits, Ideal.ieee]

theorem big_nonneg : (0 : EReal) ≤ Ideal.ofBits .f32 0x501502F9#32 := by
  rw [big_eq]; exact_mod_cast (by norm_num : (0 : ℝ) ≤ 10000000000)

theorem big_sub_big : Ideal.ofBits .f32 0x501502F9#32 - Ideal.ofBits .f32 0x501502F9#32 = 0 := by
  rw [big_eq, ← EReal.coe_sub, sub_self, EReal.coe_zero]

theorem big_sub_zero : Ideal.ofBits .f32 0x501502F9#32 - Ideal.ofBits .f32 0x00000000#32 = Ideal.ofBits .f32 0x501502F9#32 := by
  rw [zero_eq, sub_zero]

/-- The word of a table entry. -/
def dword (i j : Fin 256) : BitVec 32 :=
  IntOp.muli (IntOp.subi (BitVec.ofNat 32 i.val) (BitVec.ofNat 32 j.val)) (IntOp.subi (BitVec.ofNat 32 i.val) (BitVec.ofNat 32 j.val))

/-- The table of squared distances at `(i, j)`. -/
def Dtab (i j : Fin 256) : EReal := FloatOps.sitofp (F := Ideal) .f32 (dword i j)

theorem dword_symm (i j : Fin 256) : dword i j = dword j i := by
  unfold dword IntOp.muli IntOp.subi
  generalize BitVec.ofNat 32 i.val = a
  generalize BitVec.ofNat 32 j.val = b
  ring

theorem Dtab_symm (i j : Fin 256) : Dtab i j = Dtab j i := by
  unfold Dtab; rw [dword_symm]

theorem Dtab_diag (i : Fin 256) : Dtab i i = 0 := by
  unfold Dtab dword IntOp.muli IntOp.subi
  rw [BitVec.sub_self]
  show (((0#32 * 0#32 : BitVec 32).toInt : ℝ) : EReal) = 0
  simp

/-- The one-entry table of the pass along an axis of extent one is zero. -/
theorem one_entry (a b : BitVec 32) (h : a = b) :
    FloatOps.sitofp (F := Ideal) .f32 (IntOp.muli (IntOp.subi a b) (IntOp.subi a b)) = 0 := by
  subst h
  unfold IntOp.muli IntOp.subi
  rw [BitVec.sub_self]
  show (((0#32 * 0#32 : BitVec 32).toInt : ℝ) : EReal) = 0
  simp

end Cert.Consts

end
-- ==== Proof.RefValue.lean ====
/-
  The reference program read back, at the ideal instance.

  For each image the reference thresholds at one half, seeds a field with BIG on the foreground (and one with BIG on the
  background), runs three min-plus passes over the seed — along the channel axis of extent one, then down the columns, then
  along the rows, moving the axis to the end and back each time —, clamps by BIG and takes the square root (`edtRef`); the
  two fields are added and masked by the image's "any foreground" bit (`dtR`); the loss is the mean of the squared
  difference times the sum of the two images' fields squared (`lossR`).  Here: the three parts of @main's operations
  evaluated to these terms, and `edtRef` read at an index as two passes over the table of squared distances.
-/
import proofs.«149378_j17952963297871_2_alg».proof.Proof.RefRun
import proofs.«149378_j17952963297871_2_alg».proof.Proof.LibHostMin
import proofs.«149378_j17952963297871_2_alg».proof.Proof.Consts
import Idealize.ShloMosaic.Lib.ValueIdx
import Idealize.ShloMosaic.Lib.Pipeline.Value
import Idealize.ShloMosaic.PureOps.Ideal.Laws

set_option maxRecDepth 16384

noncomputable section

namespace Cert.ReferenceIdeal.RV

open Cert.ReferenceIdeal Cert.ReferenceIdeal.Gen Cert.ReferenceIdeal.RunP
open Idealize.ShloMosaic Idealize.ShloMosaic.TcCoe Idealize.ShloMosaic.ValueIdx Idealize.ShloMosaic.StableHlo Idealize.SL.Sem
open Cert.MinPlus Cert.Consts Cert.HostMin

/-! ## The operations' values as functions of an image -/

noncomputable def half4 : FVec Ideal S4x1x256x256 .f32 := broadcastInDim S4x1x256x256 ![] bcast_S_S4x1x256x256 (constant S_ .f32 0x3F000000#32)
noncomputable def bigs4 : FVec Ideal S4x1x256x256 .f32 := broadcastInDim S4x1x256x256 ![] bcast_S_S4x1x256x256 (constant S_ .f32 0x501502F9#32)
noncomputable def zeros4 : FVec Ideal S4x1x256x256 .f32 := broadcastInDim S4x1x256x256 ![] bcast_S_S4x1x256x256 (constant S_ .f32 0x00000000#32)
/-- The foreground mask. -/
noncomputable def maskR (x : FVec Ideal S4x1x256x256 .f32) : IVec S4x1x256x256 1 := cmpf .ogt x half4
/-- Whether image `b` has any foreground. -/
noncomputable def anyR (x : FVec Ideal S4x1x256x256 .f32) : IVec S4 1 :=
  Host.reduce IntOp.ori (maskR x) (constantI S_ 1 0#1) reducesTo_S4x1x256x256_S4_d1_2_3 h_S_
noncomputable def seedFgR (x : FVec Ideal S4x1x256x256 .f32) : FVec Ideal S4x1x256x256 .f32 := select (maskR x) bigs4 zeros4
noncomputable def seedBgR (x : FVec Ideal S4x1x256x256 .f32) : FVec Ideal S4x1x256x256 .f32 := select (noti (maskR x)) bigs4 zeros4

/-- The one-entry table of the pass along the channel axis. -/
noncomputable def tab1 : FVec Ideal S1x1 .f32 :=
  sitofp .f32 (muli (subi (broadcastInDim S1x1 ![0] bcast_S1_S1x1_0 (iotaInDim S1 32 0)) (broadcastInDim S1x1 ![1] bcast_S1_S1x1_1 (iotaInDim S1 32 0)))
    (subi (broadcastInDim S1x1 ![0] bcast_S1_S1x1_0 (iotaInDim S1 32 0)) (broadcastInDim S1x1 ![1] bcast_S1_S1x1_1 (iotaInDim S1 32 0))))
/-- The table of squared index differences. -/
noncomputable def tabR : FVec Ideal S256x256 .f32 :=
  sitofp .f32
    (muli
      (subi (broadcastInDim S256x256 ![0, 1] bcast_S256x1_S256x256_0_1 (broadcastInDim S256x1 ![0] bcast_S256_S256x1_0 (iotaInDim S256 32 0)))
        (broadcastInDim S256x256 ![0, 1] bcast_S1x256_S256x256_0_1 (broadcastInDim S1x256 ![1] bcast_S256_S1x256_1 (iotaInDim S256 32 0))))
      (subi (broadcastInDim S256x256 ![0, 1] bcast_S256x1_S256x256_0_1 (broadcastInDim S256x1 ![0] bcast_S256_S256x1_0 (iotaInDim S256 32 0)))
        (broadcastInDim S256x256 ![0, 1] bcast_S1x256_S256x256_0_1 (broadcastInDim S1x256 ![1] bcast_S256_S1x256_1 (iotaInDim S256 32 0)))))
noncomputable def pinfR : FVec Ideal S_ .f32 := constant S_ .f32 0x7F800000#32

/-- The pass along the channel axis (extent one), the axis moved to the end and back. -/
noncomputable def pass1 (s : FVec Ideal S4x1x256x256 .f32) : FVec Ideal S4x1x256x256 .f32 :=
  transpose S4x1x256x256 [0, 3, 1, 2]
    (Host.reduce FloatOps.minimumf
      (addf (broadcastInDim S4x256x256x1x1 ![0, 1, 2, 4] bcast_S4x256x256x1_S4x256x256x1x1_0_1_2_4
          (transpose S4x256x256x1 [0, 2, 3, 1] s transposes_S4x1x256x256_S4x256x256x1_0_2_3_1))
        (broadcastInDim S4x256x256x1x1 ![0, 1, 2, 3, 4] bcast_S1x1x1x1x1_S4x256x256x1x1_0_1_2_3_4
          (broadcastInDim S1x1x1x1x1 ![3, 4] bcast_S1x1_S1x1x1x1x1_3_4 tab1)))
      pinfR reducesTo_S4x256x256x1x1_S4x256x256x1_d4 h_S_)
    transposes_S4x256x256x1_S4x1x256x256_0_3_1_2
/-- The two spatial axes swapped. -/
noncomputable def swap (y : FVec Ideal S4x1x256x256 .f32) : FVec Ideal S4x1x256x256 .f32 :=
  transpose S4x1x256x256 [0, 1, 3, 2] y transposes_S4x1x256x256_S4x1x256x256_0_1_3_2
/-- One min-plus pass along the last axis. -/
noncomputable def passLast (y : FVec Ideal S4x1x256x256 .f32) : FVec Ideal S4x1x256x256 .f32 :=
  Host.reduce FloatOps.minimumf
    (addf (broadcastInDim S4x1x256x256x256 ![0, 1, 2, 3, 4] bcast_S4x1x256x1x256_S4x1x256x256x256_0_1_2_3_4
        (broadcastInDim S4x1x256x1x256 ![0, 1, 2, 4] bcast_S4x1x256x256_S4x1x256x1x256_0_1_2_4 y))
      (broadcastInDim S4x1x256x256x256 ![0, 1, 2, 3, 4] bcast_S1x1x1x256x256_S4x1x256x256x256_0_1_2_3_4
        (broadcastInDim S1x1x1x256x256 ![3, 4] bcast_S256x256_S1x1x1x256x256_3_4 tabR)))
    pinfR reducesTo_S4x1x256x256x256_S4x1x256x256_d4 h_S_
/-- The distance transform of a seed. -/
noncomputable def edtRef (s : FVec Ideal S4x1x256x256 .f32) : FVec Ideal S4x1x256x256 .f32 :=
  Host.sqrt (minimumf (passLast (swap (passLast (swap (pass1 s))))) bigs4)
/-- A field masked by the images' bits: zero on the images without foreground. -/
noncomputable def maskedR (anyb : IVec S4 1) (f : FVec Ideal S4x1x256x256 .f32) : FVec Ideal S4x1x256x256 .f32 :=
  select (broadcastInDim S4x1x256x256 ![0, 1, 2, 3] bcast_S4x1x1x1_S4x1x256x256_0_1_2_3 (broadcastInDim S4x1x1x1 ![0] bcast_S4_S4x1x1x1_0 anyb))
    f (broadcastInDim S4x1x256x256 ![] bcast_S_S4x1x256x256 (id (constant S_ .f32 0x00000000#32)))
/-- An image's masked distance field. -/
noncomputable def dtR (x : FVec Ideal S4x1x256x256 .f32) : FVec Ideal S4x1x256x256 .f32 :=
  maskedR (anyR x) (addf (edtRef (seedFgR x)) (edtRef (seedBgR x)))
/-- The loss from the two images and their two fields. -/
noncomputable def lossR (a0 a1 p t : FVec Ideal S4x1x256x256 .f32) : FVec Ideal S_ .f32 :=
  Host.divf
    (Host.reduceAdd
      (mulf (mulf (subf a0 a1) (subf a0 a1))
        (addf (Host.powf p (broadcastInDim S4x1x256x256 ![] bcast_S_S4x1x256x256 (constant S_ .f32 0x40000000#32)))
          (Host.powf t (broadcastInDim S4x1x256x256 ![] bcast_S_S4x1x256x256 (constant S_ .f32 0x40000000#32)))))
      (constant S_ .f32 0x00000000#32) reducesTo_S4x1x256x256_S_d0_1_2_3 h_S_)
    (constant S_ .f32 0x48800000#32)

/-! ## The parts of @main, evaluated -/

set_option maxHeartbeats 2000000 in
theorem sA0_eval (U : Valuation τ sig (Elt Ideal)) :
    after sA0 U (Proc.devRef .tc main_v3) = seedFgR (U (Proc.devRef .tc main_arg0))
      ∧ after sA0 U (Proc.devRef .tc main_v1) = maskR (U (Proc.devRef .tc main_arg0))
      ∧ after sA0 U (Proc.devRef .tc main_v2) = anyR (U (Proc.devRef .tc main_arg0))
      ∧ after sA0 U (Proc.devRef .tc main_arg0) = U (Proc.devRef .tc main_arg0)
      ∧ after sA0 U (Proc.devRef .tc main_arg1) = U (Proc.devRef .tc main_arg1) := by
  refine ⟨?_, ?_, ?_, ?_, ?_⟩
  · simp only [sA0]
    after_results_simp
    rfl
  · simp only [sA0]
    after_results_simp
    rfl
  · simp only [sA0]
    after_results_simp
    rfl
  · simp only [sA0]
    after_results_simp
  · simp only [sA0]
    after_results_simp

set_option maxHeartbeats 2000000 in
theorem sA1_eval (U : Valuation τ sig (Elt Ideal)) :
    after sA1 U (Proc.devRef .tc main_v49) = edtRef (U (Proc.devRef .tc main_v3))
      ∧ after sA1 U (Proc.devRef .tc main_v1) = U (Proc.devRef .tc main_v1)
      ∧ after sA1 U (Proc.devRef .tc main_v2) = U (Proc.devRef .tc main_v2)
      ∧ after sA1 U (Proc.devRef .tc main_arg0) = U (Proc.devRef .tc main_arg0)
      ∧ after sA1 U (Proc.devRef .tc main_arg1) = U (Proc.devRef .tc main_arg1) := by
  refine ⟨?_, ?_, ?_, ?_, ?_⟩
  · simp only [sA1]
    after_results_simp
    rfl
  · simp only [sA1]
    after_results_simp
  · simp only [sA1]
    after_results_simp
  · simp only [sA1]
    after_results_simp
  · simp only [sA1]
    after_results_simp

set_option maxHeartbeats 2000000 in
theorem sA2_eval (U : Valuation τ sig (Elt Ideal)) :
    after sA2 U (Proc.devRef .tc main_v51) = select (noti (U (Proc.devRef .tc main_v1))) bigs4 zeros4
      ∧ after sA2 U (Proc.devRef .tc main_v49) = U (Proc.devRef .tc main_v49)
      ∧ after sA2 U (Proc.devRef .tc main_v2) = U (Proc.devRef .tc main_v2)
      ∧ after sA2 U (Proc.devRef .tc main_arg0) = U (Proc.devRef .tc main_arg0)
      ∧ after sA2 U (Proc.devRef .tc main_arg1) = U (Proc.devRef .tc main_arg1) := by
  refine ⟨?_, ?_, ?_, ?_, ?_⟩
  · simp only [sA2]
    after_results_simp
    rfl
  · simp only [sA2]
    after_results_simp
  · simp only [sA2]
    after_results_simp
  · simp only [sA2]
    after_results_simp
  · simp only [sA2]
    after_results_simp

set_option maxHeartbeats 2000000 in
theorem sA3_eval (U : Valuation τ sig (Elt Ideal)) :
    after sA3 U (Proc.devRef .tc main_v97) = edtRef (U (Proc.devRef .tc main_v51))
      ∧ after sA3 U (Proc.devRef .tc main_v49) = U (Proc.devRef .tc main_v49)
      ∧ after sA3 U (Proc.devRef .tc main_v2) = U (Proc.devRef .tc main_v2)
      ∧ after sA3 U (Proc.devRef .tc main_arg0) = U (Proc.devRef .tc main_arg0)
      ∧ after sA3 U (Proc.devRef .tc main_arg1) = U (Proc.devRef .tc main_arg1) := by
  refine ⟨?_, ?_, ?_, ?_, ?_⟩
  · simp only [sA3]
    after_results_simp
    rfl
  · simp only [sA3]
    after_results_simp
  · simp only [sA3]
    after_results_simp
  · simp only [sA3]
    after_results_simp
  · simp only [sA3]
    after_results_simp

set_option maxHeartbeats 2000000 in
theorem sA4_eval (U : Valuation τ sig (Elt Ideal)) :
    after sA4 U (Proc.devRef .tc main_v100)
        = maskedR (U (Proc.devRef .tc main_v2)) (addf (U (Proc.devRef .tc main_v49)) (U (Proc.devRef .tc main_v97)))
      ∧ after sA4 U (Proc.devRef .tc main_arg0) = U (Proc.devRef .tc main_arg0)
      ∧ after sA4 U (Proc.devRef .tc main_arg1) = U (Proc.devRef .tc main_arg1) := by
  refine ⟨?_, ?_, ?_⟩
  · simp only [sA4]
    after_results_simp
    rfl
  · simp only [sA4]
    after_results_simp
  · simp only [sA4]
    after_results_simp

set_option maxHeartbeats 2000000 in
theorem sB0_eval (U : Valuation τ sig (Elt Ideal)) :
    after sB0 U (Proc.devRef .tc main_v104) = seedFgR (U (Proc.devRef .tc main_arg1))
      ∧ after sB0 U (Proc.devRef .tc main_v102) = maskR (U (Proc.devRef .tc main_arg1))
      ∧ after sB0 U (Proc.devRef .tc main_v103) = anyR (U (Proc.devRef .tc main_arg1))
      ∧ after sB0 U (Proc.devRef .tc main_arg0) = U (Proc.devRef .tc main_arg0)
      ∧ after sB0 U (Proc.devRef .tc main_arg1) = U (Proc.devRef .tc main_arg1)
      ∧ after sB0 U (Proc.devRef .tc main_v100) = U (Proc.devRef .tc main_v100) := by
  refine ⟨?_, ?_, ?_, ?_, ?_, ?_⟩
  · simp only [sB0]
    after_results_simp
    rfl
  · simp only [sB0]
    after_results_simp
    rfl
  · simp only [sB0]
    after_results_simp
    rfl
  · simp only [sB0]
    after_results_simp
  · simp only [sB0]
    after_results_simp
  · simp only [sB0]
    after_results_simp

set_option maxHeartbeats 2000000 in
theorem sB1_eval (U : Valuation τ sig (Elt Ideal)) :
    after sB1 U (Proc.devRef .tc main_v150) = edtRef (U (Proc.devRef .tc main_v104))
      ∧ after sB1 U (Proc.devRef .tc main_v102) = U (Proc.devRef .tc main_v102)
      ∧ after sB1 U (Proc.devRef .tc main_v103) = U (Proc.devRef .tc main_v103)
      ∧ after sB1 U (Proc.devRef .tc main_arg0) = U (Proc.devRef .tc main_arg0)
      ∧ after sB1 U (Proc.devRef .tc main_arg1) = U (Proc.devRef .tc main_arg1)
      ∧ after sB1 U (Proc.devRef .tc main_v100) = U (Proc.devRef .tc main_v100) := by
  refine ⟨?_, ?_, ?_, ?_, ?_, ?_⟩
  · simp only [sB1]
    after_results_simp
    rfl
  · simp only [sB1]
    after_results_simp
  · simp only [sB1]
    after_results_simp
  · simp only [sB1]
    after_results_simp
  · simp only [sB1]
    after_results_simp
  · simp only [sB1]
    after_results_simp

set_option maxHeartbeats 2000000 in
theorem sB2_eval (U : Valuation τ sig (Elt Ideal)) :
    after sB2 U (Proc.devRef .tc main_v152) = select (noti (U (Proc.devRef .tc main_v102))) bigs4 zeros4
      ∧ after sB2 U (Proc.devRef .tc main_v150) = U (Proc.devRef .tc main_v150)
      ∧ after sB2 U (Proc.devRef .tc main_v103) = U (Proc.devRef .tc main_v103)
      ∧ after sB2 U (Proc.devRef .tc main_arg0) = U (Proc.devRef .tc main_arg0)
      ∧ after sB2 U (Proc.devRef .tc main_arg1) = U (Proc.devRef .tc main_arg1)
      ∧ after sB2 U (Proc.devRef .tc main_v100) = U (Proc.devRef .tc main_v100) := by
  refine ⟨?_, ?_, ?_, ?_, ?_, ?_⟩
  · simp only [sB2]
    after_results_simp
    rfl
  · simp only [sB2]
    after_results_simp
  · simp only [sB2]
    after_results_simp
  · simp only [sB2]
    after_results_simp
  · simp only [sB2]
    after_results_simp
  · simp only [sB2]
    after_results_simp

set_option maxHeartbeats 2000000 in
theorem sB3_eval (U : Valuation τ sig (Elt Ideal)) :
    after sB3 U (Proc.devRef .tc main_v198) = edtRef (U (Proc.devRef .tc main_v152))
      ∧ after sB3 U (Proc.devRef .tc main_v150) = U (Proc.devRef .tc main_v150)
      ∧ after sB3 U (Proc.devRef .tc main_v103) = U (Proc.devRef .tc main_v103)
      ∧ after sB3 U (Proc.devRef .tc main_arg0) = U (Proc.devRef .tc main_arg0)
      ∧ after sB3 U (Proc.devRef .tc main_arg1) = U (Proc.devRef .tc main_arg1)
      ∧ after sB3 U (Proc.devRef .tc main_v100) = U (Proc.devRef .tc main_v100) := by
  refine ⟨?_, ?_, ?_, ?_, ?_, ?_⟩
  · simp only [sB3]
    after_results_simp
    rfl
  · simp only [sB3]
    after_results_simp
  · simp only [sB3]
    after_results_simp
  · simp only [sB3]
    after_results_simp
  · simp only [sB3]
    after_results_simp
  · simp only [sB3]
    after_results_simp

set_option maxHeartbeats 2000000 in
theorem sB4_eval (U : Valuation τ sig (Elt Ideal)) :
    after sB4 U (Proc.devRef .tc main_v201)
        = maskedR (U (Proc.devRef .tc main_v103)) (addf (U (Proc.devRef .tc main_v150)) (U (Proc.devRef .tc main_v198)))
      ∧ after sB4 U (Proc.devRef .tc main_arg0) = U (Proc.devRef .tc main_arg0)
      ∧ after sB4 U (Proc.devRef .tc main_arg1) = U (Proc.devRef .tc main_arg1)
      ∧ after sB4 U (Proc.devRef .tc main_v100) = U (Proc.devRef .tc main_v100) := by
  refine ⟨?_, ?_, ?_, ?_⟩
  · simp only [sB4]
    after_results_simp
    rfl
  · simp only [sB4]
    after_results_simp
  · simp only [sB4]
    after_results_simp
  · simp only [sB4]
    after_results_simp

/-- The first image's part: its masked distance field, the images kept. -/
theorem blkA_eval (U : Valuation τ sig (Elt Ideal)) :
    after blkA U (Proc.devRef .tc main_v100) = dtR (U (Proc.devRef .tc main_arg0))
      ∧ after blkA U (Proc.devRef .tc main_arg0) = U (Proc.devRef .tc main_arg0)
      ∧ after blkA U (Proc.devRef .tc main_arg1) = U (Proc.devRef .tc main_arg1) := by
  rw [after_blkA]
  obtain ⟨a1, a2, a3, a4, a5⟩ := sA0_eval U
  obtain ⟨b1, b2, b3, b4, b5⟩ := sA1_eval (after sA0 U)
  obtain ⟨c1, c2, c3, c4, c5⟩ := sA2_eval (after sA1 (after sA0 U))
  obtain ⟨d1, d2, d3, d4, d5⟩ := sA3_eval (after sA2 (after sA1 (after sA0 U)))
  obtain ⟨e1, e2, e3⟩ := sA4_eval (after sA3 (after sA2 (after sA1 (after sA0 U))))
  refine ⟨?_, ?_, ?_⟩
  · rw [e1, d1, d2, d3, c1, c2, c3, b1, b2, b3, a1, a2, a3]; rfl
  · rw [e2, d4, c4, b4, a4]
  · rw [e3, d5, c5, b5, a5]

/-- The second image's part: its masked distance field, the first image's field and the images kept. -/
theorem blkB_eval (U : Valuation τ sig (Elt Ideal)) :
    after blkB U (Proc.devRef .tc main_v201) = dtR (U (Proc.devRef .tc main_arg1))
      ∧ after blkB U (Proc.devRef .tc main_v100) = U (Proc.devRef .tc main_v100)
      ∧ after blkB U (Proc.devRef .tc main_arg0) = U (Proc.devRef .tc main_arg0)
      ∧ after blkB U (Proc.devRef .tc main_arg1) = U (Proc.devRef .tc main_arg1) := by
  rw [after_blkB]
  obtain ⟨a1, a2, a3, a4, a5, a6⟩ := sB0_eval U
  obtain ⟨b1, b2, b3, b4, b5, b6⟩ := sB1_eval (after sB0 U)
  obtain ⟨c1, c2, c3, c4, c5, c6⟩ := sB2_eval (after sB1 (after sB0 U))
  obtain ⟨d1, d2, d3, d4, d5, d6⟩ := sB3_eval (after sB2 (after sB1 (after sB0 U)))
  obtain ⟨e1, e2, e3, e4⟩ := sB4_eval (after sB3 (after sB2 (after sB1 (after sB0 U))))
  refine ⟨?_, ?_, ?_, ?_⟩
  · rw [e1, d1, d2, d3, c1, c2, c3, b1, b2, b3, a1, a2, a3]; rfl
  · rw [e4, d6, c6, b6, a6]
  · rw [e2, d4, c4, b4, a4]
  · rw [e3, d5, c5, b5, a5]

set_option maxHeartbeats 2000000 in
theorem blkC_eval (U : Valuation τ sig (Elt Ideal)) :
    after blkC U (Proc.devRef .tc main_v211)
      = lossR (U (Proc.devRef .tc main_arg0)) (U (Proc.devRef .tc main_arg1)) (U (Proc.devRef .tc main_v100)) (U (Proc.devRef .tc main_v201))
      ∧ after blkC U (Proc.devRef .tc main_arg0) = U (Proc.devRef .tc main_arg0)
      ∧ after blkC U (Proc.devRef .tc main_arg1) = U (Proc.devRef .tc main_arg1) := by
  refine ⟨?_, ?_, ?_⟩
  · simp only [blkC]
    after_results_simp
    rfl
  · simp only [blkC]
    after_results_simp
  · simp only [blkC]
    after_results_simp

/-- THE REFERENCE'S RUN: every weakly fair execution terminates with the result at `lossR` of the two images and their
    two masked distance fields, the images unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v211)
          = lossR (m ((c.tc : Thread nD τ).loc main_arg0)) (m ((c.tc : Thread nD τ).loc main_arg1))
              (dtR (m ((c.tc : Thread nD τ).loc main_arg0))) (dtR (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (run_raw (F := Ideal) m ρ)
  obtain ⟨hA1, hA2, hA3⟩ := blkA_eval (launchContents m c)
  obtain ⟨hB1, hB2, hB3, hB4⟩ := blkB_eval (after blkA (launchContents m c))
  obtain ⟨hC1, hC2, hC3⟩ := blkC_eval (after blkB (after blkA (launchContents m c)))
  refine ⟨(h c main_v211).trans ?_, (h c main_arg0).trans ?_, (h c main_arg1).trans ?_⟩
  · rw [hC1, hB1, hB2, hB3, hB4, hA1, hA2, hA3]
  · rw [hC2, hB3, hA2]
  · rw [hC3, hB4, hA3]

end Cert.ReferenceIdeal.RV

end
-- ==== Proof.KernelIndex.lean ====
/-
  The idealized kernel program's host layouts read at an index, and the second region's output as two clamped passes.

  Line `(q·4 + b)·256 + w` of the first region's input is column `w` of image `b` of field `q`; the second region's input
  swaps the roles of the two spatial axes; field `q` of the result at `(b, h, w)` is entry `((q·4 + b)·256 + h, w)` of the
  second region's output.  So that entry is the square root of the clamped two-pass transform of field `q`'s image `b`, each
  pass clamped by BIG (`field_apply`).
-/
import proofs.«149378_j17952963297871_2_alg».proof.Proof.KernelValue
import proofs.«149378_j17952963297871_2_alg».proof.Proof.Consts
import Idealize.ShloMosaic.Lib.ValueIdx
import Idealize.ShloMosaic.Lib.Pipeline.Value

set_option maxRecDepth 16384

noncomputable section

namespace Cert.KernelIdeal.KV

open Cert.KernelIdeal Cert.KernelIdeal.Gen Cert.KernelIdeal.RegionValue
open Idealize.ShloMosaic Idealize.ShloMosaic.TcCoe Idealize.ShloMosaic.ValueIdx Idealize.SL.Sem
open Cert.MinPlus Cert.Consts

/-- Row `(q·4 + b)·256 + h` of the 4096 lines. -/
abbrev row (q b : Fin 4) (h : Fin 256) : Fin 4096 := ⟨(q.val * 4 + b.val) * 256 + h.val, by omega⟩

theorem half4_apply (i : S4x1x256x256.Idx) : half4 i = Ideal.ofBits .f32 0x3F000000#32 := by
  unfold half4; exact broadcastInDim_apply _ _ _ i ix0 (fun a => a.elim0)
theorem bigs3_apply (i : S4x256x256.Idx) : bigs3 i = Ideal.ofBits .f32 0x501502F9#32 := by
  unfold bigs3; exact broadcastInDim_apply _ _ _ i ix0 (fun a => a.elim0)
theorem zeros3_apply (i : S4x256x256.Idx) : zeros3 i = Ideal.ofBits .f32 0x00000000#32 := by
  unfold zeros3; exact broadcastInDim_apply _ _ _ i ix0 (fun a => a.elim0)

/-- The mask bit of pixel `(b, h, w)`. -/
theorem fgMask_apply (x : FVec Ideal S4x1x256x256 .f32) (b : Fin 4) (h w : Fin 256) :
    fgMask x (ix3 b h w) = FloatOps.cmpf .ogt (x (ix4 b (0 : Fin 1) h w)) (Ideal.ofBits .f32 0x3F000000#32) := by
  unfold fgMask
  refine (shapeCast_apply _ _ (ix3 b h w) (ix4 b (0 : Fin 1) h w) ?_).trans ?_
  · rw [Shape.rowMajor_val_four, Shape.rowMajor_val_three]
    show ((b.val * 1 + 0) * 256 + h.val) * 256 + w.val = (b.val * 256 + h.val) * 256 + w.val
    omega
  · rw [cmpf_apply, half4_apply]

theorem fgK_apply (x : FVec Ideal S4x1x256x256 .f32) (b : Fin 4) (h w : Fin 256) :
    fgK x (ix3 b h w) = Scalar.select (FloatOps.cmpf .ogt (x (ix4 b (0 : Fin 1) h w)) (Ideal.ofBits .f32 0x3F000000#32))
      (Ideal.ofBits .f32 0x501502F9#32) (Ideal.ofBits .f32 0x00000000#32) := by
  unfold fgK
  rw [select_apply, fgMask_apply, bigs3_apply, zeros3_apply]

theorem bgK_apply (x : FVec Ideal S4x1x256x256 .f32) (b : Fin 4) (h w : Fin 256) :
    bgK x (ix3 b h w) = Ideal.ofBits .f32 0x501502F9#32 - Scalar.select (FloatOps.cmpf .ogt (x (ix4 b (0 : Fin 1) h w)) (Ideal.ofBits .f32 0x3F000000#32))
      (Ideal.ofBits .f32 0x501502F9#32) (Ideal.ofBits .f32 0x00000000#32) := by
  unfold bgK
  rw [subf_apply, bigs3_apply, fgK_apply]

/-- The four fields of the two images. -/
noncomputable def fieldOf (x0 x1 : FVec Ideal S4x1x256x256 .f32) : Fin 4 → FVec Ideal S4x256x256 .f32
  | ⟨0, _⟩ => fgK x0
  | ⟨1, _⟩ => bgK x0
  | ⟨2, _⟩ => fgK x1
  | ⟨3, _⟩ => bgK x1

theorem up_apply (y : FVec Ideal S4x256x256 .f32) (b : Fin 4) (h w : Fin 256) : up y (ix4 (0 : Fin 1) b h w) = y (ix3 b h w) := by
  unfold up
  exact broadcastInDim_apply _ _ _ (ix4 (0 : Fin 1) b h w) (ix3 b h w) (fun a => match a with
    | ⟨0, _⟩ => rfl
    | ⟨1, _⟩ => rfl
    | ⟨2, _⟩ => rfl)

/-- The stack at `(q, b, h, w)` is field `q` at `(b, h, w)`. -/
theorem stacked_apply (x0 x1 : FVec Ideal S4x1x256x256 .f32) (q b : Fin 4) (h w : Fin 256) :
    stacked x0 x1 (ix4 q b h w) = fieldOf x0 x1 q (ix3 b h w) := by
  unfold stacked
  match q with
  | ⟨0, _⟩ =>
    refine (concatenate_apply_piece (0 : Fin 4) _ _ (ix4 (⟨0, by omega⟩ : Fin 4) b h w) 0 ?hk S1x4x256x256 (up (fgK x0)) ?hxk rfl 0 ?hpre
      (ix4 (0 : Fin 1) b h w) ?hi ?ha).trans (up_apply _ b h w)
    case hk => show (0 : ℕ) < 4; omega
    case hxk => rfl
    case hpre => rfl
    case ha => rfl
    case hi =>
      intro e he; match e with
      | ⟨0, _⟩ => exact absurd rfl he
      | ⟨1, _⟩ => rfl
      | ⟨2, _⟩ => rfl
      | ⟨3, _⟩ => rfl
  | ⟨1, _⟩ =>
    refine (concatenate_apply_piece (0 : Fin 4) _ _ (ix4 (⟨1, by omega⟩ : Fin 4) b h w) 1 ?hk S1x4x256x256 (up (bgK x0)) ?hxk rfl 1 ?hpre
      (ix4 (0 : Fin 1) b h w) ?hi ?ha).trans (up_apply _ b h w)
    case hk => show (1 : ℕ) < 4; omega
    case hxk => rfl
    case hpre => rfl
    case ha => rfl
    case hi =>
      intro e he; match e with
      | ⟨0, _⟩ => exact absurd rfl he
      | ⟨1, _⟩ => rfl
      | ⟨2, _⟩ => rfl
      | ⟨3, _⟩ => rfl
  | ⟨2, _⟩ =>
    refine (concatenate_apply_piece (0 : Fin 4) _ _ (ix4 (⟨2, by omega⟩ : Fin 4) b h w) 2 ?hk S1x4x256x256 (up (fgK x1)) ?hxk rfl 2 ?hpre
      (ix4 (0 : Fin 1) b h w) ?hi ?ha).trans (up_apply _ b h w)
    case hk => show (2 : ℕ) < 4; omega
    case hxk => rfl
    case hpre => rfl
    case ha => rfl
    case hi =>
      intro e he; match e with
      | ⟨0, _⟩ => exact absurd rfl he
      | ⟨1, _⟩ => rfl
      | ⟨2, _⟩ => rfl
      | ⟨3, _⟩ => rfl
  | ⟨3, _⟩ =>
    refine (concatenate_apply_piece (0 : Fin 4) _ _ (ix4 (⟨3, by omega⟩ : Fin 4) b h w) 3 ?hk S1x4x256x256 (up (bgK x1)) ?hxk rfl 3 ?hpre
      (ix4 (0 : Fin 1) b h w) ?hi ?ha).trans (up_apply _ b h w)
    case hk => show (3 : ℕ) < 4; omega
    case hxk => rfl
    case hpre => rfl
    case ha => rfl
    case hi =>
      intro e he; match e with
      | ⟨0, _⟩ => exact absurd rfl he
      | ⟨1, _⟩ => rfl
      | ⟨2, _⟩ => rfl
      | ⟨3, _⟩ => rfl

/-- Line `(q·4 + b)·256 + w` of the first region's input, at `j`: the stack at `(q, b, j, w)`. -/
theorem lines0_apply (x0 x1 : FVec Ideal S4x1x256x256 .f32) (q b : Fin 4) (w j : Fin 256) :
    lines0 x0 x1 (ix2 (row q b w) j) = stacked x0 x1 (ix4 q b j w) := by
  unfold lines0
  refine (shapeCast_apply _ _ (ix2 (row q b w) j) (ix4 q b w j) ?_).trans ?_
  · rw [Shape.rowMajor_val_four, Shape.rowMajor_val_two]
    show ((q.val * 4 + b.val) * 256 + w.val) * 256 + j.val = ((q.val * 4 + b.val) * 256 + w.val) * 256 + j.val
    rfl
  · exact transpose_apply _ _ _ (ix4 q b w j) (ix4 q b j w) (fun e => match e with
      | ⟨0, _⟩ => rfl
      | ⟨1, _⟩ => rfl
      | ⟨2, _⟩ => rfl
      | ⟨3, _⟩ => rfl)

/-- The second region's lines: the spatial axes swapped back. -/
theorem lines1_apply (y : FVec Ideal S4096x256 .f32) (q b : Fin 4) (h j : Fin 256) :
    lines1 y (ix2 (row q b h) j) = y (ix2 (row q b j) h) := by
  unfold lines1
  refine (shapeCast_apply _ _ (ix2 (row q b h) j) (ix4 q b h j) ?_).trans ?_
  · rw [Shape.rowMajor_val_four, Shape.rowMajor_val_two]
    show ((q.val * 4 + b.val) * 256 + h.val) * 256 + j.val = ((q.val * 4 + b.val) * 256 + h.val) * 256 + j.val
    rfl
  · refine (transpose_apply _ _ _ (ix4 q b h j) (ix4 q b j h) (fun e => match e with
      | ⟨0, _⟩ => rfl
      | ⟨1, _⟩ => rfl
      | ⟨2, _⟩ => rfl
      | ⟨3, _⟩ => rfl)).trans ?_
    refine shapeCast_apply _ _ (ix4 q b j h) (ix2 (row q b j) h) ?_
    rw [Shape.rowMajor_val_four, Shape.rowMajor_val_two]
    show ((q.val * 4 + b.val) * 256 + j.val) * 256 + h.val = ((q.val * 4 + b.val) * 256 + j.val) * 256 + h.val
    rfl

theorem iotaRow (i j : Fin 256) :
    broadcastInDim S256x256 ![0, 1] bcast_S256x1_S256x256_0_1 (broadcastInDim S256x1 ![0] bcast_S256_S256x1_0 (iotaInDim S256 32 0)) (ix2 i j)
      = BitVec.ofNat 32 i.val := by
  refine (broadcastInDim_apply _ _ _ (ix2 i j) (ix2 i (0 : Fin 1)) ?_).trans ?_
  · intro a; match a with
    | ⟨0, _⟩ => rfl
    | ⟨1, _⟩ => rfl
  · refine (broadcastInDim_apply _ _ _ (ix2 i (0 : Fin 1)) (ix1 i) ?_).trans ?_
    · intro a; match a with
      | ⟨0, _⟩ => rfl
    · rfl
theorem iotaCol (i j : Fin 256) :
    broadcastInDim S256x256 ![0, 1] bcast_S1x256_S256x256_0_1 (broadcastInDim S1x256 ![1] bcast_S256_S1x256_1 (iotaInDim S256 32 0)) (ix2 i j)
      = BitVec.ofNat 32 j.val := by
  refine (broadcastInDim_apply _ _ _ (ix2 i j) (ix2 (0 : Fin 1) j) ?_).trans ?_
  · intro a; match a with
    | ⟨0, _⟩ => rfl
    | ⟨1, _⟩ => rfl
  · refine (broadcastInDim_apply _ _ _ (ix2 (0 : Fin 1) j) (ix1 j) ?_).trans ?_
    · intro a; match a with
      | ⟨0, _⟩ => rfl
    · rfl

/-- The table at `(i, j)` is the squared difference. -/
theorem table_apply (i j : Fin 256) : table (ix2 i j) = Dtab i j := by
  show FloatOps.sitofp (F := Ideal) .f32 (IntOp.muli (IntOp.subi (broadcastInDim S256x256 ![0, 1] bcast_S256x1_S256x256_0_1 (broadcastInDim S256x1 ![0] bcast_S256_S256x1_0 (iotaInDim S256 32 0)) (ix2 i j))
      (broadcastInDim S256x256 ![0, 1] bcast_S1x256_S256x256_0_1 (broadcastInDim S1x256 ![1] bcast_S256_S1x256_1 (iotaInDim S256 32 0)) (ix2 i j)))
    (IntOp.subi (broadcastInDim S256x256 ![0, 1] bcast_S256x1_S256x256_0_1 (broadcastInDim S256x1 ![0] bcast_S256_S256x1_0 (iotaInDim S256 32 0)) (ix2 i j))
      (broadcastInDim S256x256 ![0, 1] bcast_S1x256_S256x256_0_1 (broadcastInDim S1x256 ![1] bcast_S256_S1x256_1 (iotaInDim S256 32 0)) (ix2 i j)))) = _
  rw [iotaRow, iotaCol]
  rfl

theorem G0_apply (A : S4096x256.Idx → EReal) (T : S256x256.Idx → EReal) (r : Fin 4096) (i : Fin 256) :
    G0 A T (ix2 r i) = min BIG (Finset.univ.inf fun j : Fin 256 => A (ix2 r j) + T (ix2 j i)) := rfl
theorem G1_apply (A : S4096x256.Idx → EReal) (T : S256x256.Idx → EReal) (r : Fin 4096) (i : Fin 256) :
    G1 A T (ix2 r i) = Ideal.sqrt (min (min BIG (Finset.univ.inf fun j : Fin 256 => A (ix2 r j) + T (ix2 j i))) BIG) := rfl

/-- THE SECOND REGION'S OUTPUT at line `(q·4 + b)·256 + h`, entry `w`: the clamped two passes over field `q`'s image `b`. -/
theorem field_apply (x0 x1 : FVec Ideal S4x1x256x256 .f32) (q b : Fin 4) (h w : Fin 256) :
    G1 (lines1 (G0 (lines0 x0 x1) table)) table (ix2 (row q b h) w)
      = Ideal.sqrt (min (min BIG (pass Dtab (fun j => min BIG (pass Dtab (fun j' => fieldOf x0 x1 q (ix3 b j' j)) h)) w)) BIG) := by
  rw [G1_apply]
  simp only [lines1_apply, G0_apply, lines0_apply, stacked_apply, table_apply]
  unfold pass
  simp only [Dtab_symm h, Dtab_symm w]

end Cert.KernelIdeal.KV

end
-- ==== Proof.RefIndex.lean ====
/-
  The reference's distance transform read at an index: entry `(b, 0, h, w)` of `edtRef s` is the square root of the
  clamped two-pass min-plus transform of the seed's image `b` — the pass along the channel axis of extent one adds a zero
  table entry and changes nothing.
-/
import proofs.«149378_j17952963297871_2_alg».proof.Proof.RefValue

set_option maxRecDepth 16384

noncomputable section

namespace Cert.ReferenceIdeal.RV

open Cert.ReferenceIdeal Cert.ReferenceIdeal.Gen
open Idealize.ShloMosaic Idealize.ShloMosaic.TcCoe Idealize.ShloMosaic.ValueIdx Idealize.SL.Sem
open Cert.MinPlus Cert.Consts Cert.HostMin

/-- Row numbers spread over a 256 × 256 table. -/
theorem iotaRow (i j : Fin 256) :
    broadcastInDim S256x256 ![0, 1] bcast_S256x1_S256x256_0_1 (broadcastInDim S256x1 ![0] bcast_S256_S256x1_0 (iotaInDim S256 32 0)) (ix2 i j)
      = BitVec.ofNat 32 i.val := by
  refine (broadcastInDim_apply _ _ _ (ix2 i j) (ix2 i (0 : Fin 1)) ?_).trans ?_
  · intro a; match a with
    | ⟨0, _⟩ => rfl
    | ⟨1, _⟩ => rfl
  · refine (broadcastInDim_apply _ _ _ (ix2 i (0 : Fin 1)) (ix1 i) ?_).trans ?_
    · intro a; match a with
      | ⟨0, _⟩ => rfl
    · rfl
/-- Column numbers spread over a 256 × 256 table. -/
theorem iotaCol (i j : Fin 256) :
    broadcastInDim S256x256 ![0, 1] bcast_S1x256_S256x256_0_1 (broadcastInDim S1x256 ![1] bcast_S256_S1x256_1 (iotaInDim S256 32 0)) (ix2 i j)
      = BitVec.ofNat 32 j.val := by
  refine (broadcastInDim_apply _ _ _ (ix2 i j) (ix2 (0 : Fin 1) j) ?_).trans ?_
  · intro a; match a with
    | ⟨0, _⟩ => rfl
    | ⟨1, _⟩ => rfl
  · refine (broadcastInDim_apply _ _ _ (ix2 (0 : Fin 1) j) (ix1 j) ?_).trans ?_
    · intro a; match a with
      | ⟨0, _⟩ => rfl
    · rfl

/-- The table at `(i, j)` is the squared difference `(i - j)^2`. -/
theorem tabR_apply (i j : Fin 256) : tabR (ix2 i j) = Dtab i j := by
  show FloatOps.sitofp (F := Ideal) .f32 (IntOp.muli (IntOp.subi (broadcastInDim S256x256 ![0, 1] bcast_S256x1_S256x256_0_1 (broadcastInDim S256x1 ![0] bcast_S256_S256x1_0 (iotaInDim S256 32 0)) (ix2 i j))
      (broadcastInDim S256x256 ![0, 1] bcast_S1x256_S256x256_0_1 (broadcastInDim S1x256 ![1] bcast_S256_S1x256_1 (iotaInDim S256 32 0)) (ix2 i j)))
    (IntOp.subi (broadcastInDim S256x256 ![0, 1] bcast_S256x1_S256x256_0_1 (broadcastInDim S256x1 ![0] bcast_S256_S256x1_0 (iotaInDim S256 32 0)) (ix2 i j))
      (broadcastInDim S256x256 ![0, 1] bcast_S1x256_S256x256_0_1 (broadcastInDim S1x256 ![1] bcast_S256_S1x256_1 (iotaInDim S256 32 0)) (ix2 i j)))) = _
  rw [iotaRow, iotaCol]
  rfl

/-- The one-entry table is zero. -/
theorem tab1_apply (u v : Fin 1) : tab1 (ix2 u v) = 0 := by
  have hA : broadcastInDim S1x1 ![0] bcast_S1_S1x1_0 (iotaInDim S1 32 0) (ix2 u v) = BitVec.ofNat 32 0 := by
    refine (broadcastInDim_apply _ _ _ (ix2 u v) (ix1 (0 : Fin 1)) ?_).trans ?_
    · intro a; match a with
      | ⟨0, _⟩ => rfl
    · rfl
  have hB : broadcastInDim S1x1 ![1] bcast_S1_S1x1_1 (iotaInDim S1 32 0) (ix2 u v) = BitVec.ofNat 32 0 := by
    refine (broadcastInDim_apply _ _ _ (ix2 u v) (ix1 (0 : Fin 1)) ?_).trans ?_
    · intro a; match a with
      | ⟨0, _⟩ => rfl
    · rfl
  show FloatOps.sitofp (F := Ideal) .f32 (IntOp.muli (IntOp.subi (broadcastInDim S1x1 ![0] bcast_S1_S1x1_0 (iotaInDim S1 32 0) (ix2 u v)) (broadcastInDim S1x1 ![1] bcast_S1_S1x1_1 (iotaInDim S1 32 0) (ix2 u v)))
    (IntOp.subi (broadcastInDim S1x1 ![0] bcast_S1_S1x1_0 (iotaInDim S1 32 0) (ix2 u v)) (broadcastInDim S1x1 ![1] bcast_S1_S1x1_1 (iotaInDim S1 32 0) (ix2 u v)))) = 0
  rw [hA, hB]
  exact one_entry _ _ rfl

theorem pinfR_apply : pinfR ix0 = ⊤ := pinf_eq

/-- The spatial axes swapped, at an index. -/
theorem swap_apply (y : FVec Ideal S4x1x256x256 .f32) (b : Fin 4) (p q : Fin 256) :
    swap y (ix4 b (0 : Fin 1) p q) = y (ix4 b (0 : Fin 1) q p) := by
  unfold swap
  exact transpose_apply _ y _ (ix4 b (0 : Fin 1) p q) (ix4 b (0 : Fin 1) q p) (fun e => match e with
    | ⟨0, _⟩ => rfl
    | ⟨1, _⟩ => rfl
    | ⟨2, _⟩ => rfl
    | ⟨3, _⟩ => rfl)

/-- A pass along the last axis, at an index: the line `(b, 0, p, ·)` transformed. -/
theorem passLast_apply (y : FVec Ideal S4x1x256x256 .f32) (b : Fin 4) (p i : Fin 256) :
    passLast y (ix4 b (0 : Fin 1) p i) = pass Dtab (fun j => y (ix4 b (0 : Fin 1) p j)) i := by
  unfold passLast
  refine (reduce_min_last5 _ _ _ _ b (0 : Fin 1) p i).trans ?_
  rw [pinfR_apply, min_eq_right le_top]
  unfold pass
  refine Finset.inf_congr rfl fun k _ => ?_
  rw [addf_apply]
  refine congrArg₂ (· + ·) ?_ ?_
  · refine (broadcastInDim_apply _ _ _ (ix5 b (0 : Fin 1) p i k) (ix5 b (0 : Fin 1) p (0 : Fin 1) k) ?_).trans ?_
    · intro a; match a with
      | ⟨0, _⟩ => rfl
      | ⟨1, _⟩ => rfl
      | ⟨2, _⟩ => rfl
      | ⟨3, _⟩ => rfl
      | ⟨4, _⟩ => rfl
    · refine (broadcastInDim_apply _ _ _ (ix5 b (0 : Fin 1) p (0 : Fin 1) k) (ix4 b (0 : Fin 1) p k) ?_)
      intro a; match a with
      | ⟨0, _⟩ => rfl
      | ⟨1, _⟩ => rfl
      | ⟨2, _⟩ => rfl
      | ⟨3, _⟩ => rfl
  · refine (broadcastInDim_apply _ _ _ (ix5 b (0 : Fin 1) p i k) (ix5 (0 : Fin 1) (0 : Fin 1) (0 : Fin 1) i k) ?_).trans ?_
    · intro a; match a with
      | ⟨0, _⟩ => rfl
      | ⟨1, _⟩ => rfl
      | ⟨2, _⟩ => rfl
      | ⟨3, _⟩ => rfl
      | ⟨4, _⟩ => rfl
    · refine (broadcastInDim_apply _ _ _ (ix5 (0 : Fin 1) (0 : Fin 1) (0 : Fin 1) i k) (ix2 i k) ?_).trans (tabR_apply i k)
      intro a; match a with
      | ⟨0, _⟩ => rfl
      | ⟨1, _⟩ => rfl

/-- The pass along the channel axis changes nothing. -/
theorem pass1_apply (s : FVec Ideal S4x1x256x256 .f32) (b : Fin 4) (h w : Fin 256) :
    pass1 s (ix4 b (0 : Fin 1) h w) = s (ix4 b (0 : Fin 1) h w) := by
  unfold pass1
  refine (transpose_apply _ _ _ (ix4 b (0 : Fin 1) h w) (ix4 b h w (0 : Fin 1)) (fun e => match e with
    | ⟨0, _⟩ => rfl
    | ⟨1, _⟩ => rfl
    | ⟨2, _⟩ => rfl
    | ⟨3, _⟩ => rfl)).trans ?_
  refine (reduce_min_last5 _ _ _ _ b h w (0 : Fin 1)).trans ?_
  rw [pinfR_apply, min_eq_right le_top]
  rw [show (Finset.univ : Finset (Fin 1)) = {0} from rfl, Finset.inf_singleton, addf_apply]
  have hX : broadcastInDim S4x256x256x1x1 ![0, 1, 2, 4] bcast_S4x256x256x1_S4x256x256x1x1_0_1_2_4
      (transpose S4x256x256x1 [0, 2, 3, 1] s transposes_S4x1x256x256_S4x256x256x1_0_2_3_1) (ix5 b h w (0 : Fin 1) (0 : Fin 1))
      = s (ix4 b (0 : Fin 1) h w) := by
    refine (broadcastInDim_apply _ _ _ (ix5 b h w (0 : Fin 1) (0 : Fin 1)) (ix4 b h w (0 : Fin 1)) ?_).trans ?_
    · intro a; match a with
      | ⟨0, _⟩ => rfl
      | ⟨1, _⟩ => rfl
      | ⟨2, _⟩ => rfl
      | ⟨3, _⟩ => rfl
    · exact transpose_apply _ s _ (ix4 b h w (0 : Fin 1)) (ix4 b (0 : Fin 1) h w) (fun e => match e with
        | ⟨0, _⟩ => rfl
        | ⟨1, _⟩ => rfl
        | ⟨2, _⟩ => rfl
        | ⟨3, _⟩ => rfl)
  have hY : broadcastInDim S4x256x256x1x1 ![0, 1, 2, 3, 4] bcast_S1x1x1x1x1_S4x256x256x1x1_0_1_2_3_4
      (broadcastInDim S1x1x1x1x1 ![3, 4] bcast_S1x1_S1x1x1x1x1_3_4 tab1) (ix5 b h w (0 : Fin 1) (0 : Fin 1)) = 0 := by
    refine (broadcastInDim_apply _ _ _ (ix5 b h w (0 : Fin 1) (0 : Fin 1)) (ix5 (0 : Fin 1) (0 : Fin 1) (0 : Fin 1) (0 : Fin 1) (0 : Fin 1)) ?_).trans ?_
    · intro a; match a with
      | ⟨0, _⟩ => rfl
      | ⟨1, _⟩ => rfl
      | ⟨2, _⟩ => rfl
      | ⟨3, _⟩ => rfl
      | ⟨4, _⟩ => rfl
    · refine (broadcastInDim_apply _ _ _ (ix5 (0 : Fin 1) (0 : Fin 1) (0 : Fin 1) (0 : Fin 1) (0 : Fin 1)) (ix2 (0 : Fin 1) (0 : Fin 1)) ?_).trans (tab1_apply 0 0)
      intro a; match a with
      | ⟨0, _⟩ => rfl
      | ⟨1, _⟩ => rfl
  rw [hX, hY, add_zero]

/-- The host's square root of an array, at an index. -/
theorem hostSqrt_apply {s : Shape} (x : FVec Ideal s .f32) (i : s.Idx) : Host.sqrt x i = Ideal.sqrt (x i) := rfl

theorem bigs4_apply (i : S4x1x256x256.Idx) : bigs4 i = Ideal.ofBits .f32 0x501502F9#32 := by
  unfold bigs4
  exact broadcastInDim_apply _ _ _ i ix0 (fun a => a.elim0)
theorem zeros4_apply (i : S4x1x256x256.Idx) : zeros4 i = Ideal.ofBits .f32 0x00000000#32 := by
  unfold zeros4
  exact broadcastInDim_apply _ _ _ i ix0 (fun a => a.elim0)
theorem half4_apply (i : S4x1x256x256.Idx) : half4 i = Ideal.ofBits .f32 0x3F000000#32 := by
  unfold half4
  exact broadcastInDim_apply _ _ _ i ix0 (fun a => a.elim0)

/-- THE REFERENCE'S TRANSFORM at `(b, 0, h, w)`: the column pass, then the row pass, clamped, square root taken. -/
theorem edtRef_apply (s : FVec Ideal S4x1x256x256 .f32) (b : Fin 4) (h w : Fin 256) :
    edtRef s (ix4 b (0 : Fin 1) h w)
      = Ideal.sqrt (min (pass Dtab (fun j => pass Dtab (fun j' => s (ix4 b (0 : Fin 1) j' j)) h) w) (Ideal.ofBits .f32 0x501502F9#32)) := by
  unfold edtRef
  rw [hostSqrt_apply, minimumf_apply, bigs4_apply, passLast_apply]
  simp only [swap_apply, passLast_apply, pass1_apply]

end Cert.ReferenceIdeal.RV

end
-- ==== Proof.Bridge.lean ====
/-
  The two programs compute one value.

  Both programs end with the same loss of the two images and their two masked distance fields, so it is enough that the
  fields agree entry by entry.  At `(b, 0, h, w)`: the two "any foreground" bits are an `or` over the same pixels; the
  kernel's flipped seed `BIG - f` is the reference's seed on the complement mask, because `f` is `0` or `BIG` and `BIG` is a
  real; every seed is bounded by `BIG` and the table of squared distances is zero on its diagonal, so the kernel's two
  passes, each clamped by `BIG`, are the reference's unclamped passes clamped once (`two_pass_clamped`).
-/
import proofs.«149378_j17952963297871_2_alg».proof.Proof.KernelIndex
import proofs.«149378_j17952963297871_2_alg».proof.Proof.RefIndex
import Idealize.ShloMosaic.PureOps.Reduce

set_option maxRecDepth 16384

noncomputable section

namespace Cert.Bridge

open Idealize.ShloMosaic Idealize.ShloMosaic.ValueIdx Idealize.SL.Sem
open Cert.MinPlus Cert.Consts
open Cert.KernelIdeal.KV Cert.KernelIdeal.RegionValue Cert.ReferenceIdeal.RV

abbrev Img : Type := (⟨4, ![4, 1, 256, 256]⟩ : Shape).Idx → EReal

/-- The mask bit of pixel `(b, h, w)`. -/
noncomputable def pbit (x : Img) (b : Fin 4) (h w : Fin 256) : BitVec 1 :=
  FloatOps.cmpf (F := Ideal) .ogt (x (ix4 b (0 : Fin 1) h w)) (Ideal.ofBits .f32 0x3F000000#32)

/-! ## The "any foreground" bits -/

theorem or_eq_one (a b : BitVec 1) : IntOp.ori a b = 1#1 ↔ a = 1#1 ∨ b = 1#1 := by
  revert a b; decide

/-- An `or` over a finite set from `0` is `1` iff some member is. -/
theorem fold_ori {ι : Type} [DecidableEq ι] (s : Finset ι) (f : ι → BitVec 1) (z : BitVec 1) (hz : z = 0#1) :
    s.fold IntOp.ori z f = 1#1 ↔ ∃ i ∈ s, f i = 1#1 := by
  subst hz
  induction s using Finset.induction_on with
  | empty => simp
  | insert a s ha ih =>
    rw [Finset.fold_insert ha, or_eq_one, ih]
    constructor
    · rintro (h | ⟨i, hi, h⟩)
      · exact ⟨a, Finset.mem_insert_self _ _, h⟩
      · exact ⟨i, Finset.mem_insert_of_mem hi, h⟩
    · rintro ⟨i, hi, h⟩
      rcases Finset.mem_insert.1 hi with rfl | hi
      · exact Or.inl h
      · exact Or.inr ⟨i, hi, h⟩

theorem bit_ext (a b : BitVec 1) (h : a = 1#1 ↔ b = 1#1) : a = b := by
  rcases BitVec.eq_zero_or_eq_one a with ha | ha <;> rcases BitVec.eq_zero_or_eq_one b with hb | hb
  · rw [ha, hb]
  · exact absurd (h.2 hb) (by rw [ha]; decide)
  · exact absurd (h.1 ha) (by rw [hb]; decide)
  · rw [ha, hb]

/-- The kernel program's bit of image `b`: some pixel of the image is foreground. -/
theorem anyK_iff (x : Img) (b : Fin 4) : anyK x (ix1 b) = 1#1 ↔ ∃ h w, pbit x b h w = 1#1 := by
  unfold anyK
  rw [Host.reduce_eq_fold]
  refine (fold_ori _ _ _ rfl).trans ?_
  constructor
  · rintro ⟨i, hi, h⟩
    have hd := (Finset.mem_filter.1 hi).2
    have h0 : (i 0).val = b.val := congrArg (fun q : (⟨1, ![4]⟩ : Shape).Idx => (q 0).val) hd
    obtain ⟨b', h', w', rfl⟩ : ∃ (b' : Fin 4) (h' w' : Fin 256), i = ix3 b' h' w' := ⟨i 0, i 1, i 2, eq_ix3 i⟩
    have hb : b' = b := Fin.ext h0
    subst hb
    rw [fgMask_apply] at h
    exact ⟨h', w', h⟩
  · rintro ⟨h, w, hp⟩
    refine ⟨ix3 b h w, Finset.mem_filter.2 ⟨Finset.mem_univ _, ?_⟩, ?_⟩
    · funext e; apply Fin.ext
      match e with
      | ⟨0, _⟩ => rfl
    · rw [fgMask_apply]; exact hp

/-- The reference's bit of image `b`. -/
theorem anyR_iff (x : Img) (b : Fin 4) : anyR x (ix1 b) = 1#1 ↔ ∃ h w, pbit x b h w = 1#1 := by
  unfold anyR
  rw [Host.reduce_eq_fold]
  refine (fold_ori _ _ _ rfl).trans ?_
  constructor
  · rintro ⟨i, hi, h⟩
    have hd := (Finset.mem_filter.1 hi).2
    have h0 : (i 0).val = b.val := congrArg (fun q : (⟨1, ![4]⟩ : Shape).Idx => (q 0).val) hd
    obtain ⟨b', u, h', w', rfl⟩ : ∃ (b' : Fin 4) (u : Fin 1) (h' w' : Fin 256), i = ix4 b' u h' w' := ⟨i 0, i 1, i 2, i 3, eq_ix4 i⟩
    have hb : b' = b := Fin.ext h0
    subst hb
    have hu : u = 0 := Subsingleton.elim _ _
    subst hu
    refine ⟨h', w', ?_⟩
    have : maskR x (ix4 b' (0 : Fin 1) h' w') = pbit x b' h' w' := by
      unfold maskR pbit; rw [cmpf_apply, Cert.ReferenceIdeal.RV.half4_apply]
    rw [← this]; exact h
  · rintro ⟨h, w, hp⟩
    refine ⟨ix4 b (0 : Fin 1) h w, Finset.mem_filter.2 ⟨Finset.mem_univ _, ?_⟩, ?_⟩
    · funext e; apply Fin.ext
      match e with
      | ⟨0, _⟩ => rfl
    · have : maskR x (ix4 b (0 : Fin 1) h w) = pbit x b h w := by
        unfold maskR pbit; rw [cmpf_apply, Cert.ReferenceIdeal.RV.half4_apply]
      rw [this]; exact hp

theorem any_eq (x : Img) (b : Fin 4) : anyK x (ix1 b) = anyR x (ix1 b) :=
  bit_ext _ _ ((anyK_iff x b).trans (anyR_iff x b).symm)

/-! ## The seeds -/

/-- A seed from a bit: BIG where the bit is set, zero elsewhere. -/
noncomputable def seedOf (p : BitVec 1) : EReal := Scalar.select p (Ideal.ofBits .f32 0x501502F9#32) (Ideal.ofBits .f32 0x00000000#32)

theorem seedOf_le (p : BitVec 1) : seedOf p ≤ Ideal.ofBits .f32 0x501502F9#32 := by
  unfold seedOf
  rcases BitVec.eq_zero_or_eq_one p with hp | hp
  · rw [hp, select_zero, zero_eq]; exact big_nonneg
  · rw [hp, select_one]

/-- The flip of a seed is the seed of the complement bit. -/
theorem big_sub_seedOf (p : BitVec 1) : Ideal.ofBits .f32 0x501502F9#32 - seedOf p = seedOf (~~~p) := by
  unfold seedOf
  rcases BitVec.eq_zero_or_eq_one p with hp | hp
  · rw [hp, select_zero, show (~~~(0#1 : BitVec 1)) = 1#1 from by decide, select_one, big_sub_zero]
  · rw [hp, select_one, show (~~~(1#1 : BitVec 1)) = 0#1 from by decide, select_zero, big_sub_big, zero_eq]

theorem seedFgR_apply (x : Img) (b : Fin 4) (h w : Fin 256) : seedFgR x (ix4 b (0 : Fin 1) h w) = seedOf (pbit x b h w) := by
  unfold seedFgR seedOf pbit maskR
  rw [select_apply, cmpf_apply, Cert.ReferenceIdeal.RV.half4_apply, bigs4_apply, zeros4_apply]
theorem seedBgR_apply (x : Img) (b : Fin 4) (h w : Fin 256) : seedBgR x (ix4 b (0 : Fin 1) h w) = seedOf (~~~(pbit x b h w)) := by
  unfold seedBgR seedOf pbit maskR
  rw [select_apply, bigs4_apply, zeros4_apply]
  show Scalar.select (~~~(cmpf (F := Ideal) .ogt x Cert.ReferenceIdeal.RV.half4 (ix4 b (0 : Fin 1) h w))) _ _ = _
  rw [cmpf_apply, Cert.ReferenceIdeal.RV.half4_apply]
theorem fgK_seed (x : Img) (b : Fin 4) (h w : Fin 256) : fgK x (ix3 b h w) = seedOf (pbit x b h w) := by
  rw [fgK_apply]; rfl
theorem bgK_seed (x : Img) (b : Fin 4) (h w : Fin 256) : bgK x (ix3 b h w) = seedOf (~~~(pbit x b h w)) := by
  rw [bgK_apply]; exact big_sub_seedOf _

/-! ## One field -/

/-- The transform both programs compute of a seed `s` of image `b`. -/
noncomputable def edt (s : Fin 256 → Fin 256 → EReal) (h w : Fin 256) : EReal :=
  Ideal.sqrt (min (pass Dtab (fun j => pass Dtab (fun j' => s j' j) h) w) (Ideal.ofBits .f32 0x501502F9#32))

/-- The kernel's clamped passes of a bounded seed. -/
theorem clamped_eq (s : Fin 256 → Fin 256 → EReal) (hs : ∀ h w, s h w ≤ Ideal.ofBits .f32 0x501502F9#32) (h w : Fin 256) :
    Ideal.sqrt (min (min BIG (pass Dtab (fun j => min BIG (pass Dtab (fun j' => s j' j) h)) w)) BIG) = edt s h w := by
  unfold edt
  exact congrArg Ideal.sqrt (two_pass_clamped Dtab Dtab_diag _ s hs h w)

/-! ## The masked fields -/

open Cert.KernelIdeal in
theorem cut0_apply (o : (⟨2, ![4096, 256]⟩ : Shape).Idx → EReal) (b : Fin 4) (h w : Fin 256) :
    cut0 o (ix3 b h w) = o (ix2 (row (⟨0, by omega⟩ : Fin 4) b h) w) := by
  unfold cut0
  refine (shapeCast_apply _ _ (ix3 b h w) (ix4 (0 : Fin 1) b h w) ?_).trans ?_
  · rw [Shape.rowMajor_val_four, Shape.rowMajor_val_three]
    show ((0 * 4 + b.val) * 256 + h.val) * 256 + w.val = (b.val * 256 + h.val) * 256 + w.val
    omega
  · refine (extractStridedSlice_apply _ _ _ (ix4 (0 : Fin 1) b h w) (ix4 (⟨0, by omega⟩ : Fin 4) b h w) (fun a => match a with
      | ⟨0, _⟩ => rfl
      | ⟨1, _⟩ => by show b.val = 0 + b.val; omega
      | ⟨2, _⟩ => by show h.val = 0 + h.val; omega
      | ⟨3, _⟩ => by show w.val = 0 + w.val; omega)).trans ?_
    refine shapeCast_apply _ _ (ix4 (⟨0, by omega⟩ : Fin 4) b h w) (ix2 (row (⟨0, by omega⟩ : Fin 4) b h) w) ?_
    rw [Shape.rowMajor_val_four, Shape.rowMajor_val_two]
    rfl
theorem cut1_apply (o : (⟨2, ![4096, 256]⟩ : Shape).Idx → EReal) (b : Fin 4) (h w : Fin 256) :
    cut1 o (ix3 b h w) = o (ix2 (row (⟨1, by omega⟩ : Fin 4) b h) w) := by
  unfold cut1
  refine (shapeCast_apply _ _ (ix3 b h w) (ix4 (0 : Fin 1) b h w) ?_).trans ?_
  · rw [Shape.rowMajor_val_four, Shape.rowMajor_val_three]
    show ((0 * 4 + b.val) * 256 + h.val) * 256 + w.val = (b.val * 256 + h.val) * 256 + w.val
    omega
  · refine (extractStridedSlice_apply _ _ _ (ix4 (0 : Fin 1) b h w) (ix4 (⟨1, by omega⟩ : Fin 4) b h w) (fun a => match a with
      | ⟨0, _⟩ => rfl
      | ⟨1, _⟩ => by show b.val = 0 + b.val; omega
      | ⟨2, _⟩ => by show h.val = 0 + h.val; omega
      | ⟨3, _⟩ => by show w.val = 0 + w.val; omega)).trans ?_
    refine shapeCast_apply _ _ (ix4 (⟨1, by omega⟩ : Fin 4) b h w) (ix2 (row (⟨1, by omega⟩ : Fin 4) b h) w) ?_
    rw [Shape.rowMajor_val_four, Shape.rowMajor_val_two]
    rfl
theorem cut2_apply (o : (⟨2, ![4096, 256]⟩ : Shape).Idx → EReal) (b : Fin 4) (h w : Fin 256) :
    cut2 o (ix3 b h w) = o (ix2 (row (⟨2, by omega⟩ : Fin 4) b h) w) := by
  unfold cut2
  refine (shapeCast_apply _ _ (ix3 b h w) (ix4 (0 : Fin 1) b h w) ?_).trans ?_
  · rw [Shape.rowMajor_val_four, Shape.rowMajor_val_three]
    show ((0 * 4 + b.val) * 256 + h.val) * 256 + w.val = (b.val * 256 + h.val) * 256 + w.val
    omega
  · refine (extractStridedSlice_apply _ _ _ (ix4 (0 : Fin 1) b h w) (ix4 (⟨2, by omega⟩ : Fin 4) b h w) (fun a => match a with
      | ⟨0, _⟩ => rfl
      | ⟨1, _⟩ => by show b.val = 0 + b.val; omega
      | ⟨2, _⟩ => by show h.val = 0 + h.val; omega
      | ⟨3, _⟩ => by show w.val = 0 + w.val; omega)).trans ?_
    refine shapeCast_apply _ _ (ix4 (⟨2, by omega⟩ : Fin 4) b h w) (ix2 (row (⟨2, by omega⟩ : Fin 4) b h) w) ?_
    rw [Shape.rowMajor_val_four, Shape.rowMajor_val_two]
    rfl
theorem cut3_apply (o : (⟨2, ![4096, 256]⟩ : Shape).Idx → EReal) (b : Fin 4) (h w : Fin 256) :
    cut3 o (ix3 b h w) = o (ix2 (row (⟨3, by omega⟩ : Fin 4) b h) w) := by
  unfold cut3
  refine (shapeCast_apply _ _ (ix3 b h w) (ix4 (0 : Fin 1) b h w) ?_).trans ?_
  · rw [Shape.rowMajor_val_four, Shape.rowMajor_val_three]
    show ((0 * 4 + b.val) * 256 + h.val) * 256 + w.val = (b.val * 256 + h.val) * 256 + w.val
    omega
  · refine (extractStridedSlice_apply _ _ _ (ix4 (0 : Fin 1) b h w) (ix4 (⟨3, by omega⟩ : Fin 4) b h w) (fun a => match a with
      | ⟨0, _⟩ => rfl
      | ⟨1, _⟩ => by show b.val = 0 + b.val; omega
      | ⟨2, _⟩ => by show h.val = 0 + h.val; omega
      | ⟨3, _⟩ => by show w.val = 0 + w.val; omega)).trans ?_
    refine shapeCast_apply _ _ (ix4 (⟨3, by omega⟩ : Fin 4) b h w) (ix2 (row (⟨3, by omega⟩ : Fin 4) b h) w) ?_
    rw [Shape.rowMajor_val_four, Shape.rowMajor_val_two]
    rfl

/-- A masked pair of fields at `(b, 0, h, w)`. -/
theorem maskedK_apply (anyb : (⟨1, ![4]⟩ : Shape).Idx → BitVec 1) (f : (⟨3, ![4, 256, 256]⟩ : Shape).Idx → EReal) (b : Fin 4) (h w : Fin 256) :
    maskedK anyb f (ix4 b (0 : Fin 1) h w) = Scalar.select (anyb (ix1 b)) (f (ix3 b h w)) (Ideal.ofBits .f32 0x00000000#32) := by
  unfold maskedK
  refine (broadcastInDim_apply _ _ _ (ix4 b (0 : Fin 1) h w) (ix3 b h w) (fun a => match a with
    | ⟨0, _⟩ => rfl
    | ⟨1, _⟩ => rfl
    | ⟨2, _⟩ => rfl)).trans ?_
  rw [select_apply]
  refine congr (congrArg (fun c z => Scalar.select c (f (ix3 b h w)) z) ?_) ?_
  · refine (broadcastInDim_apply _ _ _ (ix3 b h w) (ix3 b (0 : Fin 1) (0 : Fin 1)) (fun a => match a with
      | ⟨0, _⟩ => rfl
      | ⟨1, _⟩ => rfl
      | ⟨2, _⟩ => rfl)).trans ?_
    exact broadcastInDim_apply _ _ _ (ix3 b (0 : Fin 1) (0 : Fin 1)) (ix1 b) (fun a => match a with
      | ⟨0, _⟩ => rfl)
  · exact broadcastInDim_apply _ _ _ (ix3 b h w) ix0 (fun a => a.elim0)

/-- The reference's mask at `(b, 0, h, w)`. -/
theorem maskedR_apply (anyb : (⟨1, ![4]⟩ : Shape).Idx → BitVec 1) (f : Img) (b : Fin 4) (h w : Fin 256) :
    maskedR anyb f (ix4 b (0 : Fin 1) h w) = Scalar.select (anyb (ix1 b)) (f (ix4 b (0 : Fin 1) h w)) (Ideal.ofBits .f32 0x00000000#32) := by
  unfold maskedR
  rw [select_apply]
  refine congr (congrArg (fun c z => Scalar.select c (f (ix4 b (0 : Fin 1) h w)) z) ?_) ?_
  · refine (broadcastInDim_apply _ _ _ (ix4 b (0 : Fin 1) h w) (ix4 b (0 : Fin 1) (0 : Fin 1) (0 : Fin 1)) (fun a => match a with
      | ⟨0, _⟩ => rfl
      | ⟨1, _⟩ => rfl
      | ⟨2, _⟩ => rfl
      | ⟨3, _⟩ => rfl)).trans ?_
    exact broadcastInDim_apply _ _ _ (ix4 b (0 : Fin 1) (0 : Fin 1) (0 : Fin 1)) (ix1 b) (fun a => match a with
      | ⟨0, _⟩ => rfl)
  · exact broadcastInDim_apply _ _ _ (ix4 b (0 : Fin 1) h w) ix0 (fun a => a.elim0)

/-- The reference's masked field at `(b, 0, h, w)`. -/
theorem dtR_apply (x : Img) (b : Fin 4) (h w : Fin 256) :
    dtR x (ix4 b (0 : Fin 1) h w)
      = Scalar.select (anyR x (ix1 b)) (edtRef (seedFgR x) (ix4 b (0 : Fin 1) h w) + edtRef (seedBgR x) (ix4 b (0 : Fin 1) h w))
          (Ideal.ofBits .f32 0x00000000#32) := by
  unfold dtR
  rw [maskedR_apply, addf_apply]

/-- The reference's transform of the foreground seed, and of the background seed. -/
theorem edtRef_fg (x : Img) (b : Fin 4) (h w : Fin 256) :
    edtRef (seedFgR x) (ix4 b (0 : Fin 1) h w) = edt (fun j' j => seedOf (pbit x b j' j)) h w := by
  rw [edtRef_apply]; simp only [seedFgR_apply]; rfl
theorem edtRef_bg (x : Img) (b : Fin 4) (h w : Fin 256) :
    edtRef (seedBgR x) (ix4 b (0 : Fin 1) h w) = edt (fun j' j => seedOf (~~~(pbit x b j' j))) h w := by
  rw [edtRef_apply]; simp only [seedBgR_apply]; rfl

/-- The second region's output. -/
noncomputable abbrev outK (x0 x1 : Img) : (⟨2, ![4096, 256]⟩ : Shape).Idx → EReal :=
  G1 (lines1 (G0 (lines0 x0 x1) table)) table

/-- The kernel's four fields at `(b, h, w)`. -/
theorem fieldK0 (x0 x1 : Img) (b : Fin 4) (h w : Fin 256) :
    outK x0 x1 (ix2 (row (⟨0, by omega⟩ : Fin 4) b h) w) = edt (fun j' j => seedOf (pbit x0 b j' j)) h w := by
  refine (field_apply x0 x1 (⟨0, by omega⟩ : Fin 4) b h w).trans ?_
  show Ideal.sqrt (min (min BIG (pass Dtab (fun j => min BIG (pass Dtab (fun j' => fgK x0 (ix3 b j' j)) h)) w)) BIG) = _
  simp only [fgK_seed]
  exact clamped_eq _ (fun _ _ => seedOf_le _) h w
theorem fieldK1 (x0 x1 : Img) (b : Fin 4) (h w : Fin 256) :
    outK x0 x1 (ix2 (row (⟨1, by omega⟩ : Fin 4) b h) w) = edt (fun j' j => seedOf (~~~(pbit x0 b j' j))) h w := by
  refine (field_apply x0 x1 (⟨1, by omega⟩ : Fin 4) b h w).trans ?_
  show Ideal.sqrt (min (min BIG (pass Dtab (fun j => min BIG (pass Dtab (fun j' => bgK x0 (ix3 b j' j)) h)) w)) BIG) = _
  simp only [bgK_seed]
  exact clamped_eq _ (fun _ _ => seedOf_le _) h w
theorem fieldK2 (x0 x1 : Img) (b : Fin 4) (h w : Fin 256) :
    outK x0 x1 (ix2 (row (⟨2, by omega⟩ : Fin 4) b h) w) = edt (fun j' j => seedOf (pbit x1 b j' j)) h w := by
  refine (field_apply x0 x1 (⟨2, by omega⟩ : Fin 4) b h w).trans ?_
  show Ideal.sqrt (min (min BIG (pass Dtab (fun j => min BIG (pass Dtab (fun j' => fgK x1 (ix3 b j' j)) h)) w)) BIG) = _
  simp only [fgK_seed]
  exact clamped_eq _ (fun _ _ => seedOf_le _) h w
theorem fieldK3 (x0 x1 : Img) (b : Fin 4) (h w : Fin 256) :
    outK x0 x1 (ix2 (row (⟨3, by omega⟩ : Fin 4) b h) w) = edt (fun j' j => seedOf (~~~(pbit x1 b j' j))) h w := by
  refine (field_apply x0 x1 (⟨3, by omega⟩ : Fin 4) b h w).trans ?_
  show Ideal.sqrt (min (min BIG (pass Dtab (fun j => min BIG (pass Dtab (fun j' => bgK x1 (ix3 b j' j)) h)) w)) BIG) = _
  simp only [bgK_seed]
  exact clamped_eq _ (fun _ _ => seedOf_le _) h w

/-- THE FIRST IMAGE'S MASKED FIELD is the same array in both programs. -/
theorem dt_eq0 (x0 x1 : Img) : maskedK (anyK x0) (addf (cut0 (outK x0 x1)) (cut1 (outK x0 x1))) = dtR x0 := by
  funext i
  obtain ⟨b, u, h, w, rfl⟩ : ∃ (b : Fin 4) (u : Fin 1) (h w : Fin 256), i = ix4 b u h w := ⟨i 0, i 1, i 2, i 3, eq_ix4 i⟩
  have hu : u = 0 := Subsingleton.elim _ _
  subst hu
  rw [maskedK_apply, dtR_apply, any_eq, addf_apply, cut0_apply, cut1_apply, fieldK0, fieldK1, edtRef_fg, edtRef_bg]

/-- THE SECOND IMAGE'S MASKED FIELD is the same array in both programs. -/
theorem dt_eq1 (x0 x1 : Img) : maskedK (anyK x1) (addf (cut2 (outK x0 x1)) (cut3 (outK x0 x1))) = dtR x1 := by
  funext i
  obtain ⟨b, u, h, w, rfl⟩ : ∃ (b : Fin 4) (u : Fin 1) (h w : Fin 256), i = ix4 b u h w := ⟨i 0, i 1, i 2, i 3, eq_ix4 i⟩
  have hu : u = 0 := Subsingleton.elim _ _
  subst hu
  rw [maskedK_apply, dtR_apply, any_eq, addf_apply, cut2_apply, cut3_apply, fieldK2, fieldK3, edtRef_fg, edtRef_bg]

/-- THE TWO LOSSES are one value. -/
theorem loss_eq (x0 x1 : Img) :
    lossK x0 x1 (maskedK (anyK x0) (addf (cut0 (outK x0 x1)) (cut1 (outK x0 x1)))) (maskedK (anyK x1) (addf (cut2 (outK x0 x1)) (cut3 (outK x0 x1))))
      = lossR x0 x1 (dtR x0) (dtR x1) := by
  rw [dt_eq0, dt_eq1]
  rfl

end Cert.Bridge

end
-- ==== Proof.lean ====
/-
  The certificate of the Hausdorff distance-transform loss: a Pallas kernel program against its jnp reference, at the ideal
  instance.

  The kernel program computes, for the prediction and for the target, the exact separable squared Euclidean distance
  transform of the foreground and of the background by two pallas regions — a min-plus pass down the columns, then one along
  the rows with the square root fused in — over the four fields stacked as 4096 lines; its accumulators start at the finite
  constant BIG = 1e10 where the reference's reductions start at +inf.  The reference runs three unclamped passes per field
  (the first along an axis of extent one) and clamps once.  Both end with the mean of the squared difference of the images
  times the sum of the squares of the two masked fields.

  * The three frames: each program terminates, faults nowhere, and leaves its two argument arrays as launched — the two
    kernel programs by the run of their thirteen segments (`Hand.frame`), the reference by its straight-line run.
  * `preserves`: the ideal pass rewrote nothing.
  * `algebraic`: the kernel program's result is `lossK` of the images and the masked fields read off the second region's
    output (`KV.kernel_value`), the reference's is `lossR` of the images and its masked fields (`RV.run`), and the two are one
    value (`Bridge.loss_eq`): the seeds lie in {0, BIG}, the table of squared distances vanishes on its diagonal, so clamping
    each pass by BIG changes nothing.  The precondition is not used: the law holds on all extended reals.
-/
import proofs.«149378_j17952963297871_2_alg».proof.Defs
import proofs.«149378_j17952963297871_2_alg».proof.Proof.Gen.Kernel
import proofs.«149378_j17952963297871_2_alg».proof.Proof.Gen.KernelIdeal
import proofs.«149378_j17952963297871_2_alg».proof.Proof.Gen.ReferenceIdeal
import proofs.«149378_j17952963297871_2_alg».proof.Proof.Gen.Pre_finite_inputs
import proofs.«149378_j17952963297871_2_alg».proof.Proof.BitsRun
import proofs.«149378_j17952963297871_2_alg».proof.Proof.IdealRun
import proofs.«149378_j17952963297871_2_alg».proof.Proof.KernelValue
import proofs.«149378_j17952963297871_2_alg».proof.Proof.RefValue
import proofs.«149378_j17952963297871_2_alg».proof.Proof.Bridge

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RV.run m ρ)

/-- From memories agreeing on the two images both programs run to the same loss. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.RV.lossR (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (Cert.ReferenceIdeal.RV.dtR (m ((c.tc : Thread Cert.KernelIdeal.nD Cert.KernelIdeal.τ).loc Cert.KernelIdeal.main_arg0)))
      (Cert.ReferenceIdeal.RV.dtR (m ((c.tc : Thread Cert.KernelIdeal.nD Cert.KernelIdeal.τ).loc Cert.KernelIdeal.main_arg1))), ?_, ?_⟩
  · refine (θ_run Cert.KernelIdeal.defs _ _).mono (fun r h c => ⟨?_, ?_, ?_⟩) (Cert.KernelIdeal.Hand.run_all m ρ)
    · exact ((h c _ (Cert.KernelIdeal.Hand.mem_uc Cert.KernelIdeal.main_v68 (by decide))).trans (Cert.KernelIdeal.KV.kernel_value m ρ c)).trans
        (Cert.Bridge.loss_eq _ _)
    · exact (h c _ (Cert.KernelIdeal.Hand.mem_uc Cert.KernelIdeal.main_arg0 (by decide))).trans (Cert.KernelIdeal.Hand.W13_main_arg0 m ρ c)
    · exact (h c _ (Cert.KernelIdeal.Hand.mem_uc Cert.KernelIdeal.main_arg1 (by decide))).trans (Cert.KernelIdeal.Hand.W13_main_arg1 m ρ c)
  · refine (θ_run Cert.ReferenceIdeal.defs _ _).mono (fun r h c => ⟨?_, (h c).2.1, (h c).2.2⟩) (Cert.ReferenceIdeal.RV.run m' ρ')
    rw [(h c).1, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
